-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3072 : Shape := ⟨2, ![128, 3072]⟩
abbrev S128x32x3072 : Shape := ⟨3, ![128, 32, 3072]⟩
abbrev S3072x1024 : Shape := ⟨2, ![3072, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S1024x3072 : Shape := ⟨2, ![1024, 3072]⟩
abbrev S3072 : Shape := ⟨1, ![3072]⟩
abbrev S_ : Shape := ⟨0, ![]⟩

class Facts : Prop where
  bcast_S_S128x3072 : S_.BroadcastsInDim S128x3072 (![] : Fin 0 → Fin S128x3072.rank)
  reducesTo_S128x3072_S_d0_1 : S128x3072.ReducesTo [0, 1] S_
  h_S_ : 0 < S_.numel
  bcast_S_S128x32x3072 : S_.BroadcastsInDim S128x32x3072 (![] : Fin 0 → Fin S128x32x3072.rank)
  reducesTo_S128x32x3072_S_d0_1_2 : S128x32x3072.ReducesTo [0, 1, 2] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x3072 .f32) (main_arg13 : FVec F S3072 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x3072 .f32 := Host.absf main_arg12
  let main_cst_22 : FVec F S_ .f32 := constant S_ .f32 0x7F800000#32
  let main_v60 : FVec F S1024x3072 .f32 := broadcastInDim S1024x3072 ![] bcast_S_S1024x3072 main_cst_22
  let main_v61 : IVec S1024x3072 1 := cmpf .olt main_v59 main_v60
  let main_c_23 : IVec S_ 1 := constantI S_ 1 1#1
  let main_v62 : IVec S_ 1 := (fun x v => Host.reduce IntOp.andi x v reducesTo_S1024x3072_S_d0_1 h_S_) main_v61 main_c_23
  let main_v63 : IVec S_ 1 := andi main_v58 main_v62
  let main_v64 : FVec F S3072 .f32 := Host.absf main_arg13
  let main_cst_24 : FVec F S_ .f32 := constant S_ .f32 0x7F800000#32
  let main_v65 : FVec F S3072 .f32 := broadcastInDim S3072 ![] bcast_S_S3072 main_cst_24
  let main_v66 : IVec S3072 1 := cmpf .olt main_v64 main_v65
  let main_c_25 : IVec S_ 1 := constantI S_ 1 1#1
  let main_v67 : IVec S_ 1 := (fun x v => Host.reduce IntOp.andi x v reducesTo_S3072_S_d0 h_S_) main_v66 main_c_25
  fn_part4 (F := F) main_v63 main_v67

def fn_part2 {F : FTy → Type} [FloatOps F] (main_arg7 : FVec F S32 .f32) (main_arg8 : FVec F S32x1024 .f32) (main_arg9 : FVec F S1024 .f32) (main_arg10 : FVec F S1024x1024 .f32) (main_arg11 : FVec F S1024 .f32) (main_arg12 : FVec F S1024x3072 .f32) (main_arg13 : FVec F S3072 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1024 .f32 := Host.absf main_arg8
  let main_cst_14 : FVec F S_ .f32 := constant S_ .f32 0x7F800000#32
  let main_v40 : FVec F S32x1024 .f32 := broadcastInDim S32x1024 ![] bcast_S_S32x1024 main_cst_14
  let main_v41 : IVec S32x1024 1 := cmpf .olt main_v39 main_v40
  let main_c_15 : IVec S_ 1 := constantI S_ 1 1#1
  let main_v42 : IVec S_ 1 := (fun x v => Host.reduce IntOp.andi x v reducesTo_S32x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x32 .f32) (main_arg7 : FVec F S32 .f32) (main_arg8 : FVec F S32x1024 .f32) (main_arg9 : FVec F S1024 .f32) (main_arg10 : FVec F S1024x1024 .f32) (main_arg11 : FVec F S1024 .f32) (main_arg12 : FVec F S1024x3072 .f32) (main_arg13 : FVec F S3072 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x3072 .f32) (main_arg1 : FVec F S128x32x3072 .f32) (main_arg2 : FVec F S3072x1024 .f32) (main_arg3 : FVec F S1024 .f32) (main_arg4 : FVec F S1024x1024 .f32) (main_arg5 : FVec F S1024 .f32) (main_arg6 : FVec F S1024x32 .f32) (main_arg7 : FVec F S32 .f32) (main_arg8 : FVec F S32x1024 .f32) (main_arg9 : FVec F S1024 .f32) (main_arg10 : FVec F S1024x1024 .f32) (main_arg11 : FVec F S1024 .f32) (main_arg12 : FVec F S1024x3072 .f32) (main_arg13 : FVec F S3072 .f32) : IVec S_ 1 :=
  let main_v0 : FVec F S128x3072 .f32 := Host.absf main_arg0
  let main_cst : FVec F S_ .f32 := constant S_ .f32 0x7F800000#32
  let main_v1 : FVec F S128x3072 .f32 := broadcastInDim S128x3072 ![] bcast_S_S128x3072 main_cst
  let main_v2 : IVec S128x3072 1 := cmpf .olt main_v0 main_v1
  let main_c : IVec S_ 1 := constantI S_ 1 1#1
  let main_v3 : IVec S_ 1 := (fun x v => Host.reduce IntOp.andi x v reducesTo_S128x3072_S_d0_1 h_S_) main_v2 main_c
  let main_v4 : FVec F S128x32x3072 .f32 := Host.absf main_arg1
  let main_cst_0 : FVec F S_ .f32 := constant S_ .f32 0x7F800000#32
  let main_v5 : FVec F S128x32x3072 .f32 := broadcastInDim S128x32x3072 ![] bcast_S_S128x32x3072 main_cst_0
  let main_v6 : IVec S128x32x3072 1 := cmpf .olt main_v4 main_v5
  let main_c_1 : IVec S_ 1 := constantI S_ 1 1#1
  let main_v7 : IVec S_ 1 := (fun x v => Host.reduce IntOp.andi x v reducesTo_S128x32x3072_S_d0_1_2 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x3072 : Shape := ⟨2, ![128, 3072]⟩
abbrev S128x32x3072 : Shape := ⟨3, ![128, 32, 3072]⟩
abbrev S3072x1024 : Shape := ⟨2, ![3072, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S1024x3072 : Shape := ⟨2, ![1024, 3072]⟩
abbrev S3072 : Shape := ⟨1, ![3072]⟩
abbrev S128x1 : Shape := ⟨2, ![128, 1]⟩
abbrev S8x3072 : Shape := ⟨2, ![8, 3072]⟩
abbrev S8x32x3072 : Shape := ⟨3, ![8, 32, 3072]⟩
abbrev S8x1 : Shape := ⟨2, ![8, 1]⟩
abbrev S8x1024 : Shape := ⟨2, ![8, 1024]⟩
abbrev S1x1024 : Shape := ⟨2, ![1, 1024]⟩
abbrev S8x32 : Shape := ⟨2, ![8, 32]⟩
abbrev S1x32 : Shape := ⟨2, ![1, 32]⟩
abbrev S256x3072 : Shape := ⟨2, ![256, 3072]⟩
abbrev S256x1024 : Shape := ⟨2, ![256, 1024]⟩
abbrev S256x32 : Shape := ⟨2, ![256, 32]⟩
abbrev S1x3072 : Shape := ⟨2, ![1, 3072]⟩
abbrev S8x32x32 : Shape := ⟨3, ![8, 32, 32]⟩
abbrev S8x1x32 : Shape := ⟨3, ![8, 1, 32]⟩
abbrev S8x1x3072 : Shape := ⟨3, ![8, 1, 3072]⟩
abbrev S8x32x1024 : Shape := ⟨3, ![8, 32, 1024]⟩
abbrev S8x1x1024 : Shape := ⟨3, ![8, 1, 1024]⟩
abbrev S8 : Shape := ⟨1, ![8]⟩
abbrev S_ : Shape := ⟨0, ![]⟩

abbrev nBuf : Space → Nat
  | .hbm => 25
  | .vmem => 18
  | .smem => 0
  | _ => 0

abbrev bufTy : (tb : Table) → Fin (tcTables nBuf tb) → BufTy
  | .hbm, ⟨0, _⟩ => ⟨S128x3072, .f32⟩
  | .hbm, ⟨1, _⟩ => ⟨S128x32x3072, .f32⟩
  | .hbm, ⟨2, _⟩ => ⟨S3072x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S32x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x3072, .f32⟩
  | .hbm, ⟨13, _⟩ => ⟨S3072, .f32⟩
  | .hbm, ⟨14, _⟩ => ⟨S3072x1024, .bf16⟩
  | .hbm, ⟨15, _⟩ => ⟨S1024x1024, .bf16⟩
  | .hbm, ⟨16, _⟩ => ⟨S1024x32, .bf16⟩
  | .hbm, ⟨17, _⟩ => ⟨S32x1024, .bf16⟩
  | .hbm, ⟨18, _⟩ => ⟨S1024x1024, .bf16⟩
  | .hbm, ⟨19, _⟩ => ⟨S1024x3072, .bf16⟩
  | .hbm, ⟨20, _⟩ => ⟨S128x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x3072, .f32⟩
  | .local _ .vmem, ⟨1, _⟩ => ⟨S8x3072, .f32⟩
  | .local _ .vmem, ⟨2, _⟩ => ⟨S8x32x3072, .f32⟩
  | .local _ .vmem, ⟨3, _⟩ => ⟨S8x32x3072, .f32⟩
  | .local _ .vmem, ⟨4, _⟩ => ⟨S3072x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x32, .bf16⟩
  | .local _ .vmem, ⟨9, _⟩ => ⟨S32, .f32⟩
  | .local _ .vmem, ⟨10, _⟩ => ⟨S32x1024, .bf16⟩
  | .local _ .vmem, ⟨11, _⟩ => ⟨S1024, .f32⟩
  | .local _ .vmem, ⟨12, _⟩ => ⟨S1024x1024, .bf16⟩
  | .local _ .vmem, ⟨13, _⟩ => ⟨S1024, .f32⟩
  | .local _ .vmem, ⟨14, _⟩ => ⟨S1024x3072, .bf16⟩
  | .local _ .vmem, ⟨15, _⟩ => ⟨S3072, .f32⟩
  | .local _ .vmem, ⟨16, _⟩ => ⟨S8x1, .f32⟩
  | .local _ .vmem, ⟨17, _⟩ => ⟨S8x1, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  inb_S8x3072_S8x3072_0_0 : ∀ a, (![0, 0] : Fin 2 → Nat) a + S8x3072.size a ≤ S8x3072.size a
  h_S8x3072 : 0 < S8x3072.numel
  inb_S8x32x3072_S8x32x3072_0_0_0 : ∀ a, (![0, 0, 0] : Fin 3 → Nat) a + S8x32x3072.size a ≤ S8x32x3072.size a
  h_S8x32x3072 : 0 < S8x32x3072.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1024_S1024_0 : ∀ a, (![0] : Fin 1 → Nat) a + S1024.size a ≤ S1024.size a
  h_S1024 : 0 < S1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32_S32_0 : ∀ a, (![0] : Fin 1 → Nat) a + S32.size a ≤ S32.size a
  h_S32 : 0 < S32.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S1024_S1x1024 : S1024.ShapeCasts S1x1024
  broadcasts_S1x1024_S8x1024 : S1x1024.Broadcasts S8x1024
  shapeCasts_S32_S1x32 : S32.ShapeCasts S1x32
  broadcasts_S1x32_S8x32 : S1x32.Broadcasts S8x32
  shapeCasts_S8x32x3072_S256x3072 : S8x32x3072.ShapeCasts S256x3072
  broadcasts_S1x1024_S256x1024 : S1x1024.Broadcasts S256x1024
  broadcasts_S1x32_S256x32 : S1x32.Broadcasts S256x32
  natLt_1_32 : 1 < 32
  shapeCasts_S3072_S1x3072 : S3072.ShapeCasts S1x3072
  broadcasts_S1x3072_S8x3072 : S1x3072.Broadcasts S8x3072
  shapeCasts_S256x32_S8x32x32 : S256x32.ShapeCasts S8x32x32
  shapeCasts_S8x32_S8x1x32 : S8x32.ShapeCasts S8x1x32
  broadcasts_S8x1x32_S8x32x32 : S8x1x32.Broadcasts S8x32x32
  shapeCasts_S8x32x32_S256x32 : S8x32x32.ShapeCasts S256x32
  shapeCasts_S8x3072_S8x1x3072 : S8x3072.ShapeCasts S8x1x3072
  broadcasts_S8x1x3072_S8x32x3072 : S8x1x3072.Broadcasts S8x32x3072
  reduces_S8x32x3072_S8x32 : S8x32x3072.Reduces [2] S8x32
  shapeCasts_S256x1024_S8x32x1024 : S256x1024.ShapeCasts S8x32x1024
  shapeCasts_S8x1024_S8x1x1024 : S8x1024.ShapeCasts S8x1x1024
  broadcasts_S8x1x1024_S8x32x1024 : S8x1x1024.Broadcasts S8x32x1024
  shapeCasts_S8x32x1024_S256x1024 : S8x32x1024.ShapeCasts S256x1024
  shapeCasts_S256x3072_S8x32x3072 : S256x3072.ShapeCasts S8x32x3072
  reduces_S8x32_S8 : S8x32.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  reducesTo_S128x1_S_d0_1 : S128x1.ReducesTo [0, 1] S_
  h_S_ : 0 < S_.numel
  dot_S8x3072_S3072x1024_S8x1024_1_0_0_1_n_n_wf : DotDims.WF S8x3072 S3072x1024 S8x1024 [1] [0] [0] [1] [] []
  dot_S8x1024_S1024x1024_S8x1024_1_0_0_1_n_n_wf : DotDims.WF S8x1024 S1024x1024 S8x1024 [1] [0] [0] [1] [] []
  dot_S8x1024_S1024x32_S8x32_1_0_0_1_n_n_wf : DotDims.WF S8x1024 S1024x32 S8x32 [1] [0] [0] [1] [] []
  dot_S256x3072_S3072x1024_S256x1024_1_0_0_1_n_n_wf : DotDims.WF S256x3072 S3072x1024 S256x1024 [1] [0] [0] [1] [] []
  dot_S256x1024_S1024x1024_S256x1024_1_0_0_1_n_n_wf : DotDims.WF S256x1024 S1024x1024 S256x1024 [1] [0] [0] [1] [] []
  dot_S256x1024_S1024x32_S256x32_1_0_0_1_n_n_wf : DotDims.WF S256x1024 S1024x32 S256x32 [1] [0] [0] [1] [] []
  dot_S8x32_S32x1024_S8x1024_1_0_0_1_n_n_wf : DotDims.WF S8x32 S32x1024 S8x1024 [1] [0] [0] [1] [] []
  dot_S8x1024_S1024x3072_S8x3072_1_0_0_1_n_n_wf : DotDims.WF S8x1024 S1024x3072 S8x3072 [1] [0] [0] [1] [] []
  dot_S256x32_S32x1024_S256x1024_1_0_0_1_n_n_wf : DotDims.WF S256x32 S32x1024 S256x1024 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3072.size a ≤ S128x3072.size a
  hwx0_0 : ∀ i : grid0.Coords, EltTy.bits .f32 = 32 ∨ (Rect.block (s := S128x3072) S8x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x3072.size a ≤ S128x32x3072.size a
  hwx0_1 : ∀ i : grid0.Coords, EltTy.bits .f32 = 32 ∨ (Rect.block (s := S128x32x3072) S8x32x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S1024x32.size a
  hwx0_6 : ∀ i : grid0.Coords, EltTy.bits .bf16 = 32 ∨ (Rect.block (s := S1024x32) S1024x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1024.size a ≤ S32x1024.size a
  hwx0_8 : ∀ i : grid0.Coords, EltTy.bits .bf16 = 32 ∨ (Rect.block (s := S32x1024) S32x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x3072.size a ≤ S1024x3072.size a
  hwx0_12 : ∀ i : grid0.Coords, EltTy.bits .bf16 = 32 ∨ (Rect.block (s := S1024x3072) S1024x3072.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3072.size a ≤ S3072.size a
  hwx0_13 : ∀ i : grid0.Coords, EltTy.bits .f32 = 32 ∨ (Rect.block (s := S3072) S3072.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x1.size a ≤ S128x1.size a
  hwx0_14 : ∀ i : grid0.Coords, EltTy.bits .f32 = 32 ∨ (Rect.block (s := S128x1) S8x1.size (cc0_transform_14 i) (hinb0_14 i)).WholeWords (EltTy.packing .f32)

variable [Facts₀]

def dot_S8x3072_S3072x1024_S8x1024_1_0_0_1_n_n : DotDims S8x3072 S3072x1024 S8x1024 where
  lhsContracting := [1]
  rhsContracting := [0]
  lhsNonContracting := [0]
  rhsNonContracting := [1]
  lhsBatch := []
  rhsBatch := []
  wf := dot_S8x3072_S3072x1024_S8x1024_1_0_0_1_n_n_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S8x1024_S1024x32_S8x32_1_0_0_1_n_n : DotDims S8x1024 S1024x32 S8x32 where
  lhsContracting := [1]
  rhsContracting := [0]
  lhsNonContracting := [0]
  rhsNonContracting := [1]
  lhsBatch := []
  rhsBatch := []
  wf := dot_S8x1024_S1024x32_S8x32_1_0_0_1_n_n_wf
def dot_S256x3072_S3072x1024_S256x1024_1_0_0_1_n_n : DotDims S256x3072 S3072x1024 S256x1024 where
  lhsContracting := [1]
  rhsContracting := [0]
  lhsNonContracting := [0]
  rhsNonContracting := [1]
  lhsBatch := []
  rhsBatch := []
  wf := dot_S256x3072_S3072x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S8x32_S32x1024_S8x1024_1_0_0_1_n_n : DotDims S8x32 S32x1024 S8x1024 where
  lhsContracting := [1]
  rhsContracting := [0]
  lhsNonContracting := [0]
  rhsNonContracting := [1]
  lhsBatch := []
  rhsBatch := []
  wf := dot_S8x32_S32x1024_S8x1024_1_0_0_1_n_n_wf
def dot_S8x1024_S1024x3072_S8x3072_1_0_0_1_n_n : DotDims S8x1024 S1024x3072 S8x3072 where
  lhsContracting := [1]
  rhsContracting := [0]
  lhsNonContracting := [0]
  rhsNonContracting := [1]
  lhsBatch := []
  rhsBatch := []
  wf := dot_S8x1024_S1024x3072_S8x3072_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S8x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S32x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x3072.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S3072.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S8x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x3072 : Shape := ⟨2, ![128, 3072]⟩
abbrev S128x32x3072 : Shape := ⟨3, ![128, 32, 3072]⟩
abbrev S3072x1024 : Shape := ⟨2, ![3072, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S1024x3072 : Shape := ⟨2, ![1024, 3072]⟩
abbrev S3072 : Shape := ⟨1, ![3072]⟩
abbrev S128x1024 : Shape := ⟨2, ![128, 1024]⟩
abbrev S1x1024 : Shape := ⟨2, ![1, 1024]⟩
abbrev S_ : Shape := ⟨0, ![]⟩
abbrev S128x32 : Shape := ⟨2, ![128, 32]⟩
abbrev S1x32 : Shape := ⟨2, ![1, 32]⟩
abbrev S4096x3072 : Shape := ⟨2, ![4096, 3072]⟩
abbrev S4096x1024 : Shape := ⟨2, ![4096, 1024]⟩
abbrev S4096x32 : Shape := ⟨2, ![4096, 32]⟩
abbrev S128x32x32 : Shape := ⟨3, ![128, 32, 32]⟩
abbrev S1x3072 : Shape := ⟨2, ![1, 3072]⟩
abbrev S128x1x32 : Shape := ⟨3, ![128, 1, 32]⟩
abbrev S128x1x3072 : Shape := ⟨3, ![128, 1, 3072]⟩

abbrev nBuf : Space → Nat
  | .hbm => 160
  | .vmem => 0
  | .smem => 0
  | _ => 0

abbrev hbmTy0_0 (i : Nat) : BufTy := match i % 128 with
  | 0 => ⟨S128x3072, .f32⟩
  | 1 => ⟨S128x32x3072, .f32⟩
  | 2 => ⟨S3072x1024, .f32⟩
  | 3 => ⟨S1024, .f32⟩
  | 4 => ⟨S1024x1024, .f32⟩
  | 5 => ⟨S1024, .f32⟩
  | 6 => ⟨S1024x32, .f32⟩
  | 7 => ⟨S32, .f32⟩
  | 8 => ⟨S32x1024, .f32⟩
  | 9 => ⟨S1024, .f32⟩
  | 10 => ⟨S1024x1024, .f32⟩
  | 11 => ⟨S1024, .f32⟩
  | 12 => ⟨S1024x3072, .f32⟩
  | 13 => ⟨S3072, .f32⟩
  | 14 => ⟨S128x1024, .f32⟩
  | 15 => ⟨S1x1024, .f32⟩
  | 16 => ⟨S128x1024, .f32⟩
  | 17 => ⟨S128x1024, .f32⟩
  | 18 => ⟨S_, .f32⟩
  | 19 => ⟨S128x1024, .f32⟩
  | 20 => ⟨S128x1024, .f32⟩
  | 21 => ⟨S128x1024, .f32⟩
  | 22 => ⟨S1x1024, .f32⟩
  | 23 => ⟨S128x1024, .f32⟩
  | 24 => ⟨S128x1024, .f32⟩
  | 25 => ⟨S_, .f32⟩
  | 26 => ⟨S128x1024, .f32⟩
  | 27 => ⟨S128x1024, .f32⟩
  | 28 => ⟨S128x32, .f32⟩
  | 29 => ⟨S1x32, .f32⟩
  | 30 => ⟨S128x32, .f32⟩
  | 31 => ⟨S128x32, .f32⟩
  | 32 => ⟨S4096x3072, .f32⟩
  | 33 => ⟨S4096x1024, .f32⟩
  | 34 => ⟨S1x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x32, .f32⟩
  | 48 => ⟨S1x32, .f32⟩
  | 49 => ⟨S4096x32, .f32⟩
  | 50 => ⟨S4096x32, .f32⟩
  | 51 => ⟨S128x32x32, .f32⟩
  | 52 => ⟨S128x1024, .f32⟩
  | 53 => ⟨S1x1024, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S1x1024, .f32⟩
  | 61 => ⟨S128x1024, .f32⟩
  | 62 => ⟨S128x1024, .f32⟩
  | 63 => ⟨S_, .f32⟩
  | 64 => ⟨S128x1024, .f32⟩
  | 65 => ⟨S128x1024, .f32⟩
  | 66 => ⟨S128x3072, .f32⟩
  | 67 => ⟨S1x3072, .f32⟩
  | 68 => ⟨S128x3072, .f32⟩
  | 69 => ⟨S128x3072, .f32⟩
  | 70 => ⟨S128x1x32, .f32⟩
  | 71 => ⟨S128x32x32, .f32⟩
  | 72 => ⟨S128x32x32, .f32⟩
  | 73 => ⟨S4096x32, .f32⟩
  | 74 => ⟨S128x1x32, .f32⟩
  | 75 => ⟨S128x32x32, .f32⟩
  | 76 => ⟨S4096x32, .f32⟩
  | 77 => ⟨S4096x1024, .f32⟩
  | 78 => ⟨S4096x1024, .f32⟩
  | 79 => ⟨S4096x1024, .f32⟩
  | 80 => ⟨S1x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096x1024, .f32⟩
  | 88 => ⟨S4096x1024, .i1⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .i1⟩
  | 95 => ⟨S_, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S1x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S_, .f32⟩
  | 108 => ⟨S4096x1024, .f32⟩
  | 109 => ⟨S4096x1024, .i1⟩
  | 110 => ⟨S_, .f32⟩
  | 111 => ⟨S4096x1024, .f32⟩
  | 112 => ⟨S4096x1024, .f32⟩
  | 113 => ⟨S_, .f32⟩
  | 114 => ⟨S4096x1024, .f32⟩
  | 115 => ⟨S4096x1024, .i1⟩
  | 116 => ⟨S_, .f32⟩
  | 117 => ⟨S4096x1024, .f32⟩
  | 118 => ⟨S4096x1024, .f32⟩
  | 119 => ⟨S4096x3072, .f32⟩
  | 120 => ⟨S4096x3072, .f32⟩
  | 121 => ⟨S4096x3072, .f32⟩
  | 122 => ⟨S1x3072, .f32⟩
  | 123 => ⟨S4096x3072, .f32⟩
  | 124 => ⟨S4096x3072, .f32⟩
  | 125 => ⟨S_, .f32⟩
  | 126 => ⟨S4096x3072, .f32⟩
  | 127 => ⟨S128x1x3072, .f32⟩
  | _ => ⟨S128x3072, .f32⟩

abbrev hbmTy0_1 (i : Nat) : BufTy := match i % 128 with
  | 0 => ⟨S_, .f32⟩
  | 1 => ⟨S4096x3072, .f32⟩
  | 2 => ⟨S4096x3072, .f32⟩
  | 3 => ⟨S4096x3072, .f32⟩
  | 4 => ⟨S128x32x3072, .f32⟩
  | 5 => ⟨S128x32x3072, .f32⟩
  | 6 => ⟨S128x32x3072, .f32⟩
  | 7 => ⟨S128x32x3072, .f32⟩
  | 8 => ⟨S128x32x3072, .f32⟩
  | 9 => ⟨S_, .f32⟩
  | 10 => ⟨S128x32, .f32⟩
  | 11 => ⟨S128x1x3072, .f32⟩
  | 12 => ⟨S128x32x3072, .f32⟩
  | 13 => ⟨S128x32x3072, .f32⟩
  | 14 => ⟨S128x32x3072, .f32⟩
  | 15 => ⟨S_, .f32⟩
  | 16 => ⟨S128x32, .f32⟩
  | 17 => ⟨S128x32, .f32⟩
  | 18 => ⟨S_, .f32⟩
  | 19 => ⟨S128x32, .f32⟩
  | 20 => ⟨S128x32, .i1⟩
  | 21 => ⟨S_, .f32⟩
  | 22 => ⟨S_, .f32⟩
  | 23 => ⟨S128x32, .f32⟩
  | 24 => ⟨S128x32, .f32⟩
  | 25 => ⟨S128x32, .f32⟩
  | 26 => ⟨S128x32, .f32⟩
  | 27 => ⟨S128x32, .f32⟩
  | 28 => ⟨S_, .f32⟩
  | 29 => ⟨S_, .f32⟩
  | 30 => ⟨S_, .f32⟩
  | 31 => ⟨S_, .f32⟩
  | _ => ⟨S128x3072, .f32⟩

abbrev hbmTy (i : Nat) : BufTy := match i / 128 with
  | 0 => hbmTy0_0 i
  | 1 => hbmTy0_1 i
  | _ => ⟨S128x3072, .f32⟩

abbrev bufTy : (tb : Table) → Fin (tcTables nBuf tb) → BufTy
  | .hbm, ⟨i, _⟩ => hbmTy i
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call2_cst : Ref sig .tc := ⟨.hbm, 37, rfl⟩
abbrev main_call2_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call3_cst : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call4_cst : Ref sig .tc := ⟨.hbm, 56, rfl⟩
abbrev main_call4_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call5_cst : Ref sig .tc := ⟨.hbm, 63, rfl⟩
abbrev main_call5_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call6_cst : Ref sig .tc := ⟨.hbm, 83, rfl⟩
abbrev main_call6_v0 : Ref sig .tc := ⟨.hbm, 84, rfl⟩
abbrev main_v57 : Ref sig .tc := ⟨.hbm, 85, rfl⟩
abbrev main_cst : Ref sig .tc := ⟨.hbm, 86, rfl⟩
abbrev main_v58 : Ref sig .tc := ⟨.hbm, 87, rfl⟩
abbrev main_v59 : Ref sig .tc := ⟨.hbm, 88, rfl⟩
abbrev main_cst_0 : Ref sig .tc := ⟨.hbm, 89, rfl⟩
abbrev main_v60 : Ref sig .tc := ⟨.hbm, 90, rfl⟩
abbrev main_v61 : Ref sig .tc := ⟨.hbm, 91, rfl⟩
abbrev main_cst_1 : Ref sig .tc := ⟨.hbm, 92, rfl⟩
abbrev main_v62 : Ref sig .tc := ⟨.hbm, 93, rfl⟩
abbrev main_v63 : Ref sig .tc := ⟨.hbm, 94, rfl⟩
abbrev main_cst_2 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call7_cst : Ref sig .tc := ⟨.hbm, 104, rfl⟩
abbrev main_call7_v0 : Ref sig .tc := ⟨.hbm, 105, rfl⟩
abbrev main_v72 : Ref sig .tc := ⟨.hbm, 106, rfl⟩
abbrev main_cst_3 : Ref sig .tc := ⟨.hbm, 107, rfl⟩
abbrev main_v73 : Ref sig .tc := ⟨.hbm, 108, rfl⟩
abbrev main_v74 : Ref sig .tc := ⟨.hbm, 109, rfl⟩
abbrev main_cst_4 : Ref sig .tc := ⟨.hbm, 110, rfl⟩
abbrev main_v75 : Ref sig .tc := ⟨.hbm, 111, rfl⟩
abbrev main_v76 : Ref sig .tc := ⟨.hbm, 112, rfl⟩
abbrev main_cst_5 : Ref sig .tc := ⟨.hbm, 113, rfl⟩
abbrev main_v77 : Ref sig .tc := ⟨.hbm, 114, rfl⟩
abbrev main_v78 : Ref sig .tc := ⟨.hbm, 115, rfl⟩
abbrev main_cst_6 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_7 : Ref sig .tc := ⟨.hbm, 125, rfl⟩
abbrev main_v87 : Ref sig .tc := ⟨.hbm, 126, rfl⟩
abbrev main_v88 : Ref sig .tc := ⟨.hbm, 127, rfl⟩
abbrev main_cst_8 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_9 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call8_v0 : Ref sig .tc := ⟨.hbm, 142, rfl⟩
abbrev main_call8_cst : Ref sig .tc := ⟨.hbm, 143, rfl⟩
abbrev main_call8_v1 : Ref sig .tc := ⟨.hbm, 144, rfl⟩
abbrev main_v101 : Ref sig .tc := ⟨.hbm, 145, rfl⟩
abbrev main_cst_10 : Ref sig .tc := ⟨.hbm, 146, rfl⟩
abbrev main_v102 : Ref sig .tc := ⟨.hbm, 147, rfl⟩
abbrev main_v103 : Ref sig .tc := ⟨.hbm, 148, rfl⟩
abbrev main_cst_11 : Ref sig .tc := ⟨.hbm, 149, rfl⟩
abbrev main_cst_12 : Ref sig .tc := ⟨.hbm, 150, rfl⟩
abbrev main_call9_v0 : Ref sig .tc := ⟨.hbm, 151, rfl⟩
abbrev main_call9_v1 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_13 : Ref sig .tc := ⟨.hbm, 156, rfl⟩
abbrev main_v107 : Ref sig .tc := ⟨.hbm, 157, rfl⟩
abbrev main_cst_14 : Ref sig .tc := ⟨.hbm, 158, rfl⟩
abbrev main_v108 : Ref sig .tc := ⟨.hbm, 159, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  shapeCasts_S128x32x3072_S4096x3072 : S128x32x3072.ShapeCasts S4096x3072
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1x32_S4096x32_0_1 : S1x32.BroadcastsInDim S4096x32 (![0, 1] : Fin 2 → Fin S4096x32.rank)
  shapeCasts_S4096x32_S128x32x32 : S4096x32.ShapeCasts S128x32x32
  bcast_S3072_S1x3072_1 : S3072.BroadcastsInDim S1x3072 (![1] : Fin 1 → Fin S1x3072.rank)
  bcast_S1x3072_S128x3072_0_1 : S1x3072.BroadcastsInDim S128x3072 (![0, 1] : Fin 2 → Fin S128x3072.rank)
  bcast_S128x32_S128x1x32_0_2 : S128x32.BroadcastsInDim S128x1x32 (![0, 2] : Fin 2 → Fin S128x1x32.rank)
  bcast_S128x1x32_S128x32x32_0_1_2 : S128x1x32.BroadcastsInDim S128x32x32 (![0, 1, 2] : Fin 3 → Fin S128x32x32.rank)
  shapeCasts_S128x32x32_S4096x32 : S128x32x32.ShapeCasts S4096x32
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  bcast_S128x3072_S128x1x3072_0_2 : S128x3072.BroadcastsInDim S128x1x3072 (![0, 2] : Fin 2 → Fin S128x1x3072.rank)
  shapeCasts_S4096x3072_S128x32x3072 : S4096x3072.ShapeCasts S128x32x3072
  bcast_S128x1x3072_S128x32x3072_0_1_2 : S128x1x3072.BroadcastsInDim S128x32x3072 (![0, 1, 2] : Fin 3 → Fin S128x32x3072.rank)
  reducesTo_S128x32x3072_S128x32_d2 : S128x32x3072.ReducesTo [2] S128x32
  h_S_ : 0 < S_.numel
  bcast_S_S128x32 : S_.BroadcastsInDim S128x32 (![] : Fin 0 → Fin S128x32.rank)
  reducesTo_S128x32_S_d0_1 : S128x32.ReducesTo [0, 1] S_
  dot_S128x3072_S3072x1024_S128x1024_1_0_0_1_n_n_wf : DotDims.WF S128x3072 S3072x1024 S128x1024 [1] [0] [0] [1] [] []
  dot_S128x1024_S1024x1024_S128x1024_1_0_0_1_n_n_wf : DotDims.WF S128x1024 S1024x1024 S128x1024 [1] [0] [0] [1] [] []
  dot_S128x1024_S1024x32_S128x32_1_0_0_1_n_n_wf : DotDims.WF S128x1024 S1024x32 S128x32 [1] [0] [0] [1] [] []
  dot_S4096x3072_S3072x1024_S4096x1024_1_0_0_1_n_n_wf : DotDims.WF S4096x3072 S3072x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x32_S4096x32_1_0_0_1_n_n_wf : DotDims.WF S4096x1024 S1024x32 S4096x32 [1] [0] [0] [1] [] []
  dot_S128x32_S32x1024_S128x1024_1_0_0_1_n_n_wf : DotDims.WF S128x32 S32x1024 S128x1024 [1] [0] [0] [1] [] []
  dot_S128x1024_S1024x3072_S128x3072_1_0_0_1_n_n_wf : DotDims.WF S128x1024 S1024x3072 S128x3072 [1] [0] [0] [1] [] []
  dot_S4096x32_S32x1024_S4096x1024_1_0_0_1_n_n_wf : DotDims.WF S4096x32 S32x1024 S4096x1024 [1] [0] [0] [1] [] []
  dot_S4096x1024_S1024x3072_S4096x3072_1_0_0_1_n_n_wf : DotDims.WF S4096x1024 S1024x3072 S4096x3072 [1] [0] [0] [1] [] []

variable [Facts₀]

def dot_S128x3072_S3072x1024_S128x1024_1_0_0_1_n_n : DotDims S128x3072 S3072x1024 S128x1024 where
  lhsContracting := [1]
  rhsContracting := [0]
  lhsNonContracting := [0]
  rhsNonContracting := [1]
  lhsBatch := []
  rhsBatch := []
  wf := dot_S128x3072_S3072x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x32_S128x32_1_0_0_1_n_n : DotDims S128x1024 S1024x32 S128x32 where
  lhsContracting := [1]
  rhsContracting := [0]
  lhsNonContracting := [0]
  rhsNonContracting := [1]
  lhsBatch := []
  rhsBatch := []
  wf := dot_S128x1024_S1024x32_S128x32_1_0_0_1_n_n_wf
def dot_S4096x3072_S3072x1024_S4096x1024_1_0_0_1_n_n : DotDims S4096x3072 S3072x1024 S4096x1024 where
  lhsContracting := [1]
  rhsContracting := [0]
  lhsNonContracting := [0]
  rhsNonContracting := [1]
  lhsBatch := []
  rhsBatch := []
  wf := dot_S4096x3072_S3072x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x32_S4096x32_1_0_0_1_n_n : DotDims S4096x1024 S1024x32 S4096x32 where
  lhsContracting := [1]
  rhsContracting := [0]
  lhsNonContracting := [0]
  rhsNonContracting := [1]
  lhsBatch := []
  rhsBatch := []
  wf := dot_S4096x1024_S1024x32_S4096x32_1_0_0_1_n_n_wf
def dot_S128x32_S32x1024_S128x1024_1_0_0_1_n_n : DotDims S128x32 S32x1024 S128x1024 where
  lhsContracting := [1]
  rhsContracting := [0]
  lhsNonContracting := [0]
  rhsNonContracting := [1]
  lhsBatch := []
  rhsBatch := []
  wf := dot_S128x32_S32x1024_S128x1024_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S4096x32_S32x1024_S4096x1024_1_0_0_1_n_n : DotDims S4096x32 S32x1024 S4096x1024 where
  lhsContracting := [1]
  rhsContracting := [0]
  lhsNonContracting := [0]
  rhsNonContracting := [1]
  lhsBatch := []
  rhsBatch := []
  wf := dot_S4096x32_S32x1024_S4096x1024_1_0_0_1_n_n_wf
def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf

class Facts : Prop extends Facts₀ where

variable [Facts]
-- ==== Proof.KMat.lean ====
/-
  A block product read at an output entry: with a zero accumulator, entry (p, q) of the product of an [M, K] block
  and a [K, N] block is Σₖ l[p, k] · r[k, q] — at the exact values, whatever the operands' formats.  One statement per
  product shape the kernel's body uses; each re-indexes the contraction's one-axis index set by its coordinate.
-/
import proofs.«157039_j16423954940420_2_alg».proof.Proof.Gen.KernelIdeal
import Idealize.ShloMosaic.Lib.ValueIdx
import Idealize.ShloMosaic.PureOps.Ideal.Laws

noncomputable section

namespace Cert.KernelIdeal.KMat

open Cert.KernelIdeal Idealize.ShloMosaic Idealize.ShloMosaic.ValueIdx

theorem lhs0_8_3072_1024 (i : S8x1024.Idx) (q : dot_S8x3072_S3072x1024_S8x1024_1_0_0_1_n_n.contr.Idx) : (dot_S8x3072_S3072x1024_S8x1024_1_0_0_1_n_n.lhsIdx i q 0).val = (i 0).val := by
  unfold DotDims.lhsIdx
  rw [dif_neg (show ¬(0 : Fin S8x3072.rank) ∈ dot_S8x3072_S3072x1024_S8x1024_1_0_0_1_n_n.lhsBatch by decide),
    dif_pos (show (0 : Fin S8x3072.rank) ∈ dot_S8x3072_S3072x1024_S8x1024_1_0_0_1_n_n.lhsNonContracting by decide)]
  rfl
theorem rhs1_8_3072_1024 (i : S8x1024.Idx) (q : dot_S8x3072_S3072x1024_S8x1024_1_0_0_1_n_n.contr.Idx) : (dot_S8x3072_S3072x1024_S8x1024_1_0_0_1_n_n.rhsIdx i q 1).val = (i 1).val := by
  unfold DotDims.rhsIdx
  rw [dif_neg (show ¬(1 : Fin S3072x1024.rank) ∈ dot_S8x3072_S3072x1024_S8x1024_1_0_0_1_n_n.rhsBatch by decide),
    dif_pos (show (1 : Fin S3072x1024.rank) ∈ dot_S8x3072_S3072x1024_S8x1024_1_0_0_1_n_n.rhsNonContracting by decide)]
  rfl
theorem mm_8_3072_1024 {φ₁ φ₂ : FTy} (l : FVec Ideal S8x3072 φ₁) (r : FVec Ideal S3072x1024 φ₂) (p : Fin 8) (q : Fin 1024) :
    matmul dot_S8x3072_S3072x1024_S8x1024_1_0_0_1_n_n none l r (constant S8x1024 .f32 0x00000000#32) (ix2 p q)
      = ∑ k : Fin 3072, l (ix2 p k) * r (ix2 k q) := by
  refine (Ideal.matmul_constant_zero_apply dot_S8x3072_S3072x1024_S8x1024_1_0_0_1_n_n none l r (ix2 p q)).trans ?_
  rw [← Equiv.sum_comp (contrEquiv1 dot_S8x3072_S3072x1024_S8x1024_1_0_0_1_n_n 3072 rfl rfl).symm]
  refine Finset.sum_congr rfl fun k _ => ?_
  have hk := contrEquiv1_symm_val dot_S8x3072_S3072x1024_S8x1024_1_0_0_1_n_n 3072 rfl rfl k
  have el : dot_S8x3072_S3072x1024_S8x1024_1_0_0_1_n_n.lhsIdx (ix2 p q) ((contrEquiv1 dot_S8x3072_S3072x1024_S8x1024_1_0_0_1_n_n 3072 rfl rfl).symm k) = ix2 p k :=
    funext fun a => Fin.ext (by
      match a with
      | ⟨0, _⟩ => exact lhs0_8_3072_1024 _ _
      | ⟨1, _⟩ => exact (dot_S8x3072_S3072x1024_S8x1024_1_0_0_1_n_n.lhsIdx_val_of_single rfl _ _).trans hk)
  have er : dot_S8x3072_S3072x1024_S8x1024_1_0_0_1_n_n.rhsIdx (ix2 p q) ((contrEquiv1 dot_S8x3072_S3072x1024_S8x1024_1_0_0_1_n_n 3072 rfl rfl).symm k) = ix2 k q :=
    funext fun a => Fin.ext (by
      match a with
      | ⟨0, _⟩ => exact (dot_S8x3072_S3072x1024_S8x1024_1_0_0_1_n_n.rhsIdx_val_of_single rfl _ _).trans hk
      | ⟨1, _⟩ => exact rhs1_8_3072_1024 _ _)
  rw [el, er]

theorem lhs0_8_1024_1024 (i : S8x1024.Idx) (q : dot_S8x1024_S1024x1024_S8x1024_1_0_0_1_n_n.contr.Idx) : (dot_S8x1024_S1024x1024_S8x1024_1_0_0_1_n_n.lhsIdx i q 0).val = (i 0).val := by
  unfold DotDims.lhsIdx
  rw [dif_neg (show ¬(0 : Fin S8x1024.rank) ∈ dot_S8x1024_S1024x1024_S8x1024_1_0_0_1_n_n.lhsBatch by decide),
    dif_pos (show (0 : Fin S8x1024.rank) ∈ dot_S8x1024_S1024x1024_S8x1024_1_0_0_1_n_n.lhsNonContracting by decide)]
  rfl
theorem rhs1_8_1024_1024 (i : S8x1024.Idx) (q : dot_S8x1024_S1024x1024_S8x1024_1_0_0_1_n_n.contr.Idx) : (dot_S8x1024_S1024x1024_S8x1024_1_0_0_1_n_n.rhsIdx i q 1).val = (i 1).val := by
  unfold DotDims.rhsIdx
  rw [dif_neg (show ¬(1 : Fin S1024x1024.rank) ∈ dot_S8x1024_S1024x1024_S8x1024_1_0_0_1_n_n.rhsBatch by decide),
    dif_pos (show (1 : Fin S1024x1024.rank) ∈ dot_S8x1024_S1024x1024_S8x1024_1_0_0_1_n_n.rhsNonContracting by decide)]
  rfl
theorem mm_8_1024_1024 {φ₁ φ₂ : FTy} (l : FVec Ideal S8x1024 φ₁) (r : FVec Ideal S1024x1024 φ₂) (p : Fin 8) (q : Fin 1024) :
    matmul dot_S8x1024_S1024x1024_S8x1024_1_0_0_1_n_n none l r (constant S8x1024 .f32 0x00000000#32) (ix2 p q)
      = ∑ k : Fin 1024, l (ix2 p k) * r (ix2 k q) := by
  refine (Ideal.matmul_constant_zero_apply dot_S8x1024_S1024x1024_S8x1024_1_0_0_1_n_n none l r (ix2 p q)).trans ?_
  rw [← Equiv.sum_comp (contrEquiv1 dot_S8x1024_S1024x1024_S8x1024_1_0_0_1_n_n 1024 rfl rfl).symm]
  refine Finset.sum_congr rfl fun k _ => ?_
  have hk := contrEquiv1_symm_val dot_S8x1024_S1024x1024_S8x1024_1_0_0_1_n_n 1024 rfl rfl k
  have el : dot_S8x1024_S1024x1024_S8x1024_1_0_0_1_n_n.lhsIdx (ix2 p q) ((contrEquiv1 dot_S8x1024_S1024x1024_S8x1024_1_0_0_1_n_n 1024 rfl rfl).symm k) = ix2 p k :=
    funext fun a => Fin.ext (by
      match a with
      | ⟨0, _⟩ => exact lhs0_8_1024_1024 _ _
      | ⟨1, _⟩ => exact (dot_S8x1024_S1024x1024_S8x1024_1_0_0_1_n_n.lhsIdx_val_of_single rfl _ _).trans hk)
  have er : dot_S8x1024_S1024x1024_S8x1024_1_0_0_1_n_n.rhsIdx (ix2 p q) ((contrEquiv1 dot_S8x1024_S1024x1024_S8x1024_1_0_0_1_n_n 1024 rfl rfl).symm k) = ix2 k q :=
    funext fun a => Fin.ext (by
      match a with
      | ⟨0, _⟩ => exact (dot_S8x1024_S1024x1024_S8x1024_1_0_0_1_n_n.rhsIdx_val_of_single rfl _ _).trans hk
      | ⟨1, _⟩ => exact rhs1_8_1024_1024 _ _)
  rw [el, er]

theorem lhs0_8_1024_32 (i : S8x32.Idx) (q : dot_S8x1024_S1024x32_S8x32_1_0_0_1_n_n.contr.Idx) : (dot_S8x1024_S1024x32_S8x32_1_0_0_1_n_n.lhsIdx i q 0).val = (i 0).val := by
  unfold DotDims.lhsIdx
  rw [dif_neg (show ¬(0 : Fin S8x1024.rank) ∈ dot_S8x1024_S1024x32_S8x32_1_0_0_1_n_n.lhsBatch by decide),
    dif_pos (show (0 : Fin S8x1024.rank) ∈ dot_S8x1024_S1024x32_S8x32_1_0_0_1_n_n.lhsNonContracting by decide)]
  rfl
theorem rhs1_8_1024_32 (i : S8x32.Idx) (q : dot_S8x1024_S1024x32_S8x32_1_0_0_1_n_n.contr.Idx) : (dot_S8x1024_S1024x32_S8x32_1_0_0_1_n_n.rhsIdx i q 1).val = (i 1).val := by
  unfold DotDims.rhsIdx
  rw [dif_neg (show ¬(1 : Fin S1024x32.rank) ∈ dot_S8x1024_S1024x32_S8x32_1_0_0_1_n_n.rhsBatch by decide),
    dif_pos (show (1 : Fin S1024x32.rank) ∈ dot_S8x1024_S1024x32_S8x32_1_0_0_1_n_n.rhsNonContracting by decide)]
  rfl
theorem mm_8_1024_32 {φ₁ φ₂ : FTy} (l : FVec Ideal S8x1024 φ₁) (r : FVec Ideal S1024x32 φ₂) (p : Fin 8) (q : Fin 32) :
    matmul dot_S8x1024_S1024x32_S8x32_1_0_0_1_n_n none l r (constant S8x32 .f32 0x00000000#32) (ix2 p q)
      = ∑ k : Fin 1024, l (ix2 p k) * r (ix2 k q) := by
  refine (Ideal.matmul_constant_zero_apply dot_S8x1024_S1024x32_S8x32_1_0_0_1_n_n none l r (ix2 p q)).trans ?_
  rw [← Equiv.sum_comp (contrEquiv1 dot_S8x1024_S1024x32_S8x32_1_0_0_1_n_n 1024 rfl rfl).symm]
  refine Finset.sum_congr rfl fun k _ => ?_
  have hk := contrEquiv1_symm_val dot_S8x1024_S1024x32_S8x32_1_0_0_1_n_n 1024 rfl rfl k
  have el : dot_S8x1024_S1024x32_S8x32_1_0_0_1_n_n.lhsIdx (ix2 p q) ((contrEquiv1 dot_S8x1024_S1024x32_S8x32_1_0_0_1_n_n 1024 rfl rfl).symm k) = ix2 p k :=
    funext fun a => Fin.ext (by
      match a with
      | ⟨0, _⟩ => exact lhs0_8_1024_32 _ _
      | ⟨1, _⟩ => exact (dot_S8x1024_S1024x32_S8x32_1_0_0_1_n_n.lhsIdx_val_of_single rfl _ _).trans hk)
  have er : dot_S8x1024_S1024x32_S8x32_1_0_0_1_n_n.rhsIdx (ix2 p q) ((contrEquiv1 dot_S8x1024_S1024x32_S8x32_1_0_0_1_n_n 1024 rfl rfl).symm k) = ix2 k q :=
    funext fun a => Fin.ext (by
      match a with
      | ⟨0, _⟩ => exact (dot_S8x1024_S1024x32_S8x32_1_0_0_1_n_n.rhsIdx_val_of_single rfl _ _).trans hk
      | ⟨1, _⟩ => exact rhs1_8_1024_32 _ _)
  rw [el, er]

theorem lhs0_256_3072_1024 (i : S256x1024.Idx) (q : dot_S256x3072_S3072x1024_S256x1024_1_0_0_1_n_n.contr.Idx) : (dot_S256x3072_S3072x1024_S256x1024_1_0_0_1_n_n.lhsIdx i q 0).val = (i 0).val := by
  unfold DotDims.lhsIdx
  rw [dif_neg (show ¬(0 : Fin S256x3072.rank) ∈ dot_S256x3072_S3072x1024_S256x1024_1_0_0_1_n_n.lhsBatch by decide),
    dif_pos (show (0 : Fin S256x3072.rank) ∈ dot_S256x3072_S3072x1024_S256x1024_1_0_0_1_n_n.lhsNonContracting by decide)]
  rfl
theorem rhs1_256_3072_1024 (i : S256x1024.Idx) (q : dot_S256x3072_S3072x1024_S256x1024_1_0_0_1_n_n.contr.Idx) : (dot_S256x3072_S3072x1024_S256x1024_1_0_0_1_n_n.rhsIdx i q 1).val = (i 1).val := by
  unfold DotDims.rhsIdx
  rw [dif_neg (show ¬(1 : Fin S3072x1024.rank) ∈ dot_S256x3072_S3072x1024_S256x1024_1_0_0_1_n_n.rhsBatch by decide),
    dif_pos (show (1 : Fin S3072x1024.rank) ∈ dot_S256x3072_S3072x1024_S256x1024_1_0_0_1_n_n.rhsNonContracting by decide)]
  rfl
theorem mm_256_3072_1024 {φ₁ φ₂ : FTy} (l : FVec Ideal S256x3072 φ₁) (r : FVec Ideal S3072x1024 φ₂) (p : Fin 256) (q : Fin 1024) :
    matmul dot_S256x3072_S3072x1024_S256x1024_1_0_0_1_n_n none l r (constant S256x1024 .f32 0x00000000#32) (ix2 p q)
      = ∑ k : Fin 3072, l (ix2 p k) * r (ix2 k q) := by
  refine (Ideal.matmul_constant_zero_apply dot_S256x3072_S3072x1024_S256x1024_1_0_0_1_n_n none l r (ix2 p q)).trans ?_
  rw [← Equiv.sum_comp (contrEquiv1 dot_S256x3072_S3072x1024_S256x1024_1_0_0_1_n_n 3072 rfl rfl).symm]
  refine Finset.sum_congr rfl fun k _ => ?_
  have hk := contrEquiv1_symm_val dot_S256x3072_S3072x1024_S256x1024_1_0_0_1_n_n 3072 rfl rfl k
  have el : dot_S256x3072_S3072x1024_S256x1024_1_0_0_1_n_n.lhsIdx (ix2 p q) ((contrEquiv1 dot_S256x3072_S3072x1024_S256x1024_1_0_0_1_n_n 3072 rfl rfl).symm k) = ix2 p k :=
    funext fun a => Fin.ext (by
      match a with
      | ⟨0, _⟩ => exact lhs0_256_3072_1024 _ _
      | ⟨1, _⟩ => exact (dot_S256x3072_S3072x1024_S256x1024_1_0_0_1_n_n.lhsIdx_val_of_single rfl _ _).trans hk)
  have er : dot_S256x3072_S3072x1024_S256x1024_1_0_0_1_n_n.rhsIdx (ix2 p q) ((contrEquiv1 dot_S256x3072_S3072x1024_S256x1024_1_0_0_1_n_n 3072 rfl rfl).symm k) = ix2 k q :=
    funext fun a => Fin.ext (by
      match a with
      | ⟨0, _⟩ => exact (dot_S256x3072_S3072x1024_S256x1024_1_0_0_1_n_n.rhsIdx_val_of_single rfl _ _).trans hk
      | ⟨1, _⟩ => exact rhs1_256_3072_1024 _ _)
  rw [el, er]

theorem lhs0_256_1024_1024 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem rhs1_256_1024_1024 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl
theorem mm_256_1024_1024 {φ₁ φ₂ : FTy} (l : FVec Ideal S256x1024 φ₁) (r : FVec Ideal S1024x1024 φ₂) (p : Fin 256) (q : Fin 1024) :
    matmul dot_S256x1024_S1024x1024_S256x1024_1_0_0_1_n_n none l r (constant S256x1024 .f32 0x00000000#32) (ix2 p q)
      = ∑ k : Fin 1024, l (ix2 p k) * r (ix2 k q) := by
  refine (Ideal.matmul_constant_zero_apply dot_S256x1024_S1024x1024_S256x1024_1_0_0_1_n_n none l r (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k :=
    funext fun a => Fin.ext (by
      match a with
      | ⟨0, _⟩ => exact lhs0_256_1024_1024 _ _
      | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q :=
    funext fun a => Fin.ext (by
      match a with
      | ⟨0, _⟩ => exact (dot_S256x1024_S1024x1024_S256x1024_1_0_0_1_n_n.rhsIdx_val_of_single rfl _ _).trans hk
      | ⟨1, _⟩ => exact rhs1_256_1024_1024 _ _)
  rw [el, er]

theorem lhs0_256_1024_32 (i : S256x32.Idx) (q : dot_S256x1024_S1024x32_S256x32_1_0_0_1_n_n.contr.Idx) : (dot_S256x1024_S1024x32_S256x32_1_0_0_1_n_n.lhsIdx i q 0).val = (i 0).val := by
  unfold DotDims.lhsIdx
  rw [dif_neg (show ¬(0 : Fin S256x1024.rank) ∈ dot_S256x1024_S1024x32_S256x32_1_0_0_1_n_n.lhsBatch by decide),
    dif_pos (show (0 : Fin S256x1024.rank) ∈ dot_S256x1024_S1024x32_S256x32_1_0_0_1_n_n.lhsNonContracting by decide)]
  rfl
theorem rhs1_256_1024_32 (i : S256x32.Idx) (q : dot_S256x1024_S1024x32_S256x32_1_0_0_1_n_n.contr.Idx) : (dot_S256x1024_S1024x32_S256x32_1_0_0_1_n_n.rhsIdx i q 1).val = (i 1).val := by
  unfold DotDims.rhsIdx
  rw [dif_neg (show ¬(1 : Fin S1024x32.rank) ∈ dot_S256x1024_S1024x32_S256x32_1_0_0_1_n_n.rhsBatch by decide),
    dif_pos (show (1 : Fin S1024x32.rank) ∈ dot_S256x1024_S1024x32_S256x32_1_0_0_1_n_n.rhsNonContracting by decide)]
  rfl
theorem mm_256_1024_32 {φ₁ φ₂ : FTy} (l : FVec Ideal S256x1024 φ₁) (r : FVec Ideal S1024x32 φ₂) (p : Fin 256) (q : Fin 32) :
    matmul dot_S256x1024_S1024x32_S256x32_1_0_0_1_n_n none l r (constant S256x32 .f32 0x00000000#32) (ix2 p q)
      = ∑ k : Fin 1024, l (ix2 p k) * r (ix2 k q) := by
  refine (Ideal.matmul_constant_zero_apply dot_S256x1024_S1024x32_S256x32_1_0_0_1_n_n none l r (ix2 p q)).trans ?_
  rw [← Equiv.sum_comp (contrEquiv1 dot_S256x1024_S1024x32_S256x32_1_0_0_1_n_n 1024 rfl rfl).symm]
  refine Finset.sum_congr rfl fun k _ => ?_
  have hk := contrEquiv1_symm_val dot_S256x1024_S1024x32_S256x32_1_0_0_1_n_n 1024 rfl rfl k
  have el : dot_S256x1024_S1024x32_S256x32_1_0_0_1_n_n.lhsIdx (ix2 p q) ((contrEquiv1 dot_S256x1024_S1024x32_S256x32_1_0_0_1_n_n 1024 rfl rfl).symm k) = ix2 p k :=
    funext fun a => Fin.ext (by
      match a with
      | ⟨0, _⟩ => exact lhs0_256_1024_32 _ _
      | ⟨1, _⟩ => exact (dot_S256x1024_S1024x32_S256x32_1_0_0_1_n_n.lhsIdx_val_of_single rfl _ _).trans hk)
  have er : dot_S256x1024_S1024x32_S256x32_1_0_0_1_n_n.rhsIdx (ix2 p q) ((contrEquiv1 dot_S256x1024_S1024x32_S256x32_1_0_0_1_n_n 1024 rfl rfl).symm k) = ix2 k q :=
    funext fun a => Fin.ext (by
      match a with
      | ⟨0, _⟩ => exact (dot_S256x1024_S1024x32_S256x32_1_0_0_1_n_n.rhsIdx_val_of_single rfl _ _).trans hk
      | ⟨1, _⟩ => exact rhs1_256_1024_32 _ _)
  rw [el, er]

theorem lhs0_8_32_1024 (i : S8x1024.Idx) (q : dot_S8x32_S32x1024_S8x1024_1_0_0_1_n_n.contr.Idx) : (dot_S8x32_S32x1024_S8x1024_1_0_0_1_n_n.lhsIdx i q 0).val = (i 0).val := by
  unfold DotDims.lhsIdx
  rw [dif_neg (show ¬(0 : Fin S8x32.rank) ∈ dot_S8x32_S32x1024_S8x1024_1_0_0_1_n_n.lhsBatch by decide),
    dif_pos (show (0 : Fin S8x32.rank) ∈ dot_S8x32_S32x1024_S8x1024_1_0_0_1_n_n.lhsNonContracting by decide)]
  rfl
theorem rhs1_8_32_1024 (i : S8x1024.Idx) (q : dot_S8x32_S32x1024_S8x1024_1_0_0_1_n_n.contr.Idx) : (dot_S8x32_S32x1024_S8x1024_1_0_0_1_n_n.rhsIdx i q 1).val = (i 1).val := by
  unfold DotDims.rhsIdx
  rw [dif_neg (show ¬(1 : Fin S32x1024.rank) ∈ dot_S8x32_S32x1024_S8x1024_1_0_0_1_n_n.rhsBatch by decide),
    dif_pos (show (1 : Fin S32x1024.rank) ∈ dot_S8x32_S32x1024_S8x1024_1_0_0_1_n_n.rhsNonContracting by decide)]
  rfl
theorem mm_8_32_1024 {φ₁ φ₂ : FTy} (l : FVec Ideal S8x32 φ₁) (r : FVec Ideal S32x1024 φ₂) (p : Fin 8) (q : Fin 1024) :
    matmul dot_S8x32_S32x1024_S8x1024_1_0_0_1_n_n none l r (constant S8x1024 .f32 0x00000000#32) (ix2 p q)
      = ∑ k : Fin 32, l (ix2 p k) * r (ix2 k q) := by
  refine (Ideal.matmul_constant_zero_apply dot_S8x32_S32x1024_S8x1024_1_0_0_1_n_n none l r (ix2 p q)).trans ?_
  rw [← Equiv.sum_comp (contrEquiv1 dot_S8x32_S32x1024_S8x1024_1_0_0_1_n_n 32 rfl rfl).symm]
  refine Finset.sum_congr rfl fun k _ => ?_
  have hk := contrEquiv1_symm_val dot_S8x32_S32x1024_S8x1024_1_0_0_1_n_n 32 rfl rfl k
  have el : dot_S8x32_S32x1024_S8x1024_1_0_0_1_n_n.lhsIdx (ix2 p q) ((contrEquiv1 dot_S8x32_S32x1024_S8x1024_1_0_0_1_n_n 32 rfl rfl).symm k) = ix2 p k :=
    funext fun a => Fin.ext (by
      match a with
      | ⟨0, _⟩ => exact lhs0_8_32_1024 _ _
      | ⟨1, _⟩ => exact (dot_S8x32_S32x1024_S8x1024_1_0_0_1_n_n.lhsIdx_val_of_single rfl _ _).trans hk)
  have er : dot_S8x32_S32x1024_S8x1024_1_0_0_1_n_n.rhsIdx (ix2 p q) ((contrEquiv1 dot_S8x32_S32x1024_S8x1024_1_0_0_1_n_n 32 rfl rfl).symm k) = ix2 k q :=
    funext fun a => Fin.ext (by
      match a with
      | ⟨0, _⟩ => exact (dot_S8x32_S32x1024_S8x1024_1_0_0_1_n_n.rhsIdx_val_of_single rfl _ _).trans hk
      | ⟨1, _⟩ => exact rhs1_8_32_1024 _ _)
  rw [el, er]

theorem lhs0_8_1024_3072 (i : S8x3072.Idx) (q : dot_S8x1024_S1024x3072_S8x3072_1_0_0_1_n_n.contr.Idx) : (dot_S8x1024_S1024x3072_S8x3072_1_0_0_1_n_n.lhsIdx i q 0).val = (i 0).val := by
  unfold DotDims.lhsIdx
  rw [dif_neg (show ¬(0 : Fin S8x1024.rank) ∈ dot_S8x1024_S1024x3072_S8x3072_1_0_0_1_n_n.lhsBatch by decide),
    dif_pos (show (0 : Fin S8x1024.rank) ∈ dot_S8x1024_S1024x3072_S8x3072_1_0_0_1_n_n.lhsNonContracting by decide)]
  rfl
theorem rhs1_8_1024_3072 (i : S8x3072.Idx) (q : dot_S8x1024_S1024x3072_S8x3072_1_0_0_1_n_n.contr.Idx) : (dot_S8x1024_S1024x3072_S8x3072_1_0_0_1_n_n.rhsIdx i q 1).val = (i 1).val := by
  unfold DotDims.rhsIdx
  rw [dif_neg (show ¬(1 : Fin S1024x3072.rank) ∈ dot_S8x1024_S1024x3072_S8x3072_1_0_0_1_n_n.rhsBatch by decide),
    dif_pos (show (1 : Fin S1024x3072.rank) ∈ dot_S8x1024_S1024x3072_S8x3072_1_0_0_1_n_n.rhsNonContracting by decide)]
  rfl
theorem mm_8_1024_3072 {φ₁ φ₂ : FTy} (l : FVec Ideal S8x1024 φ₁) (r : FVec Ideal S1024x3072 φ₂) (p : Fin 8) (q : Fin 3072) :
    matmul dot_S8x1024_S1024x3072_S8x3072_1_0_0_1_n_n none l r (constant S8x3072 .f32 0x00000000#32) (ix2 p q)
      = ∑ k : Fin 1024, l (ix2 p k) * r (ix2 k q) := by
  refine (Ideal.matmul_constant_zero_apply dot_S8x1024_S1024x3072_S8x3072_1_0_0_1_n_n none l r (ix2 p q)).trans ?_
  rw [← Equiv.sum_comp (contrEquiv1 dot_S8x1024_S1024x3072_S8x3072_1_0_0_1_n_n 1024 rfl rfl).symm]
  refine Finset.sum_congr rfl fun k _ => ?_
  have hk := contrEquiv1_symm_val dot_S8x1024_S1024x3072_S8x3072_1_0_0_1_n_n 1024 rfl rfl k
  have el : dot_S8x1024_S1024x3072_S8x3072_1_0_0_1_n_n.lhsIdx (ix2 p q) ((contrEquiv1 dot_S8x1024_S1024x3072_S8x3072_1_0_0_1_n_n 1024 rfl rfl).symm k) = ix2 p k :=
    funext fun a => Fin.ext (by
      match a with
      | ⟨0, _⟩ => exact lhs0_8_1024_3072 _ _
      | ⟨1, _⟩ => exact (dot_S8x1024_S1024x3072_S8x3072_1_0_0_1_n_n.lhsIdx_val_of_single rfl _ _).trans hk)
  have er : dot_S8x1024_S1024x3072_S8x3072_1_0_0_1_n_n.rhsIdx (ix2 p q) ((contrEquiv1 dot_S8x1024_S1024x3072_S8x3072_1_0_0_1_n_n 1024 rfl rfl).symm k) = ix2 k q :=
    funext fun a => Fin.ext (by
      match a with
      | ⟨0, _⟩ => exact (dot_S8x1024_S1024x3072_S8x3072_1_0_0_1_n_n.rhsIdx_val_of_single rfl _ _).trans hk
      | ⟨1, _⟩ => exact rhs1_8_1024_3072 _ _)
  rw [el, er]

theorem lhs0_256_32_1024 (i : S256x1024.Idx) (q : dot_S256x32_S32x1024_S256x1024_1_0_0_1_n_n.contr.Idx) : (dot_S256x32_S32x1024_S256x1024_1_0_0_1_n_n.lhsIdx i q 0).val = (i 0).val := by
  unfold DotDims.lhsIdx
  rw [dif_neg (show ¬(0 : Fin S256x32.rank) ∈ dot_S256x32_S32x1024_S256x1024_1_0_0_1_n_n.lhsBatch by decide),
    dif_pos (show (0 : Fin S256x32.rank) ∈ dot_S256x32_S32x1024_S256x1024_1_0_0_1_n_n.lhsNonContracting by decide)]
  rfl
theorem rhs1_256_32_1024 (i : S256x1024.Idx) (q : dot_S256x32_S32x1024_S256x1024_1_0_0_1_n_n.contr.Idx) : (dot_S256x32_S32x1024_S256x1024_1_0_0_1_n_n.rhsIdx i q 1).val = (i 1).val := by
  unfold DotDims.rhsIdx
  rw [dif_neg (show ¬(1 : Fin S32x1024.rank) ∈ dot_S256x32_S32x1024_S256x1024_1_0_0_1_n_n.rhsBatch by decide),
    dif_pos (show (1 : Fin S32x1024.rank) ∈ dot_S256x32_S32x1024_S256x1024_1_0_0_1_n_n.rhsNonContracting by decide)]
  rfl
theorem mm_256_32_1024 {φ₁ φ₂ : FTy} (l : FVec Ideal S256x32 φ₁) (r : FVec Ideal S32x1024 φ₂) (p : Fin 256) (q : Fin 1024) :
    matmul dot_S256x32_S32x1024_S256x1024_1_0_0_1_n_n none l r (constant S256x1024 .f32 0x00000000#32) (ix2 p q)
      = ∑ k : Fin 32, l (ix2 p k) * r (ix2 k q) := by
  refine (Ideal.matmul_constant_zero_apply dot_S256x32_S32x1024_S256x1024_1_0_0_1_n_n none l r (ix2 p q)).trans ?_
  rw [← Equiv.sum_comp (contrEquiv1 dot_S256x32_S32x1024_S256x1024_1_0_0_1_n_n 32 rfl rfl).symm]
  refine Finset.sum_congr rfl fun k _ => ?_
  have hk := contrEquiv1_symm_val dot_S256x32_S32x1024_S256x1024_1_0_0_1_n_n 32 rfl rfl k
  have el : dot_S256x32_S32x1024_S256x1024_1_0_0_1_n_n.lhsIdx (ix2 p q) ((contrEquiv1 dot_S256x32_S32x1024_S256x1024_1_0_0_1_n_n 32 rfl rfl).symm k) = ix2 p k :=
    funext fun a => Fin.ext (by
      match a with
      | ⟨0, _⟩ => exact lhs0_256_32_1024 _ _
      | ⟨1, _⟩ => exact (dot_S256x32_S32x1024_S256x1024_1_0_0_1_n_n.lhsIdx_val_of_single rfl _ _).trans hk)
  have er : dot_S256x32_S32x1024_S256x1024_1_0_0_1_n_n.rhsIdx (ix2 p q) ((contrEquiv1 dot_S256x32_S32x1024_S256x1024_1_0_0_1_n_n 32 rfl rfl).symm k) = ix2 k q :=
    funext fun a => Fin.ext (by
      match a with
      | ⟨0, _⟩ => exact (dot_S256x32_S32x1024_S256x1024_1_0_0_1_n_n.rhsIdx_val_of_single rfl _ _).trans hk
      | ⟨1, _⟩ => exact rhs1_256_32_1024 _ _)
  rw [el, er]

theorem lhs0_256_1024_3072 (i : S256x3072.Idx) (q : dot_S256x1024_S1024x3072_S256x3072_1_0_0_1_n_n.contr.Idx) : (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide),
    dif_pos (show (0 : Fin S256x1024.rank) ∈ dot_S256x1024_S1024x3072_S256x3072_1_0_0_1_n_n.lhsNonContracting by decide)]
  rfl
theorem rhs1_256_1024_3072 (i : S256x3072.Idx) (q : dot_S256x1024_S1024x3072_S256x3072_1_0_0_1_n_n.contr.Idx) : (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide),
    dif_pos (show (1 : Fin S1024x3072.rank) ∈ dot_S256x1024_S1024x3072_S256x3072_1_0_0_1_n_n.rhsNonContracting by decide)]
  rfl
theorem mm_256_1024_3072 {φ₁ φ₂ : FTy} (l : FVec Ideal S256x1024 φ₁) (r : FVec Ideal S1024x3072 φ₂) (p : Fin 256) (q : Fin 3072) :
    matmul dot_S256x1024_S1024x3072_S256x3072_1_0_0_1_n_n none l r (constant S256x3072 .f32 0x00000000#32) (ix2 p q)
      = ∑ k : Fin 1024, l (ix2 p k) * r (ix2 k q) := by
  refine (Ideal.matmul_constant_zero_apply dot_S256x1024_S1024x3072_S256x3072_1_0_0_1_n_n none l r (ix2 p q)).trans ?_
  rw [← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 p q) ((contrEquiv1 dot_S256x1024_S1024x3072_S256x3072_1_0_0_1_n_n 1024 rfl rfl).symm k) = ix2 p k :=
    funext fun a => Fin.ext (by
      match a with
      | ⟨0, _⟩ => exact lhs0_256_1024_3072 _ _
      | ⟨1, _⟩ => exact (dot_S256x1024_S1024x3072_S256x3072_1_0_0_1_n_n.lhsIdx_val_of_single rfl _ _).trans hk)
  have er : dot_S256x1024_S1024x3072_S256x3072_1_0_0_1_n_n.rhsIdx (ix2 p q) ((contrEquiv1 dot_S256x1024_S1024x3072_S256x3072_1_0_0_1_n_n 1024 rfl rfl).symm k) = ix2 k q :=
    funext fun a => Fin.ext (by
      match a with
      | ⟨0, _⟩ => exact (dot_S256x1024_S1024x3072_S256x3072_1_0_0_1_n_n.rhsIdx_val_of_single rfl _ _).trans hk
      | ⟨1, _⟩ => exact rhs1_256_1024_3072 _ _)
  rw [el, er]

end Cert.KernelIdeal.KMat

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Spec.lean ====
/-
  The specification: the loss of a neighbourhood-reconstruction autoencoder as ONE function of its fourteen argument
  arrays, over the extended reals.

  Shapes: 128 centres x_c[b] ∈ ℝ^3072, each with 32 neighbours x_nn[b,n] ∈ ℝ^3072; the encoder is the three-layer
  map enc(x) = W₃ᵀ relu(W₂ᵀ relu(W₁ᵀ x + b₁) + b₂) + b₃ into ℝ^32, the decoder the three-layer map back with its
  pre-activations pre₁, pre₂.  With z = enc(x_c[b]), Δ = enc(x_nn[b,n]) − z, the first-order prediction of the neighbour
  is dec(z) + J_dec(z) Δ, where the Jacobian of a relu network at z is the same chain of weight matrices with each
  hidden coordinate kept where its pre-activation at z is positive and dropped elsewhere.  The loss is the mean over
  (b, n) of weight(b,n) · ‖x_nn[b,n] − prediction‖², the weight 1 where the neighbour is farther than ε from its centre
  and 1/2 where it coincides with it.

  Two arrangements of this one number are stated: `lossK` keeps a hidden coordinate by MULTIPLYING with the 0/1
  indicator of its pre-activation, subtracts dec(z) and the Jacobian term one after the other, and sums first over a
  centre's neighbours and then over centres; `lossR` keeps it by SELECTING, adds a vanishing second-order term,
  subtracts the whole prediction at once, and sums over all pairs.  `SpecLaws` proves them equal when the arguments
  are finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The fourteen argument arrays, each a function from the indices of its literal shape to the extended reals. -/
structure Args where
  xc  : (⟨2, ![128, 3072]⟩ : Shape).Idx → EReal
  xnn : (⟨3, ![128, 32, 3072]⟩ : Shape).Idx → EReal
  We1 : (⟨2, ![3072, 1024]⟩ : Shape).Idx → EReal
  be1 : (⟨1, ![1024]⟩ : Shape).Idx → EReal
  We2 : (⟨2, ![1024, 1024]⟩ : Shape).Idx → EReal
  be2 : (⟨1, ![1024]⟩ : Shape).Idx → EReal
  We3 : (⟨2, ![1024, 32]⟩ : Shape).Idx → EReal
  be3 : (⟨1, ![32]⟩ : Shape).Idx → EReal
  Wd1 : (⟨2, ![32, 1024]⟩ : Shape).Idx → EReal
  bd1 : (⟨1, ![1024]⟩ : Shape).Idx → EReal
  Wd2 : (⟨2, ![1024, 1024]⟩ : Shape).Idx → EReal
  bd2 : (⟨1, ![1024]⟩ : Shape).Idx → EReal
  Wd3 : (⟨2, ![1024, 3072]⟩ : Shape).Idx → EReal
  bd3 : (⟨1, ![3072]⟩ : Shape).Idx → EReal

/-- The row vector x times the matrix W: coordinate j is Σₖ xₖ · W[k, j]. -/
def lin {K N : Nat} (W : (⟨2, ![K, N]⟩ : Shape).Idx → EReal) (x : Fin K → EReal) (j : Fin N) : EReal :=
  ∑ k : Fin K, x k * W (ix2 k j)

/-- The affine layer x ↦ x W + b. -/
def aff {K N : Nat} (W : (⟨2, ![K, N]⟩ : Shape).Idx → EReal) (b : (⟨1, ![N]⟩ : Shape).Idx → EReal)
    (x : Fin K → EReal) (j : Fin N) : EReal :=
  lin W x j + b (ix1 j)

/-- The positive part, coordinate by coordinate. -/
def relu {N : Nat} (x : Fin N → EReal) (j : Fin N) : EReal := max (x j) 0

/-- The 0/1 indicator of v > 0, as the number an `i1` comparison widened to 32 bits denotes. -/
def ind (v : EReal) : EReal := ((((Ideal.cmp .ogt v 0).setWidth 32).toInt : ℝ) : EReal)

/-- The literals of the weight: ε = f32(1e-12), 1 and 1/2, and the divisor 4096, as their binary words. -/
def eps : EReal := Ideal.ofBits .f32 0x2B8CBCCC#32
def one : EReal := Ideal.ofBits .f32 0x3F800000#32
def half : EReal := Ideal.ofBits .f32 0x3F000000#32
def cnt : EReal := Ideal.ofBits .f32 0x45800000#32

variable (A : Args)

/-- The encoder on one row. -/
def enc (x : Fin 3072 → EReal) : Fin 32 → EReal :=
  aff A.We3 A.be3 (relu (aff A.We2 A.be2 (relu (aff A.We1 A.be1 x))))

/-- The decoder's pre-activations at the code of a centre row x, and its output there. -/
def pre1 (x : Fin 3072 → EReal) : Fin 1024 → EReal := aff A.Wd1 A.bd1 (enc A x)
def pre2 (x : Fin 3072 → EReal) : Fin 1024 → EReal := aff A.Wd2 A.bd2 (relu (pre1 A x))
def recon (x : Fin 3072 → EReal) : Fin 3072 → EReal := aff A.Wd3 A.bd3 (relu (pre2 A x))

/-- The code difference of a neighbour row y from its centre row x. -/
def dz (x y : Fin 3072 → EReal) (k : Fin 32) : EReal := enc A y k - enc A x k

/-- The squared distance of the neighbour row from the centre row. -/
def distSq (x y : Fin 3072 → EReal) : EReal := ∑ d : Fin 3072, (x d - y d) * (x d - y d)

/-- Row b of the centres, and row n of its neighbours. -/
def cRow (b : Fin 128) : Fin 3072 → EReal := fun d => A.xc (ix2 b d)
def nRow (b : Fin 128) (n : Fin 32) : Fin 3072 → EReal := fun d => A.xnn (ix3 b n d)

/-! ## The arrangement with indicator factors -/

def j1K (x y : Fin 3072 → EReal) (j : Fin 1024) : EReal := lin A.Wd1 (dz A x y) j * ind (pre1 A x j)
def j2K (x y : Fin 3072 → EReal) (j : Fin 1024) : EReal := lin A.Wd2 (j1K A x y) j * ind (pre2 A x j)
def jacK (x y : Fin 3072 → EReal) (d : Fin 3072) : EReal := lin A.Wd3 (j2K A x y) d

def wgtK (x y : Fin 3072 → EReal) : EReal :=
  Scalar.select (Ideal.cmp .ogt (Ideal.sqrt (distSq x y)) eps) one half

def nlK (x y : Fin 3072 → EReal) : EReal :=
  ∑ d : Fin 3072, ((y d - recon A x d) - jacK A x y d) * ((y d - recon A x d) - jacK A x y d)

/-- One (centre, neighbour) pair's weighted squared error. -/
def termK (x y : Fin 3072 → EReal) : EReal := wgtK x y * nlK A x y

/-- One centre's sum over its neighbours. -/
def rowK (b : Fin 128) : EReal := ∑ n : Fin 32, termK A (cRow A b) (nRow A b n)

def lossK : EReal :=
  Ideal.div (0 + ∑ i : (⟨2, ![128, 1]⟩ : Shape).Idx, rowK A (i 0)) cnt

/-! ## The arrangement with selections -/

def j1R (x y : Fin 3072 → EReal) (j : Fin 1024) : EReal :=
  Scalar.select (Ideal.cmp .ogt (pre1 A x j) 0) (lin A.Wd1 (dz A x y) j) 0
def j2R (x y : Fin 3072 → EReal) (j : Fin 1024) : EReal :=
  Scalar.select (Ideal.cmp .ogt (pre2 A x j) 0) (lin A.Wd2 (j1R A x y) j) 0
def jacR (x y : Fin 3072 → EReal) (d : Fin 3072) : EReal := lin A.Wd3 (j2R A x y) d

def wgtR (x y : Fin 3072 → EReal) : EReal :=
  Scalar.select (Ideal.cmp .ogt (Ideal.sqrt (0 + distSq x y)) eps) one half

def nlR (x y : Fin 3072 → EReal) : EReal :=
  0 + ∑ d : Fin 3072, (y d - (recon A x d + (jacR A x y d + half * 0))) * (y d - (recon A x d + (jacR A x y d + half * 0)))

def termR (x y : Fin 3072 → EReal) : EReal := wgtR x y * nlR A x y

def lossR : EReal :=
  Ideal.div (0 + ∑ j : (⟨2, ![128, 32]⟩ : Shape).Idx, termR A (cRow A (j 0)) (nRow A (j 0) (j 1))) cnt

/-- Every entry of every argument array is a real number. -/
structure Args.Finite : Prop where
  xc  : ∀ i, ∃ r : ℝ, A.xc i = (r : EReal)
  xnn : ∀ i, ∃ r : ℝ, A.xnn i = (r : EReal)
  We1 : ∀ i, ∃ r : ℝ, A.We1 i = (r : EReal)
  be1 : ∀ i, ∃ r : ℝ, A.be1 i = (r : EReal)
  We2 : ∀ i, ∃ r : ℝ, A.We2 i = (r : EReal)
  be2 : ∀ i, ∃ r : ℝ, A.be2 i = (r : EReal)
  We3 : ∀ i, ∃ r : ℝ, A.We3 i = (r : EReal)
  be3 : ∀ i, ∃ r : ℝ, A.be3 i = (r : EReal)
  Wd1 : ∀ i, ∃ r : ℝ, A.Wd1 i = (r : EReal)
  bd1 : ∀ i, ∃ r : ℝ, A.bd1 i = (r : EReal)
  Wd2 : ∀ i, ∃ r : ℝ, A.Wd2 i = (r : EReal)
  bd2 : ∀ i, ∃ r : ℝ, A.bd2 i = (r : EReal)
  Wd3 : ∀ i, ∃ r : ℝ, A.Wd3 i = (r : EReal)
  bd3 : ∀ i, ∃ r : ℝ, A.bd3 i = (r : EReal)

end Cert.Spec

end
-- ==== Proof.KStages.lean ====
/-
  The kernel body's arithmetic at an entry, first part: the dense layers.

  A block's dense layer  l · W + b  at entry (p, q) depends on row p of l alone: it is the affine layer of the
  specification applied to that row; the positive part is taken entry by entry, and a change of float format is the
  identity on exact values.  So the encoder's three layers on an 8-row block of centres, and on a 256-row block of
  flattened neighbours (row p·32 + n is neighbour n of centre p), are the specification's encoder on the
  corresponding rows; likewise the decoder's pre-activations at the centres' codes and the 0/1 indicators of their
  positivity.
-/
import proofs.«157039_j16423954940420_2_alg».proof.Proof.Gen.KernelIdeal.Skeleton
import proofs.«157039_j16423954940420_2_alg».proof.Proof.KMat
import proofs.«157039_j16423954940420_2_alg».proof.Proof.LibLayout
import proofs.«157039_j16423954940420_2_alg».proof.Proof.Spec

noncomputable section

namespace Cert.KernelIdeal.KStages

open Cert.KernelIdeal Cert.KernelIdeal.Gen Cert.KernelIdeal.KMat Cert.LibLayout Cert.Spec
open Idealize.ShloMosaic Idealize.ShloMosaic.ValueIdx

/-- Row p·32 + n of a 256-row block: neighbour n of the block's centre p. -/
def flat (p : Fin 8) (n : Fin 32) : Fin 256 := ⟨p.val * 32 + n.val, by have := p.isLt; have := n.isLt; omega⟩

variable {α : Type}

/-- A 256-row block split into 8 members of 32 rows, and merged back. -/
theorem split_apply {c : ℕ} (x : (⟨2, ![256, c]⟩ : Shape).Idx → α) (h : (⟨2, ![256, c]⟩ : Shape).ShapeCasts ⟨3, ![8, 32, c]⟩)
    (p : Fin 8) (n : Fin 32) (d : Fin c) : shapeCast ⟨3, ![8, 32, c]⟩ x h (ix3 p n d) = x (ix2 (flat p n) d) :=
  shapeCast_mc_abc_apply x h (flat p n) p n d rfl

theorem merge_apply {c : ℕ} (x : (⟨3, ![8, 32, c]⟩ : Shape).Idx → α) (h : (⟨3, ![8, 32, c]⟩ : Shape).ShapeCasts ⟨2, ![256, c]⟩)
    (p : Fin 8) (n : Fin 32) (d : Fin c) : shapeCast ⟨2, ![256, c]⟩ x h (ix2 (flat p n) d) = x (ix3 p n d) :=
  shapeCast_abc_mc_apply x h (flat p n) p n d rfl

/-- The sum over the last axis of an [8, 32, 3072] block, and over the neighbours of an [8, 32] block. -/
theorem red_d (v : FVec Ideal S8x32x3072 .f32) (h : S8x32x3072.Reduces [2] S8x32) (hφ : FKind.Formats .f32)
    (hacc : (0x00000000#32 : BitVec (FTy.bits .f32)) = FKind.add.neutral .f32 hφ) (p : Fin 8) (n : Fin 32) :
    multiReduction .add [2] S8x32 v 0x00000000#32 h hφ hacc (ix2 p n) = ∑ d : Fin 3072, v (ix3 p n d) :=
  (Ideal.multiReduction_add_single v 0x00000000#32 h hφ hacc (ix2 p n)).trans
    (Finset.sum_congr rfl fun d _ => congrArg v (funext fun a => Fin.ext (by
      match a with
      | ⟨0, _⟩ => rfl
      | ⟨1, _⟩ => rfl
      | ⟨2, _⟩ => rfl)))

theorem red_n (v : FVec Ideal S8x32 .f32) (h : S8x32.Reduces [1] S8) (hφ : FKind.Formats .f32)
    (hacc : (0x00000000#32 : BitVec (FTy.bits .f32)) = FKind.add.neutral .f32 hφ) (p : Fin 8) :
    multiReduction .add [1] S8 v 0x00000000#32 h hφ hacc (ix1 p) = ∑ n : Fin 32, v (ix2 p n) :=
  (Ideal.multiReduction_add_single v 0x00000000#32 h hφ hacc (ix1 p)).trans
    (Finset.sum_congr rfl fun n _ => congrArg v (funext fun a => Fin.ext (by
      match a with
      | ⟨0, _⟩ => rfl
      | ⟨1, _⟩ => rfl)))

/-- The same two sums with the side conditions spelt as the printed body spells them. -/
theorem red_d' (v : FVec Ideal S8x32x3072 .f32) (h : S8x32x3072.Reduces [2] S8x32) (hφ : FTy.f32 = FTy.f32 ∨ FTy.f32 = FTy.bf16)
    (hacc : (0x00000000#32 : BitVec 32) = 0x00000000#32) (p : Fin 8) (n : Fin 32) :
    multiReduction .add [2] S8x32 v 0x00000000#32 h hφ hacc (ix2 p n) = ∑ d : Fin 3072, v (ix3 p n d) :=
  red_d v h hφ hacc p n

theorem red_n' (v : FVec Ideal S8x32 .f32) (h : S8x32.Reduces [1] S8) (hφ : FTy.f32 = FTy.f32 ∨ FTy.f32 = FTy.bf16)
    (hacc : (0x00000000#32 : BitVec 32) = 0x00000000#32) (p : Fin 8) :
    multiReduction .add [1] S8 v 0x00000000#32 h hφ hacc (ix1 p) = ∑ n : Fin 32, v (ix2 p n) :=
  red_n v h hφ hacc p

theorem sqrt_apply {s : Shape} (x : FVec Ideal s .f32) (i : s.Idx) : sqrt x i = Ideal.sqrt (x i) := rfl

/-- The positive part against a broadcast zero word, at an entry. -/
theorem relu_apply {s : Shape} (x : FVec Ideal s .f32) (i : s.Idx) :
    maximumf x (broadcast s (Scalar.ofBits (F := Ideal) .f32 0x00000000#32)) i = max (x i) 0 := by
  show max (x i) (Ideal.ofBits .f32 0x00000000#32) = _
  rw [Ideal.ofBits_zero_f32]

theorem dense_8_3072_1024 {φ₁ φ₂ : FTy} (l : FVec Ideal S8x3072 φ₁) (W : FVec Ideal S3072x1024 φ₂) (b : FVec Ideal S1024 .f32)
    (h1 : S1024.ShapeCasts S1x1024) (h2 : S1x1024.Broadcasts S8x1024) (p : Fin 8) (q : Fin 1024) :
    addf (matmul dot_S8x3072_S3072x1024_S8x1024_1_0_0_1_n_n none l W (constant S8x1024 .f32 0x00000000#32)) (broadcastTo S8x1024 (shapeCast S1x1024 b h1) h2) (ix2 p q)
      = aff W b (fun k => l (ix2 p k)) q := by
  show matmul dot_S8x3072_S3072x1024_S8x1024_1_0_0_1_n_n none l W (constant S8x1024 .f32 0x00000000#32) (ix2 p q) + broadcastTo S8x1024 (shapeCast S1x1024 b h1) h2 (ix2 p q) = _
  rw [mm_8_3072_1024, bias_apply]
  rfl

theorem dense_8_1024_1024 {φ₁ φ₂ : FTy} (l : FVec Ideal S8x1024 φ₁) (W : FVec Ideal S1024x1024 φ₂) (b : FVec Ideal S1024 .f32)
    (h1 : S1024.ShapeCasts S1x1024) (h2 : S1x1024.Broadcasts S8x1024) (p : Fin 8) (q : Fin 1024) :
    addf (matmul dot_S8x1024_S1024x1024_S8x1024_1_0_0_1_n_n none l W (constant S8x1024 .f32 0x00000000#32)) (broadcastTo S8x1024 (shapeCast S1x1024 b h1) h2) (ix2 p q)
      = aff W b (fun k => l (ix2 p k)) q := by
  show matmul dot_S8x1024_S1024x1024_S8x1024_1_0_0_1_n_n none l W (constant S8x1024 .f32 0x00000000#32) (ix2 p q) + broadcastTo S8x1024 (shapeCast S1x1024 b h1) h2 (ix2 p q) = _
  rw [mm_8_1024_1024, bias_apply]
  rfl

theorem dense_8_1024_32 {φ₁ φ₂ : FTy} (l : FVec Ideal S8x1024 φ₁) (W : FVec Ideal S1024x32 φ₂) (b : FVec Ideal S32 .f32)
    (h1 : S32.ShapeCasts S1x32) (h2 : S1x32.Broadcasts S8x32) (p : Fin 8) (q : Fin 32) :
    addf (matmul dot_S8x1024_S1024x32_S8x32_1_0_0_1_n_n none l W (constant S8x32 .f32 0x00000000#32)) (broadcastTo S8x32 (shapeCast S1x32 b h1) h2) (ix2 p q)
      = aff W b (fun k => l (ix2 p k)) q := by
  show matmul dot_S8x1024_S1024x32_S8x32_1_0_0_1_n_n none l W (constant S8x32 .f32 0x00000000#32) (ix2 p q) + broadcastTo S8x32 (shapeCast S1x32 b h1) h2 (ix2 p q) = _
  rw [mm_8_1024_32, bias_apply]
  rfl

theorem dense_256_3072_1024 {φ₁ φ₂ : FTy} (l : FVec Ideal S256x3072 φ₁) (W : FVec Ideal S3072x1024 φ₂) (b : FVec Ideal S1024 .f32)
    (h1 : S1024.ShapeCasts S1x1024) (h2 : S1x1024.Broadcasts S256x1024) (p : Fin 256) (q : Fin 1024) :
    addf (matmul dot_S256x3072_S3072x1024_S256x1024_1_0_0_1_n_n none l W (constant S256x1024 .f32 0x00000000#32)) (broadcastTo S256x1024 (shapeCast S1x1024 b h1) h2) (ix2 p q)
      = aff W b (fun k => l (ix2 p k)) q := by
  show matmul dot_S256x3072_S3072x1024_S256x1024_1_0_0_1_n_n none l W (constant S256x1024 .f32 0x00000000#32) (ix2 p q) + broadcastTo S256x1024 (shapeCast S1x1024 b h1) h2 (ix2 p q) = _
  rw [mm_256_3072_1024, bias_apply]
  rfl

theorem dense_256_1024_1024 {φ₁ φ₂ : FTy} (l : FVec Ideal S256x1024 φ₁) (W : FVec Ideal S1024x1024 φ₂) (b : FVec Ideal S1024 .f32)
    (h1 : S1024.ShapeCasts S1x1024) (h2 : S1x1024.Broadcasts S256x1024) (p : Fin 256) (q : Fin 1024) :
    addf (matmul dot_S256x1024_S1024x1024_S256x1024_1_0_0_1_n_n none l W (constant S256x1024 .f32 0x00000000#32)) (broadcastTo S256x1024 (shapeCast S1x1024 b h1) h2) (ix2 p q)
      = aff W b (fun k => l (ix2 p k)) q := by
  show matmul dot_S256x1024_S1024x1024_S256x1024_1_0_0_1_n_n none l W (constant S256x1024 .f32 0x00000000#32) (ix2 p q) + broadcastTo S256x1024 (shapeCast S1x1024 b h1) h2 (ix2 p q) = _
  rw [mm_256_1024_1024, bias_apply]
  rfl

theorem dense_256_1024_32 {φ₁ φ₂ : FTy} (l : FVec Ideal S256x1024 φ₁) (W : FVec Ideal S1024x32 φ₂) (b : FVec Ideal S32 .f32)
    (h1 : S32.ShapeCasts S1x32) (h2 : S1x32.Broadcasts S256x32) (p : Fin 256) (q : Fin 32) :
    addf (matmul dot_S256x1024_S1024x32_S256x32_1_0_0_1_n_n none l W (constant S256x32 .f32 0x00000000#32)) (broadcastTo S256x32 (shapeCast S1x32 b h1) h2) (ix2 p q)
      = aff W b (fun k => l (ix2 p k)) q := by
  show matmul dot_S256x1024_S1024x32_S256x32_1_0_0_1_n_n none l W (constant S256x32 .f32 0x00000000#32) (ix2 p q) + broadcastTo S256x32 (shapeCast S1x32 b h1) h2 (ix2 p q) = _
  rw [mm_256_1024_32, bias_apply]
  rfl

theorem dense_8_32_1024 {φ₁ φ₂ : FTy} (l : FVec Ideal S8x32 φ₁) (W : FVec Ideal S32x1024 φ₂) (b : FVec Ideal S1024 .f32)
    (h1 : S1024.ShapeCasts S1x1024) (h2 : S1x1024.Broadcasts S8x1024) (p : Fin 8) (q : Fin 1024) :
    addf (matmul dot_S8x32_S32x1024_S8x1024_1_0_0_1_n_n none l W (constant S8x1024 .f32 0x00000000#32)) (broadcastTo S8x1024 (shapeCast S1x1024 b h1) h2) (ix2 p q)
      = aff W b (fun k => l (ix2 p k)) q := by
  show matmul dot_S8x32_S32x1024_S8x1024_1_0_0_1_n_n none l W (constant S8x1024 .f32 0x00000000#32) (ix2 p q) + broadcastTo S8x1024 (shapeCast S1x1024 b h1) h2 (ix2 p q) = _
  rw [mm_8_32_1024, bias_apply]
  rfl

theorem dense_8_1024_3072 {φ₁ φ₂ : FTy} (l : FVec Ideal S8x1024 φ₁) (W : FVec Ideal S1024x3072 φ₂) (b : FVec Ideal S3072 .f32)
    (h1 : S3072.ShapeCasts S1x3072) (h2 : S1x3072.Broadcasts S8x3072) (p : Fin 8) (q : Fin 3072) :
    addf (matmul dot_S8x1024_S1024x3072_S8x3072_1_0_0_1_n_n none l W (constant S8x3072 .f32 0x00000000#32)) (broadcastTo S8x3072 (shapeCast S1x3072 b h1) h2) (ix2 p q)
      = aff W b (fun k => l (ix2 p k)) q := by
  show matmul dot_S8x1024_S1024x3072_S8x3072_1_0_0_1_n_n none l W (constant S8x3072 .f32 0x00000000#32) (ix2 p q) + broadcastTo S8x3072 (shapeCast S1x3072 b h1) h2 (ix2 p q) = _
  rw [mm_8_1024_3072, bias_apply]
  rfl

variable (A : Args)

/-- The encoder's second pre-activation on an 8-row block of centres. -/
theorem pay7_apply (v0 : FVec Ideal S8x3072 .f32) (p : Fin 8) (j : Fin 1024) :
    k0_pay7 (F := Ideal) v0 A.We1 A.be1 A.We2 A.be2 (ix2 p j)
      = aff A.We2 A.be2 (relu (aff A.We1 A.be1 fun d => v0 (ix2 p d))) j := by
  unfold k0_pay7 k0_pay1 k0_pay2
  simp only [shapeCast_self, dense_8_1024_1024, truncf_apply, relu_apply, dense_8_3072_1024]
  rfl

/-- The code of each of the block's 8 centres. -/
theorem pay8_apply (v0 : FVec Ideal S8x3072 .f32) (p : Fin 8) (k : Fin 32) :
    k0_pay8 (F := Ideal) (k0_pay3 A.We3) A.be3 (k0_pay7 v0 A.We1 A.be1 A.We2 A.be2) (Scalar.ofBits .f32 0x00000000#32) (ix2 p k)
      = enc A (fun d => v0 (ix2 p d)) k := by
  unfold k0_pay8 k0_pay3
  simp only [shapeCast_self, dense_8_1024_32, truncf_apply, relu_apply, pay7_apply]
  rfl

/-- The code of each of the block's 256 neighbour rows. -/
theorem pay9_apply (v1 : FVec Ideal S8x32x3072 .f32) (p : Fin 8) (n : Fin 32) (k : Fin 32) :
    k0_pay9 (F := Ideal) v1 (k0_pay1 A.We1) A.be1 (k0_pay2 A.We2) A.be2 (k0_pay3 A.We3) A.be3 (ix2 (flat p n) k)
      = enc A (fun d => v1 (ix3 p n d)) k := by
  unfold k0_pay9 k0_pay1 k0_pay2 k0_pay3
  simp only [shapeCast_self, dense_256_1024_32, dense_256_1024_1024, dense_256_3072_1024, truncf_apply, relu_apply,
    merge_apply]
  rfl

/-- The decoder's first pre-activation at each centre's code. -/
theorem pay10_apply (v0 : FVec Ideal S8x3072 .f32) (p : Fin 8) (j : Fin 1024) :
    k0_pay10 (F := Ideal) (k0_pay3 A.We3) A.be3 (k0_pay4 A.Wd1) A.bd1 (k0_pay7 v0 A.We1 A.be1 A.We2 A.be2) (Scalar.ofBits .f32 0x00000000#32) (ix2 p j)
      = pre1 A (fun d => v0 (ix2 p d)) j := by
  unfold k0_pay10 k0_pay4
  simp only [shapeCast_self, dense_8_32_1024, truncf_apply, pay8_apply]
  rfl

/-- Its 0/1 indicator. -/
theorem pay11_apply (v0 : FVec Ideal S8x3072 .f32) (p : Fin 8) (j : Fin 1024) :
    k0_pay11 (F := Ideal) (k0_pay3 A.We3) A.be3 (k0_pay4 A.Wd1) A.bd1 (k0_pay7 v0 A.We1 A.be1 A.We2 A.be2) (Scalar.ofBits .f32 0x00000000#32) (ix2 p j)
      = ind (pre1 A (fun d => v0 (ix2 p d)) j) := by
  unfold k0_pay11
  show ((((Ideal.cmp .ogt (k0_pay10 (F := Ideal) (k0_pay3 A.We3) A.be3 (k0_pay4 A.Wd1) A.bd1 (k0_pay7 v0 A.We1 A.be1 A.We2 A.be2) (Scalar.ofBits .f32 0x00000000#32) (ix2 p j))
    (Ideal.ofBits .f32 0x00000000#32)).setWidth 32).toInt : ℝ) : EReal) = _
  rw [pay10_apply, Ideal.ofBits_zero_f32]
  rfl

/-- The decoder's second pre-activation at each centre's code. -/
theorem pay12_apply (v0 : FVec Ideal S8x3072 .f32) (p : Fin 8) (j : Fin 1024) :
    k0_pay12 (F := Ideal) (k0_pay3 A.We3) A.be3 (k0_pay4 A.Wd1) A.bd1 (k0_pay5 A.Wd2) A.bd2 (k0_pay7 v0 A.We1 A.be1 A.We2 A.be2) (Scalar.ofBits .f32 0x00000000#32) (ix2 p j)
      = pre2 A (fun d => v0 (ix2 p d)) j := by
  unfold k0_pay12 k0_pay5
  simp only [shapeCast_self, dense_8_1024_1024, truncf_apply, relu_apply, pay10_apply]
  rfl

/-- Its 0/1 indicator. -/
theorem pay13_apply (v0 : FVec Ideal S8x3072 .f32) (p : Fin 8) (j : Fin 1024) :
    k0_pay13 (F := Ideal) (k0_pay3 A.We3) A.be3 (k0_pay4 A.Wd1) A.bd1 (k0_pay5 A.Wd2) A.bd2 (k0_pay7 v0 A.We1 A.be1 A.We2 A.be2) (Scalar.ofBits .f32 0x00000000#32) (ix2 p j)
      = ind (pre2 A (fun d => v0 (ix2 p d)) j) := by
  unfold k0_pay13
  show ((((Ideal.cmp .ogt (k0_pay12 (F := Ideal) (k0_pay3 A.We3) A.be3 (k0_pay4 A.Wd1) A.bd1 (k0_pay5 A.Wd2) A.bd2 (k0_pay7 v0 A.We1 A.be1 A.We2 A.be2) (Scalar.ofBits .f32 0x00000000#32) (ix2 p j))
    (Ideal.ofBits .f32 0x00000000#32)).setWidth 32).toInt : ℝ) : EReal) = _
  rw [pay12_apply, Ideal.ofBits_zero_f32]
  rfl

/-- The broadcast zero. -/
theorem pay14_apply (i : S8x1024.Idx) : k0_pay14 (F := Ideal) i = 0 := by
  show Ideal.ofBits .f32 0x00000000#32 = 0
  exact Ideal.ofBits_zero_f32

end Cert.KernelIdeal.KStages

end
-- ==== Proof.KLoss.lean ====
/-
  The kernel body's arithmetic at an entry, second part: one centre's weighted sum.

  For centre p of a block, the body forms the code differences of its 32 neighbours, pushes them through the
  decoder's three weight matrices with the centre's two indicator vectors multiplied in after the first two, subtracts
  the centre's decoded row and this first-order term from each neighbour row, sums the squares over the 3072
  coordinates, weighs each neighbour by its distance test, and sums over the neighbours: the specification's
  `termK` summed over n, a function of the block's centre row p and its neighbour rows (p, n) alone.
-/
import proofs.«157039_j16423954940420_2_alg».proof.Proof.Gen.KernelIdeal.Frame
import proofs.«157039_j16423954940420_2_alg».proof.Proof.KStages

noncomputable section

namespace Cert.KernelIdeal.KLoss

open Cert.KernelIdeal Cert.KernelIdeal.Gen Cert.KernelIdeal.KMat Cert.KernelIdeal.KStages Cert.LibLayout Cert.Spec
open Idealize.ShloMosaic Idealize.ShloMosaic.ValueIdx

variable (A : Args)

/-- The last payload at entry (p, 0), given what its operands hold row by row. -/
theorem pay15_apply (v0 : FVec Ideal S8x3072 .f32) (v1 : FVec Ideal S8x32x3072 .f32)
    (z8 : FVec Ideal S8x32 .f32) (z9 : FVec Ideal S256x32 .f32) (m1 p2 m2 zr : FVec Ideal S8x1024 .f32)
    (h8 : ∀ (p : Fin 8) (k : Fin 32), z8 (ix2 p k) = enc A (fun d => v0 (ix2 p d)) k)
    (h9 : ∀ (p : Fin 8) (n : Fin 32) (k : Fin 32), z9 (ix2 (flat p n) k) = enc A (fun d => v1 (ix3 p n d)) k)
    (hm1 : ∀ (p : Fin 8) (j : Fin 1024), m1 (ix2 p j) = ind (pre1 A (fun d => v0 (ix2 p d)) j))
    (hp2 : ∀ (p : Fin 8) (j : Fin 1024), p2 (ix2 p j) = pre2 A (fun d => v0 (ix2 p d)) j)
    (hm2 : ∀ (p : Fin 8) (j : Fin 1024), m2 (ix2 p j) = ind (pre2 A (fun d => v0 (ix2 p d)) j))
    (hz : ∀ (p : Fin 8) (j : Fin 1024), zr (ix2 p j) = 0)
    (p : Fin 8) (u : Fin 1) :
    k0_pay15 (F := Ideal) v0 v1 (k0_pay4 A.Wd1) (k0_pay5 A.Wd2) (k0_pay6 A.Wd3) A.bd3 z8 z9 m1 p2 m2 zr (ix2 p u)
      = ∑ n : Fin 32, termK A (fun d => v0 (ix2 p d)) (fun d => v1 (ix3 p n d)) := by
  unfold k0_pay15 k0_pay4 k0_pay5 k0_pay6
  rw [shapeCast_a_a1_apply, red_n']
  refine Finset.sum_congr rfl fun n _ => ?_
  rw [mulf_apply, select_apply, cmpf_apply, sqrt_apply, red_d', red_d']
  simp only [shapeCast_self, mulf_apply, subf_apply, broadcast_apply,
    truncf_apply, maximumf_apply, keep_apply, split_apply, merge_apply, mm_256_32_1024, mm_256_1024_1024, mm_256_1024_3072,
    dense_8_1024_3072, h8, h9, hm1, hp2, hm2, hz]
  rfl

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at entry (p, 0): centre p's sum over its neighbours. -/
theorem out_row (x0 : Vec Ideal S8x3072 .f32) (x1 : Vec Ideal S8x32x3072 .f32) (p : Fin 8) (u : Fin 1) :
    out0_14 (F := Ideal) x0 x1 A.We1 A.be1 A.We2 A.be2 A.We3 A.be3 A.Wd1 A.bd1 A.Wd2 A.bd2 A.Wd3 A.bd3 (ix2 p u)
      = ∑ n : Fin 32, termK A (fun d => x0 (ix2 p d)) (fun d => x1 (ix3 p n d)) := by
  unfold out0_14
  rw [View.canon_unit_zero hz2]
  simp only [View.ld_unit_zero (S := S8x3072) hz2, View.ld_unit_zero (S := S8x32x3072) hz3, View.ld_unit_zero (S := S3072x1024) hz2,
    View.ld_unit_zero (S := S1024) hz1, View.ld_unit_zero (S := S1024x1024) hz2, View.ld_unit_zero (S := S1024x32) hz2,
    View.ld_unit_zero (S := S32) hz1, View.ld_unit_zero (S := S32x1024) hz2, View.ld_unit_zero (S := S1024x3072) hz2,
    View.ld_unit_zero (S := S3072) hz1]
  exact pay15_apply A x0 x1 _ _ _ _ _ _ (pay8_apply A x0) (pay9_apply A x1) (pay11_apply A x0) (pay12_apply A x0) (pay13_apply A x0)
    (fun p j => pay14_apply (ix2 p j)) p u

end Cert.KernelIdeal.KLoss

end
-- ==== Proof.KernelRun.lean ====
import proofs.«157039_j16423954940420_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.RunValue

open Idealize.ShloMosaic Idealize.ShloMosaic.TcCoe Idealize.SL.Sem Idealize.ShloMosaic.Tactic
open Idealize.ShloMosaic.Pipeline (Dat)
open Idealize.ShloMosaic.ValueIdx

/-!
# The kernel's run, read

The program is one grid of 16 points over fifteen windows.  Point `t` sees rows `8 t … 8 t + 7` of the two row-blocked
inputs (a `[128, 3072]` array in blocks `[8, 3072]`, a `[128, 32, 3072]` array in blocks `[8, 32, 3072]`), the whole of each
of the twelve weight and bias arrays, and writes rows `8 t … 8 t + 7` of the `[128, 1]` result.  Six of the weight arrays
reach the grid through a conversion to the narrower float format, which over the extended reals changes no entry.
After the grid the `[128, 1]` result is summed over both axes from zero and the sum divided by a constant.

Part 1 reads each window's block at a point as entries of the argument arrays.  Part 2 says: if what a point leaves in
its `[8, 1]` block is rows `8 t … 8 t + 7` of ONE function `G` of the arguments, then the `[128, 1]` array ends as `G`,
the program's result is the sum of `G` divided by the constant, and every argument array is as launched.
-/

variable (m : (ℓ : Loc nD τ sig) → Buf (Elt Ideal) ℓ) (ρ : Dev nD → PrngReg)

/-! ## Part 1: the blocks, entry by entry -/

/-- Where each row-blocked window sits at point `t`: block `t` along the rows, block `0` along every other axis
    (decided over the sixteen points). -/
theorem idx_rows : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_14.index t (0 : Fin 2) = t.val ∧ win0_14.index t (1 : Fin 2) = 0 :=
  (by decide +kernel : ∀ t : Fin grid0.N, _)

/-- Every other window is its whole array at every point: block `0` on each axis (decided over the sixteen points). -/
theorem idx_whole : ∀ t : Fin cfg0.N,
    (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0
    ∧ (win0_12.index t (0 : Fin 2) = 0 ∧ win0_12.index t (1 : Fin 2) = 0)
    ∧ win0_13.index t (0 : Fin 1) = 0 :=
  (by decide +kernel : ∀ t : Fin grid0.N, _)

/-- Row `p` of block `t` is row `8 t + p` of a 128-row array. -/
theorem row_lt (t : Fin cfg0.N) (p : Fin 8) : 8 * t.val + p.val < 128 := by
  have hN : cfg0.N = 16 := Gen.N_0
  have ht := t.isLt
  have hp := p.isLt
  omega

/-- Window 0 at point `t`: entry `(p, d)` of the block is entry `(8 t + p, d)` of the first argument. -/
theorem iblk0 (c : Dev nD) (t : Fin cfg0.N) (p : Fin 8) (d : Fin 3072) :
    (Gen.iblk m c 0 t : Vec Ideal S8x3072 .f32) (ix2 p d)
      = (m ((c.tc : Thread nD τ).loc main_arg0) : S128x3072.Idx → EReal) (ix2 ⟨8 * t.val + p.val, row_lt t p⟩ d) := by
  obtain ⟨e0, e1, -⟩ := idx_rows t
  unfold Gen.iblk
  rw [View.read_apply]
  show Gen.V m c main_arg0 _ = m (c.tc.loc main_arg0) _
  rw [Gen.V_main_arg0]
  congr 1
  funext a
  apply Fin.ext
  match a with
  | ⟨0, _⟩ => show win0_0.index t 0 * 8 + 1 * p.val = 8 * t.val + p.val; rw [e0]; omega
  | ⟨1, _⟩ => show win0_0.index t 1 * 3072 + 1 * d.val = d.val; rw [e1]; omega

/-- Window 1 at point `t`: entry `(p, n, d)` of the block is entry `(8 t + p, n, d)` of the second argument. -/
theorem iblk1 (c : Dev nD) (t : Fin cfg0.N) (p : Fin 8) (n : Fin 32) (d : Fin 3072) :
    (Gen.iblk m c 1 t : Vec Ideal S8x32x3072 .f32) (ix3 p n d)
      = (m ((c.tc : Thread nD τ).loc main_arg1) : S128x32x3072.Idx → EReal) (ix3 ⟨8 * t.val + p.val, row_lt t p⟩ n d) := by
  obtain ⟨-, -, e0, e1, e2, -⟩ := idx_rows t
  unfold Gen.iblk
  rw [View.read_apply]
  show Gen.V m c main_arg1 _ = m (c.tc.loc main_arg1) _
  rw [Gen.V_main_arg1]
  congr 1
  funext a
  apply Fin.ext
  match a with
  | ⟨0, _⟩ => show win0_1.index t 0 * 8 + 1 * p.val = 8 * t.val + p.val; rw [e0]; omega
  | ⟨1, _⟩ => show win0_1.index t 1 * 32 + 1 * n.val = n.val; rw [e1]; omega
  | ⟨2, _⟩ => show win0_1.index t 2 * 3072 + 1 * d.val = d.val; rw [e2]; omega

/-- The array window 2 stages is the conversion of argument 2 to the narrower format, which over the extended
    reals is that argument entry by entry. -/
theorem V_v0 (c : Dev nD) :
    (Gen.V m c main_v0 : S3072x1024.Idx → EReal) = (m ((c.tc : Thread nD τ).loc main_arg2) : S3072x1024.Idx → EReal) := by
  have e : @Eq (S3072x1024.Idx → EReal) (Gen.V m c main_v0)
      (truncf (F := Ideal) (s := S3072x1024) (φ := .f32) .bf16 (m ((c.tc : Thread nD τ).loc main_arg2)) Gen.bitsLt_bf16_f32) := by
    show StableHlo.after Gen.hostOps0 (fun b => m (c, b)) (Proc.devRef .tc main_v0) = _
    after_results
  rw [e]; rfl

/-- Window 2 at any point is the whole of argument 2. -/
theorem iblk2 (c : Dev nD) (t : Fin cfg0.N) (i : S3072x1024.Idx) :
    (Gen.iblk m c 2 t : Vec Ideal S3072x1024 .bf16) i = (m ((c.tc : Thread nD τ).loc main_arg2) : S3072x1024.Idx → EReal) i := by
  obtain ⟨⟨e0, e1⟩, -⟩ := idx_whole t
  unfold Gen.iblk
  rw [View.read_apply]
  show (Gen.V m c main_v0 : S3072x1024.Idx → EReal) _ = _
  rw [V_v0]
  congr 1
  funext a
  apply Fin.ext
  match a with
  | ⟨0, _⟩ => show win0_2.index t 0 * 3072 + 1 * (i 0).val = (i 0).val; rw [e0]; omega
  | ⟨1, _⟩ => show win0_2.index t 1 * 1024 + 1 * (i 1).val = (i 1).val; rw [e1]; omega

/-- Window 3 at any point is the whole of argument 3. -/
theorem iblk3 (c : Dev nD) (t : Fin cfg0.N) (i : S1024.Idx) :
    (Gen.iblk m c 3 t : Vec Ideal S1024 .f32) i = (m ((c.tc : Thread nD τ).loc main_arg3) : S1024.Idx → EReal) i := by
  obtain ⟨-, e0, -⟩ := idx_whole t
  unfold Gen.iblk
  rw [View.read_apply]
  show Gen.V m c main_arg3 _ = m (c.tc.loc main_arg3) _
  rw [Gen.V_main_arg3]
  congr 1
  funext a
  apply Fin.ext
  match a with
  | ⟨0, _⟩ => show win0_3.index t 0 * 1024 + 1 * (i 0).val = (i 0).val; rw [e0]; omega

/-- The array window 4 stages is the conversion of argument 4 to the narrower format, which over the extended
    reals is that argument entry by entry. -/
theorem V_v1 (c : Dev nD) :
    (Gen.V m c main_v1 : S1024x1024.Idx → EReal) = (m ((c.tc : Thread nD τ).loc main_arg4) : S1024x1024.Idx → EReal) := by
  have e : @Eq (S1024x1024.Idx → EReal) (Gen.V m c main_v1)
      (truncf (F := Ideal) (s := S1024x1024) (φ := .f32) .bf16 (m ((c.tc : Thread nD τ).loc main_arg4)) Gen.bitsLt_bf16_f32) := by
    show StableHlo.after Gen.hostOps0 (fun b => m (c, b)) (Proc.devRef .tc main_v1) = _
    after_results
  rw [e]; rfl

/-- Window 4 at any point is the whole of argument 4. -/
theorem iblk4 (c : Dev nD) (t : Fin cfg0.N) (i : S1024x1024.Idx) :
    (Gen.iblk m c 4 t : Vec Ideal S1024x1024 .bf16) i = (m ((c.tc : Thread nD τ).loc main_arg4) : S1024x1024.Idx → EReal) i := by
  obtain ⟨-, -, ⟨e0, e1⟩, -⟩ := idx_whole t
  unfold Gen.iblk
  rw [View.read_apply]
  show (Gen.V m c main_v1 : S1024x1024.Idx → EReal) _ = _
  rw [V_v1]
  congr 1
  funext a
  apply Fin.ext
  match a with
  | ⟨0, _⟩ => show win0_4.index t 0 * 1024 + 1 * (i 0).val = (i 0).val; rw [e0]; omega
  | ⟨1, _⟩ => show win0_4.index t 1 * 1024 + 1 * (i 1).val = (i 1).val; rw [e1]; omega

/-- Window 5 at any point is the whole of argument 5. -/
theorem iblk5 (c : Dev nD) (t : Fin cfg0.N) (i : S1024.Idx) :
    (Gen.iblk m c 5 t : Vec Ideal S1024 .f32) i = (m ((c.tc : Thread nD τ).loc main_arg5) : S1024.Idx → EReal) i := by
  obtain ⟨-, -, -, e0, -⟩ := idx_whole t
  unfold Gen.iblk
  rw [View.read_apply]
  show Gen.V m c main_arg5 _ = m (c.tc.loc main_arg5) _
  rw [Gen.V_main_arg5]
  congr 1
  funext a
  apply Fin.ext
  match a with
  | ⟨0, _⟩ => show win0_5.index t 0 * 1024 + 1 * (i 0).val = (i 0).val; rw [e0]; omega

/-- The array window 6 stages is the conversion of argument 6 to the narrower format, which over the extended
    reals is that argument entry by entry. -/
theorem V_v2 (c : Dev nD) :
    (Gen.V m c main_v2 : S1024x32.Idx → EReal) = (m ((c.tc : Thread nD τ).loc main_arg6) : S1024x32.Idx → EReal) := by
  have e : @Eq (S1024x32.Idx → EReal) (Gen.V m c main_v2)
      (truncf (F := Ideal) (s := S1024x32) (φ := .f32) .bf16 (m ((c.tc : Thread nD τ).loc main_arg6)) Gen.bitsLt_bf16_f32) := by
    show StableHlo.after Gen.hostOps0 (fun b => m (c, b)) (Proc.devRef .tc main_v2) = _
    after_results
  rw [e]; rfl

/-- Window 6 at any point is the whole of argument 6. -/
theorem iblk6 (c : Dev nD) (t : Fin cfg0.N) (i : S1024x32.Idx) :
    (Gen.iblk m c 6 t : Vec Ideal S1024x32 .bf16) i = (m ((c.tc : Thread nD τ).loc main_arg6) : S1024x32.Idx → EReal) i := by
  obtain ⟨-, -, -, -, ⟨e0, e1⟩, -⟩ := idx_whole t
  unfold Gen.iblk
  rw [View.read_apply]
  show (Gen.V m c main_v2 : S1024x32.Idx → EReal) _ = _
  rw [V_v2]
  congr 1
  funext a
  apply Fin.ext
  match a with
  | ⟨0, _⟩ => show win0_6.index t 0 * 1024 + 1 * (i 0).val = (i 0).val; rw [e0]; omega
  | ⟨1, _⟩ => show win0_6.index t 1 * 32 + 1 * (i 1).val = (i 1).val; rw [e1]; omega

/-- Window 7 at any point is the whole of argument 7. -/
theorem iblk7 (c : Dev nD) (t : Fin cfg0.N) (i : S32.Idx) :
    (Gen.iblk m c 7 t : Vec Ideal S32 .f32) i = (m ((c.tc : Thread nD τ).loc main_arg7) : S32.Idx → EReal) i := by
  obtain ⟨-, -, -, -, -, e0, -⟩ := idx_whole t
  unfold Gen.iblk
  rw [View.read_apply]
  show Gen.V m c main_arg7 _ = m (c.tc.loc main_arg7) _
  rw [Gen.V_main_arg7]
  congr 1
  funext a
  apply Fin.ext
  match a with
  | ⟨0, _⟩ => show win0_7.index t 0 * 32 + 1 * (i 0).val = (i 0).val; rw [e0]; omega

/-- The array window 8 stages is the conversion of argument 8 to the narrower format, which over the extended
    reals is that argument entry by entry. -/
theorem V_v3 (c : Dev nD) :
    (Gen.V m c main_v3 : S32x1024.Idx → EReal) = (m ((c.tc : Thread nD τ).loc main_arg8) : S32x1024.Idx → EReal) := by
  have e : @Eq (S32x1024.Idx → EReal) (Gen.V m c main_v3)
      (truncf (F := Ideal) (s := S32x1024) (φ := .f32) .bf16 (m ((c.tc : Thread nD τ).loc main_arg8)) Gen.bitsLt_bf16_f32) := by
    show StableHlo.after Gen.hostOps0 (fun b => m (c, b)) (Proc.devRef .tc main_v3) = _
    after_results
  rw [e]; rfl

/-- Window 8 at any point is the whole of argument 8. -/
theorem iblk8 (c : Dev nD) (t : Fin cfg0.N) (i : S32x1024.Idx) :
    (Gen.iblk m c 8 t : Vec Ideal S32x1024 .bf16) i = (m ((c.tc : Thread nD τ).loc main_arg8) : S32x1024.Idx → EReal) i := by
  obtain ⟨-, -, -, -, -, -, ⟨e0, e1⟩, -⟩ := idx_whole t
  unfold Gen.iblk
  rw [View.read_apply]
  show (Gen.V m c main_v3 : S32x1024.Idx → EReal) _ = _
  rw [V_v3]
  congr 1
  funext a
  apply Fin.ext
  match a with
  | ⟨0, _⟩ => show win0_8.index t 0 * 32 + 1 * (i 0).val = (i 0).val; rw [e0]; omega
  | ⟨1, _⟩ => show win0_8.index t 1 * 1024 + 1 * (i 1).val = (i 1).val; rw [e1]; omega

/-- Window 9 at any point is the whole of argument 9. -/
theorem iblk9 (c : Dev nD) (t : Fin cfg0.N) (i : S1024.Idx) :
    (Gen.iblk m c 9 t : Vec Ideal S1024 .f32) i = (m ((c.tc : Thread nD τ).loc main_arg9) : S1024.Idx → EReal) i := by
  obtain ⟨-, -, -, -, -, -, -, e0, -⟩ := idx_whole t
  unfold Gen.iblk
  rw [View.read_apply]
  show Gen.V m c main_arg9 _ = m (c.tc.loc main_arg9) _
  rw [Gen.V_main_arg9]
  congr 1
  funext a
  apply Fin.ext
  match a with
  | ⟨0, _⟩ => show win0_9.index t 0 * 1024 + 1 * (i 0).val = (i 0).val; rw [e0]; omega

/-- The array window 10 stages is the conversion of argument 10 to the narrower format, which over the extended
    reals is that argument entry by entry. -/
theorem V_v4 (c : Dev nD) :
    (Gen.V m c main_v4 : S1024x1024.Idx → EReal) = (m ((c.tc : Thread nD τ).loc main_arg10) : S1024x1024.Idx → EReal) := by
  have e : @Eq (S1024x1024.Idx → EReal) (Gen.V m c main_v4)
      (truncf (F := Ideal) (s := S1024x1024) (φ := .f32) .bf16 (m ((c.tc : Thread nD τ).loc main_arg10)) Gen.bitsLt_bf16_f32) := by
    show StableHlo.after Gen.hostOps0 (fun b => m (c, b)) (Proc.devRef .tc main_v4) = _
    after_results
  rw [e]; rfl

/-- Window 10 at any point is the whole of argument 10. -/
theorem iblk10 (c : Dev nD) (t : Fin cfg0.N) (i : S1024x1024.Idx) :
    (Gen.iblk m c 10 t : Vec Ideal S1024x1024 .bf16) i = (m ((c.tc : Thread nD τ).loc main_arg10) : S1024x1024.Idx → EReal) i := by
  obtain ⟨-, -, -, -, -, -, -, -, ⟨e0, e1⟩, -⟩ := idx_whole t
  unfold Gen.iblk
  rw [View.read_apply]
  show (Gen.V m c main_v4 : S1024x1024.Idx → EReal) _ = _
  rw [V_v4]
  congr 1
  funext a
  apply Fin.ext
  match a with
  | ⟨0, _⟩ => show win0_10.index t 0 * 1024 + 1 * (i 0).val = (i 0).val; rw [e0]; omega
  | ⟨1, _⟩ => show win0_10.index t 1 * 1024 + 1 * (i 1).val = (i 1).val; rw [e1]; omega

/-- Window 11 at any point is the whole of argument 11. -/
theorem iblk11 (c : Dev nD) (t : Fin cfg0.N) (i : S1024.Idx) :
    (Gen.iblk m c 11 t : Vec Ideal S1024 .f32) i = (m ((c.tc : Thread nD τ).loc main_arg11) : S1024.Idx → EReal) i := by
  obtain ⟨-, -, -, -, -, -, -, -, -, e0, -⟩ := idx_whole t
  unfold Gen.iblk
  rw [View.read_apply]
  show Gen.V m c main_arg11 _ = m (c.tc.loc main_arg11) _
  rw [Gen.V_main_arg11]
  congr 1
  funext a
  apply Fin.ext
  match a with
  | ⟨0, _⟩ => show win0_11.index t 0 * 1024 + 1 * (i 0).val = (i 0).val; rw [e0]; omega

/-- The array window 12 stages is the conversion of argument 12 to the narrower format, which over the extended
    reals is that argument entry by entry. -/
theorem V_v5 (c : Dev nD) :
    (Gen.V m c main_v5 : S1024x3072.Idx → EReal) = (m ((c.tc : Thread nD τ).loc main_arg12) : S1024x3072.Idx → EReal) := by
  have e : @Eq (S1024x3072.Idx → EReal) (Gen.V m c main_v5)
      (truncf (F := Ideal) (s := S1024x3072) (φ := .f32) .bf16 (m ((c.tc : Thread nD τ).loc main_arg12)) Gen.bitsLt_bf16_f32) := by
    show StableHlo.after Gen.hostOps0 (fun b => m (c, b)) (Proc.devRef .tc main_v5) = _
    after_results
  rw [e]; rfl

/-- Window 12 at any point is the whole of argument 12. -/
theorem iblk12 (c : Dev nD) (t : Fin cfg0.N) (i : S1024x3072.Idx) :
    (Gen.iblk m c 12 t : Vec Ideal S1024x3072 .bf16) i = (m ((c.tc : Thread nD τ).loc main_arg12) : S1024x3072.Idx → EReal) i := by
  obtain ⟨-, -, -, -, -, -, -, -, -, -, ⟨e0, e1⟩, -⟩ := idx_whole t
  unfold Gen.iblk
  rw [View.read_apply]
  show (Gen.V m c main_v5 : S1024x3072.Idx → EReal) _ = _
  rw [V_v5]
  congr 1
  funext a
  apply Fin.ext
  match a with
  | ⟨0, _⟩ => show win0_12.index t 0 * 1024 + 1 * (i 0).val = (i 0).val; rw [e0]; omega
  | ⟨1, _⟩ => show win0_12.index t 1 * 3072 + 1 * (i 1).val = (i 1).val; rw [e1]; omega

/-- Window 13 at any point is the whole of argument 13. -/
theorem iblk13 (c : Dev nD) (t : Fin cfg0.N) (i : S3072.Idx) :
    (Gen.iblk m c 13 t : Vec Ideal S3072 .f32) i = (m ((c.tc : Thread nD τ).loc main_arg13) : S3072.Idx → EReal) i := by
  obtain ⟨-, -, -, -, -, -, -, -, -, -, -, e0⟩ := idx_whole t
  unfold Gen.iblk
  rw [View.read_apply]
  show Gen.V m c main_arg13 _ = m (c.tc.loc main_arg13) _
  rw [Gen.V_main_arg13]
  congr 1
  funext a
  apply Fin.ext
  match a with
  | ⟨0, _⟩ => show win0_13.index t 0 * 3072 + 1 * (i 0).val = (i 0).val; rw [e0]; omega

/-! ## Part 2: from the rows each point leaves to the program's result -/

section Run

variable (G : Dev nD → (S128x1.Idx → EReal))

/-- What point `t` writes back is block `t` of `G`: rows `8 t … 8 t + 7`, the one column. -/
theorem flushed_eq
    (hG : ∀ (c : Dev nD) (t : Fin cfg0.N) (p : Fin 8),
      Gen.out0_14 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t) (ix2 p (0 : Fin 1))
        = G c (ix2 ⟨8 * t.val + p.val, row_lt t p⟩ (0 : Fin 1)))
    (c : Dev nD) (t : Fin cfg0.N) :
    (Gen.dats m 0 c).flushed 14 t = ((cfg0.win 14).blk t).view.read (Elt Ideal) (G c) := by
  show (cfg0.win 14).cut (grid0.coords t) ((Gen.dats m 0 c).after 14 t) = _
  rw [Gen.after0_14]
  obtain ⟨-, -, -, -, -, e0, e1⟩ := idx_rows t
  funext y
  show Gen.out0_14 (F := Ideal) _ _ _ _ _ _ _ _ _ _ _ _ _ _ y = G c (((cfg0.win 14).blk t).view.emb y)
  have h1 : (y 1).val < 1 := (y 1).isLt
  have hy : y = ix2 (n0 := 8) (n1 := 1) (y 0) (0 : Fin 1) := by
    funext a
    match a with
    | ⟨0, _⟩ => rfl
    | ⟨1, _⟩ => exact Fin.ext (by show (y 1).val = 0; omega)
  refine Eq.trans (congrArg _ hy) ?_
  refine (hG c t (y 0)).trans ?_
  refine congrArg (G c) ?_
  funext a
  apply Fin.ext
  match a with
  | ⟨0, _⟩ => show 8 * t.val + (y 0).val = win0_14.index t 0 * 8 + 1 * (y 0).val; rw [e0]; omega
  | ⟨1, _⟩ => show 0 = win0_14.index t 1 * 1 + 1 * (y 1).val; rw [e1]; omega

/-- An index of the `[128, 1]` array lies in point `t`'s block iff each coordinate is in the block's range on its axis. -/
theorem mem_blk (t : Fin cfg0.N) (i : S128x1.Idx) :
    i ∈ ((cfg0.win 14).blk t).view.set
      ↔ ∀ a : Fin 2, win0_14.index t a * S8x1.size a ≤ (i a).val ∧ (i a).val < win0_14.index t a * S8x1.size a + S8x1.size a := by
  show i ∈ ((View.whole main_v6).slice (win0_14.rect t)).set ↔ _
  rw [View.set_slice_whole, Rect.mem_set_unit]
  exact Iff.rfl

/-- Every row is in some point's block: row `r` in the block of point `r / 8`, and every point writes its block back. -/
theorem cover (i : S128x1.Idx) :
    ∃ t : Fin cfg0.N, (cfg0.win 14).flush t = true ∧ i ∈ ((cfg0.win 14).blk t).view.set := by
  have hN : cfg0.N = 16 := Gen.N_0
  have hi0 : (i 0).val < 128 := (i 0).isLt
  have hi1 : (i 1).val < 1 := (i 1).isLt
  have ht : (i 0).val / 8 < cfg0.N := by omega
  obtain ⟨-, -, -, -, -, e0, e1⟩ := idx_rows ⟨(i 0).val / 8, ht⟩
  refine ⟨⟨(i 0).val / 8, ht⟩, Gen.flush0_14 _, ?_⟩
  rw [mem_blk]
  intro a
  match a with
  | ⟨0, _⟩ =>
    show win0_14.index ⟨(i 0).val / 8, ht⟩ 0 * 8 ≤ (i 0).val ∧ (i 0).val < win0_14.index ⟨(i 0).val / 8, ht⟩ 0 * 8 + 8
    rw [e0]; show (i 0).val / 8 * 8 ≤ (i 0).val ∧ (i 0).val < (i 0).val / 8 * 8 + 8; omega
  | ⟨1, _⟩ =>
    show win0_14.index ⟨(i 0).val / 8, ht⟩ 1 * 1 ≤ (i 1).val ∧ (i 1).val < win0_14.index ⟨(i 0).val / 8, ht⟩ 1 * 1 + 1
    rw [e1]; omega

/-- So the `[128, 1]` array ends holding `G`. -/
theorem final
    (hG : ∀ (c : Dev nD) (t : Fin cfg0.N) (p : Fin 8),
      Gen.out0_14 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t) (ix2 p (0 : Fin 1))
        = G c (ix2 ⟨8 * t.val + p.val, row_lt t p⟩ (0 : Fin 1)))
    (c : Dev nD) : (Gen.dats m 0 c).arrAt 14 cfg0.N = G c :=
  (Gen.dats m 0 c).arrAt_eq_of_cover 14 (G c) (fun t _ => flushed_eq m G hG c t) cover

/-- The lines after the grid: the program's result is the `[128, 1]` array summed over both axes from zero, divided by
    the constant — here with the array named `X`. -/
theorem tail_result (c : Dev nD) (X : S128x1.Idx → EReal) (hX : (Gen.dats m 0 c).arrAt 14 cfg0.N = X) :
    Pipeline.afterTail₀ cfgs (Gen.dats m) 0 (Gen.V0 m) [Gen.hostOps1] c main_v8
      = Host.divf (F := Ideal) (Host.reduceAdd (F := Ideal) (φ := .f32) X (constant (F := Ideal) S_ .f32 0x00000000#32) Gen.reducesTo_S128x1_S_d0_1 Gen.h_S_) (constant (F := Ideal) S_ .f32 0x45800000#32) := by
  unfold Pipeline.afterTail₀
  show StableHlo.after Gen.hostOps1 _ (Proc.devRef .tc main_v8) = _
  after_results
  have e : Pipeline.withArrays (cfgs 0).spec c (Gen.V0 m c) (fun w => (Gen.dats m 0 c).arrAt w (cfgs 0).N) (Proc.devRef .tc main_v6) = X :=
    (Pipeline.withArrays_arr spec0 Gen.launch0.win.arr_inj c _ _ 14).trans hX
  rw [e]

/-- THE RUN: every fair execution of the program from memory `m` with zero counters ends with the result at the sum of
    `G` over the `[128, 1]` array, taken from zero and divided by the constant, and with every argument array as launched —
    given only that each point leaves rows `8 t … 8 t + 7` of `G` in its block. -/
theorem run_of_rows
    (hG : ∀ (c : Dev nD) (t : Fin cfg0.N) (p : Fin 8),
      Gen.out0_14 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t) (ix2 p (0 : Fin 1))
        = G c (ix2 ⟨8 * t.val + p.val, row_lt t p⟩ (0 : Fin 1))) :
    θ_run defs (onTc (τ := τ) (main (F := Ideal))) ⟨m, fun _ => 0, ρ⟩ (fun r => ∀ c : Dev nD,
      r.2.mem ((c.tc : Thread nD τ).loc main_v8)
          = Host.divf (F := Ideal) (Host.reduceAdd (F := Ideal) (φ := .f32) (G c) (constant (F := Ideal) S_ .f32 0x00000000#32) Gen.reducesTo_S128x1_S_d0_1 Gen.h_S_) (constant (F := Ideal) S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨((h c).2 main_v8 (Pipeline.mem_restRefs_of main_v8 (by decide) (by decide))).trans (tail_result m c (G c) (final m G hG c)),
     ((h c).1 0).trans (((Gen.dats m 0 c).arrAt_in 0 rfl _).trans ((Gen.A_eq m c 0).trans (Gen.V_main_arg0 m c))),
     ((h c).1 1).trans (((Gen.dats m 0 c).arrAt_in 1 rfl _).trans ((Gen.A_eq m c 1).trans (Gen.V_main_arg1 m c))),
     ((h c).2 main_arg2 (Pipeline.mem_restRefs_of main_arg2 (by decide) (by decide))).trans (Gen.W_main_arg2 m (Gen.dats m) c),
     ((h c).1 3).trans (((Gen.dats m 0 c).arrAt_in 3 rfl _).trans ((Gen.A_eq m c 3).trans (Gen.V_main_arg3 m c))),
     ((h c).2 main_arg4 (Pipeline.mem_restRefs_of main_arg4 (by decide) (by decide))).trans (Gen.W_main_arg4 m (Gen.dats m) c),
     ((h c).1 5).trans (((Gen.dats m 0 c).arrAt_in 5 rfl _).trans ((Gen.A_eq m c 5).trans (Gen.V_main_arg5 m c))),
     ((h c).2 main_arg6 (Pipeline.mem_restRefs_of main_arg6 (by decide) (by decide))).trans (Gen.W_main_arg6 m (Gen.dats m) c),
     ((h c).1 7).trans (((Gen.dats m 0 c).arrAt_in 7 rfl _).trans ((Gen.A_eq m c 7).trans (Gen.V_main_arg7 m c))),
     ((h c).2 main_arg8 (Pipeline.mem_restRefs_of main_arg8 (by decide) (by decide))).trans (Gen.W_main_arg8 m (Gen.dats m) c),
     ((h c).1 9).trans (((Gen.dats m 0 c).arrAt_in 9 rfl _).trans ((Gen.A_eq m c 9).trans (Gen.V_main_arg9 m c))),
     ((h c).2 main_arg10 (Pipeline.mem_restRefs_of main_arg10 (by decide) (by decide))).trans (Gen.W_main_arg10 m (Gen.dats m) c),
     ((h c).1 11).trans (((Gen.dats m 0 c).arrAt_in 11 rfl _).trans ((Gen.A_eq m c 11).trans (Gen.V_main_arg11 m c))),
     ((h c).2 main_arg12 (Pipeline.mem_restRefs_of main_arg12 (by decide) (by decide))).trans (Gen.W_main_arg12 m (Gen.dats m) c),
     ((h c).1 13).trans (((Gen.dats m 0 c).arrAt_in 13 rfl _).trans ((Gen.A_eq m c 13).trans (Gen.V_main_arg13 m c)))⟩)
    (Gen.run_main m ρ)

end Run

end Cert.KernelIdeal.RunValue

end
-- ==== Proof.PreFinite.lean ====
/-
  Every entry of every argument array is a real number, from the precondition.

  The precondition says that a certain one-bit word, computed from the fourteen argument arrays, is 1. That word
  is the conjunction (nested to the left) of fourteen words, one per array x: the conjunction over all entries i of
  "|x i| < +∞", where |a| = max a (-a) on the extended reals and +∞ is what the f32 pattern 0x7F800000 denotes.
  A conjunction of one-bit words is 1 exactly when each of them is 1; so for every array and every entry,
  max (x i) (-(x i)) < ⊤, which rules out both x i = ⊤ and x i = ⊥ and leaves x i a real.
-/
import proofs.«157039_j16423954940420_2_alg».proof.Defs
import Idealize.ShloMosaic.Lib.ReduceAll
import Idealize.ShloMosaic.Lib.ValueIdx
import Idealize.ShloMosaic.PureOps.Ideal.Laws

noncomputable section

namespace Cert.Proof.PreFinite

open Idealize.ShloMosaic Idealize.SL.Sem
open Cert.Pre_finite_inputs (S_)

/-- The rank-0 shape has exactly one index. -/
instance : Subsingleton S_.Idx := ⟨fun a b => funext fun d => d.elim0⟩

/-- The f32 pattern with all exponent bits set and a zero significand denotes +∞. -/
theorem inf_eq_top : Ideal.ofBits .f32 0x7F800000#32 = (⊤ : EReal) := by
  simp [Ideal.ofBits, Ideal.ieee]

/-- An extended real whose absolute value max x (-x) is strictly below +∞ is neither +∞ nor -∞: it is a real. -/
theorem real_of_abs_lt_top (x : EReal) (h : Ideal.cmp .olt (max x (-x)) (⊤ : EReal) = 1#1) :
    ∃ r : ℝ, x = (r : EReal) := by
  induction x using EReal.rec with
  | bot => exact absurd h (by simp [Ideal.cmp])
  | coe r => exact ⟨r, rfl⟩
  | top => exact absurd h (by simp [Ideal.cmp])

/-- One conjunct of the precondition, for an array of any shape: if the conjunction over all entries of
    "|x i| < +∞" (a reduction by "and" over every axis, started at 1) is 1, then every entry of x is a real. -/
theorem reals_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1)
    (i : s.Idx) : ∃ r : ℝ, x i = (r : EReal) := by
  have h := Host.reduce_andi_all _ _ hr hu j e i
  have h' : Ideal.cmp .olt (max (x i) (-(x i))) (Ideal.ofBits .f32 0x7F800000#32) = 1#1 := h
  rw [inf_eq_top] at h'
  exact real_of_abs_lt_top _ h'

/-- The precondition decoded: on every device, every entry of each of the fourteen argument arrays is a real
    number. The precondition is the conjunction, nested to the left, of fourteen "all entries have |x| < +∞"
    reductions, one per array; it is split into its fourteen parts and each part read by the lemma above. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal)) := by
  have e := congrFun (h c) ValueIdx.ix0
  simp only [Cert.Pre_finite_inputs.fn, Cert.Pre_finite_inputs.fn_part1, Cert.Pre_finite_inputs.fn_part2,
    Cert.Pre_finite_inputs.fn_part3, Cert.Pre_finite_inputs.fn_part4, andi, IntOp.andi_eq_one] at e
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := e
  exact ⟨reals_of_all _ _ _ _ _ e0,
    reals_of_all _ _ _ _ _ e1,
    reals_of_all _ _ _ _ _ e2,
    reals_of_all _ _ _ _ _ e3,
    reals_of_all _ _ _ _ _ e4,
    reals_of_all _ _ _ _ _ e5,
    reals_of_all _ _ _ _ _ e6,
    reals_of_all _ _ _ _ _ e7,
    reals_of_all _ _ _ _ _ e8,
    reals_of_all _ _ _ _ _ e9,
    reals_of_all _ _ _ _ _ e10,
    reals_of_all _ _ _ _ _ e11,
    reals_of_all _ _ _ _ _ e12,
    reals_of_all _ _ _ _ _ e13⟩

end Cert.Proof.PreFinite

end
-- ==== Proof.RefEnc.lean ====
/-
  The reference program's stages %0 … %50 read at an index, as the specification's functions.

  The encoder is three affine layers x ↦ x W + b with a positive part after the first two. A matrix product's
  entry (row a, column j) is Σₖ in[a,k] · W[k,j]; a bias is broadcast along the rows, so its entry at (a, j)
  is b[j]; a positive part is the maximum with the zero word, which denotes 0. Read at (a, j), each layer is
  therefore the specification's affine map of the previous layer's row a, at coordinate j.

  The 128 centre rows go through the encoder (code z_b = enc(x_c[b])) and on through the decoder's three layers
  (pre-activations pre₁, pre₂ and the reconstruction). The 128·32 neighbour rows are the rows of the neighbour
  array flattened: row r = 32·b + n is neighbour n of centre b; they go through the same encoder. The code
  differences enc(x_nn[b,n]) − z_b, and the centre's code repeated on its 32 neighbour rows, are formed on the
  three-axis arrangement (b, n, k) and flattened back to rows r.
-/
import proofs.«157039_j16423954940420_2_alg».proof.Proof.Gen.ReferenceIdeal.Read
import proofs.«157039_j16423954940420_2_alg».proof.Proof.Spec
import Idealize.ShloMosaic.Lib.IdealHost

noncomputable section

namespace Cert.RefEnc

open Cert.ReferenceIdeal Cert.ReferenceIdeal.Read Cert.Spec
open Idealize.ShloMosaic Idealize.ShloMosaic.ValueIdx

variable (A : Cert.Spec.Args)

/-! ## The encoder on the centre rows -/

theorem l0 (a : Fin 128) (j : Fin 1024) (k : Fin 3072) : lidx_main_v0 (ix2 a j) k = ix2 a k := by
  funext c; match c with | ⟨0, _⟩ => rfl | ⟨1, _⟩ => rfl
theorem rr0 (a : Fin 128) (j : Fin 1024) (k : Fin 3072) : ridx_main_v0 (ix2 a j) k = ix2 k j := by
  funext c; match c with | ⟨0, _⟩ => rfl | ⟨1, _⟩ => rfl
theorem bi2 (a : Fin 128) (j : Fin 1024) : idx_main_v1 (idx_main_v2 (ix2 a j)) = ix1 j := by
  funext c; match c with | ⟨0, _⟩ => rfl
/-- The encoder's first affine layer on centre row b. -/
theorem r3 (b : Fin 128) (j : Fin 1024) :
    val_main_v3 (F := Ideal) A.xc A.We1 A.be1 (ix2 b j) = aff A.We1 A.be1 (cRow A b) j := by
  rw [val_main_v3_apply, val_main_v0_apply, val_main_v2_apply, val_main_v1_apply]
  simp only [l0, rr0, bi2]
  rfl

/-- Its positive part. -/
theorem r4 (b : Fin 128) (j : Fin 1024) :
    val_main_v4 (F := Ideal) A.xc A.We1 A.be1 (ix2 b j) = relu (aff A.We1 A.be1 (cRow A b)) j := by
  rw [val_main_v4_apply, val_main_call0_v0_apply, val_main_call0_cst_apply, r3 A b]
  show max _ (Ideal.ofBits .f32 0x00000000#32) = max _ 0
  rw [Ideal.ofBits_zero_f32]

theorem l5 (a : Fin 128) (j : Fin 1024) (k : Fin 1024) : lidx_main_v5 (ix2 a j) k = ix2 a k := by
  funext c; match c with | ⟨0, _⟩ => rfl | ⟨1, _⟩ => rfl
theorem rr5 (a : Fin 128) (j : Fin 1024) (k : Fin 1024) : ridx_main_v5 (ix2 a j) k = ix2 k j := by
  funext c; match c with | ⟨0, _⟩ => rfl | ⟨1, _⟩ => rfl
theorem bi7 (a : Fin 128) (j : Fin 1024) : idx_main_v6 (idx_main_v7 (ix2 a j)) = ix1 j := by
  funext c; match c with | ⟨0, _⟩ => rfl
/-- The encoder's second affine layer on centre row b. -/
theorem r8 (b : Fin 128) (j : Fin 1024) :
    val_main_v8 (F := Ideal) A.xc A.We1 A.be1 A.We2 A.be2 (ix2 b j) = aff A.We2 A.be2 (relu (aff A.We1 A.be1 (cRow A b))) j := by
  rw [val_main_v8_apply, val_main_v5_apply, val_main_v7_apply, val_main_v6_apply]
  simp only [l5, rr5, bi7, r4 A b]
  rfl

/-- Its positive part. -/
theorem r9 (b : Fin 128) (j : Fin 1024) :
    val_main_v9 (F := Ideal) A.xc A.We1 A.be1 A.We2 A.be2 (ix2 b j) = relu (aff A.We2 A.be2 (relu (aff A.We1 A.be1 (cRow A b)))) j := by
  rw [val_main_v9_apply, val_main_call1_v0_apply, val_main_call1_cst_apply, r8 A b]
  show max _ (Ideal.ofBits .f32 0x00000000#32) = max _ 0
  rw [Ideal.ofBits_zero_f32]

theorem l10 (a : Fin 128) (j : Fin 32) (k : Fin 1024) : lidx_main_v10 (ix2 a j) k = ix2 a k := by
  funext c; match c with | ⟨0, _⟩ => rfl | ⟨1, _⟩ => rfl
theorem rr10 (a : Fin 128) (j : Fin 32) (k : Fin 1024) : ridx_main_v10 (ix2 a j) k = ix2 k j := by
  funext c; match c with | ⟨0, _⟩ => rfl | ⟨1, _⟩ => rfl
theorem bi12 (a : Fin 128) (j : Fin 32) : idx_main_v11 (idx_main_v12 (ix2 a j)) = ix1 j := by
  funext c; match c with | ⟨0, _⟩ => rfl
/-- The encoder's third affine layer on centre row b: the code of centre b. -/
theorem r13 (b : Fin 128) (k : Fin 32) :
    val_main_v13 (F := Ideal) A.xc A.We1 A.be1 A.We2 A.be2 A.We3 A.be3 (ix2 b k) = enc A (cRow A b) k := by
  rw [val_main_v13_apply, val_main_v10_apply, val_main_v12_apply, val_main_v11_apply]
  simp only [l10, rr10, bi12, r9 A b]
  rfl

/-! ## The encoder on the neighbour rows -/

/-- Row r = 32·b + n of the flattened neighbour array, column d, is entry (b, n, d) of the neighbour array. -/
theorem i14 (r : Fin 4096) (b : Fin 128) (n : Fin 32) (hr : r.val = b.val * 32 + n.val) (d : Fin 3072) :
    idx_main_v14 (ix2 r d) = ix3 b n d := by
  have hd := d.isLt
  have hn := n.isLt
  funext c
  match c with
  | ⟨0, _⟩ => exact Fin.ext (by show (r.val * 3072 + d.val) / 98304 = b.val; omega)
  | ⟨1, _⟩ => exact Fin.ext (by show (r.val * 3072 + d.val) / 3072 % 32 = n.val; omega)
  | ⟨2, _⟩ => exact Fin.ext (by show (r.val * 3072 + d.val) % 3072 = d.val; omega)

/-- The flattened neighbour array's row r is neighbour n of centre b. -/
theorem r14 (r : Fin 4096) (b : Fin 128) (n : Fin 32) (hr : r.val = b.val * 32 + n.val) (d : Fin 3072) :
    val_main_v14 (F := Ideal) A.xnn (ix2 r d) = nRow A b n d := by
  rw [val_main_v14_apply, i14 r b n hr d]
  rfl

theorem l15 (a : Fin 4096) (j : Fin 1024) (k : Fin 3072) : lidx_main_v15 (ix2 a j) k = ix2 a k := by
  funext c; match c with | ⟨0, _⟩ => rfl | ⟨1, _⟩ => rfl
theorem rr15 (a : Fin 4096) (j : Fin 1024) (k : Fin 3072) : ridx_main_v15 (ix2 a j) k = ix2 k j := by
  funext c; match c with | ⟨0, _⟩ => rfl | ⟨1, _⟩ => rfl
theorem bi17 (a : Fin 4096) (j : Fin 1024) : idx_main_v16 (idx_main_v17 (ix2 a j)) = ix1 j := by
  funext c; match c with | ⟨0, _⟩ => rfl
/-- The encoder's first affine layer on neighbour row r = 32·b + n. -/
theorem r18 (r : Fin 4096) (b : Fin 128) (n : Fin 32) (hr : r.val = b.val * 32 + n.val) (j : Fin 1024) :
    val_main_v18 (F := Ideal) A.xnn A.We1 A.be1 (ix2 r j) = aff A.We1 A.be1 (nRow A b n) j := by
  rw [val_main_v18_apply, val_main_v15_apply, val_main_v17_apply, val_main_v16_apply]
  simp only [l15, rr15, bi17, r14 A r b n hr]
  rfl

/-- Its positive part. -/
theorem r19 (r : Fin 4096) (b : Fin 128) (n : Fin 32) (hr : r.val = b.val * 32 + n.val) (j : Fin 1024) :
    val_main_v19 (F := Ideal) A.xnn A.We1 A.be1 (ix2 r j) = relu (aff A.We1 A.be1 (nRow A b n)) j := by
  rw [val_main_v19_apply, val_main_call2_v0_apply, val_main_call2_cst_apply, r18 A r b n hr]
  show max _ (Ideal.ofBits .f32 0x00000000#32) = max _ 0
  rw [Ideal.ofBits_zero_f32]

theorem l20 (a : Fin 4096) (j : Fin 1024) (k : Fin 1024) : lidx_main_v20 (ix2 a j) k = ix2 a k := by
  funext c; match c with | ⟨0, _⟩ => rfl | ⟨1, _⟩ => rfl
theorem rr20 (a : Fin 4096) (j : Fin 1024) (k : Fin 1024) : ridx_main_v20 (ix2 a j) k = ix2 k j := by
  funext c; match c with | ⟨0, _⟩ => rfl | ⟨1, _⟩ => rfl
theorem bi22 (a : Fin 4096) (j : Fin 1024) : idx_main_v21 (idx_main_v22 (ix2 a j)) = ix1 j := by
  funext c; match c with | ⟨0, _⟩ => rfl
/-- The encoder's second affine layer on neighbour row r = 32·b + n. -/
theorem r23 (r : Fin 4096) (b : Fin 128) (n : Fin 32) (hr : r.val = b.val * 32 + n.val) (j : Fin 1024) :
    val_main_v23 (F := Ideal) A.xnn A.We1 A.be1 A.We2 A.be2 (ix2 r j) = aff A.We2 A.be2 (relu (aff A.We1 A.be1 (nRow A b n))) j := by
  rw [val_main_v23_apply, val_main_v20_apply, val_main_v22_apply, val_main_v21_apply]
  simp only [l20, rr20, bi22, r19 A r b n hr]
  rfl

/-- Its positive part. -/
theorem r24 (r : Fin 4096) (b : Fin 128) (n : Fin 32) (hr : r.val = b.val * 32 + n.val) (j : Fin 1024) :
    val_main_v24 (F := Ideal) A.xnn A.We1 A.be1 A.We2 A.be2 (ix2 r j) = relu (aff A.We2 A.be2 (relu (aff A.We1 A.be1 (nRow A b n)))) j := by
  rw [val_main_v24_apply, val_main_call3_v0_apply, val_main_call3_cst_apply, r23 A r b n hr]
  show max _ (Ideal.ofBits .f32 0x00000000#32) = max _ 0
  rw [Ideal.ofBits_zero_f32]

theorem l25 (a : Fin 4096) (j : Fin 32) (k : Fin 1024) : lidx_main_v25 (ix2 a j) k = ix2 a k := by
  funext c; match c with | ⟨0, _⟩ => rfl | ⟨1, _⟩ => rfl
theorem rr25 (a : Fin 4096) (j : Fin 32) (k : Fin 1024) : ridx_main_v25 (ix2 a j) k = ix2 k j := by
  funext c; match c with | ⟨0, _⟩ => rfl | ⟨1, _⟩ => rfl
theorem bi27 (a : Fin 4096) (j : Fin 32) : idx_main_v26 (idx_main_v27 (ix2 a j)) = ix1 j := by
  funext c; match c with | ⟨0, _⟩ => rfl
/-- The encoder's third affine layer on neighbour row r = 32·b + n: the code of neighbour n of centre b. -/
theorem r28 (r : Fin 4096) (b : Fin 128) (n : Fin 32) (hr : r.val = b.val * 32 + n.val) (k : Fin 32) :
    val_main_v28 (F := Ideal) A.xnn A.We1 A.be1 A.We2 A.be2 A.We3 A.be3 (ix2 r k) = enc A (nRow A b n) k := by
  rw [val_main_v28_apply, val_main_v25_apply, val_main_v27_apply, val_main_v26_apply]
  simp only [l25, rr25, bi27, r24 A r b n hr]
  rfl

/-! ## The decoder on the centre codes -/

theorem l30 (a : Fin 128) (j : Fin 1024) (k : Fin 32) : lidx_main_v30 (ix2 a j) k = ix2 a k := by
  funext c; match c with | ⟨0, _⟩ => rfl | ⟨1, _⟩ => rfl
theorem rr30 (a : Fin 128) (j : Fin 1024) (k : Fin 32) : ridx_main_v30 (ix2 a j) k = ix2 k j := by
  funext c; match c with | ⟨0, _⟩ => rfl | ⟨1, _⟩ => rfl
theorem bi32 (a : Fin 128) (j : Fin 1024) : idx_main_v31 (idx_main_v32 (ix2 a j)) = ix1 j := by
  funext c; match c with | ⟨0, _⟩ => rfl
/-- The decoder's first pre-activation at the code of centre b. -/
theorem r33 (b : Fin 128) (j : Fin 1024) :
    val_main_v33 (F := Ideal) A.xc A.We1 A.be1 A.We2 A.be2 A.We3 A.be3 A.Wd1 A.bd1 (ix2 b j) = pre1 A (cRow A b) j := by
  rw [val_main_v33_apply, val_main_v30_apply, val_main_v32_apply, val_main_v31_apply]
  simp only [l30, rr30, bi32, r13 A b]
  rfl

/-- Its positive part. -/
theorem r34 (b : Fin 128) (j : Fin 1024) :
    val_main_v34 (F := Ideal) A.xc A.We1 A.be1 A.We2 A.be2 A.We3 A.be3 A.Wd1 A.bd1 (ix2 b j) = relu (pre1 A (cRow A b)) j := by
  rw [val_main_v34_apply, val_main_call4_v0_apply, val_main_call4_cst_apply, r33 A b]
  show max _ (Ideal.ofBits .f32 0x00000000#32) = max _ 0
  rw [Ideal.ofBits_zero_f32]

theorem l35 (a : Fin 128) (j : Fin 1024) (k : Fin 1024) : lidx_main_v35 (ix2 a j) k = ix2 a k := by
  funext c; match c with | ⟨0, _⟩ => rfl | ⟨1, _⟩ => rfl
theorem rr35 (a : Fin 128) (j : Fin 1024) (k : Fin 1024) : ridx_main_v35 (ix2 a j) k = ix2 k j := by
  funext c; match c with | ⟨0, _⟩ => rfl | ⟨1, _⟩ => rfl
theorem bi37 (a : Fin 128) (j : Fin 1024) : idx_main_v36 (idx_main_v37 (ix2 a j)) = ix1 j := by
  funext c; match c with | ⟨0, _⟩ => rfl
/-- The decoder's second pre-activation at the code of centre b. -/
theorem r38 (b : Fin 128) (j : Fin 1024) :
    val_main_v38 (F := Ideal) A.xc A.We1 A.be1 A.We2 A.be2 A.We3 A.be3 A.Wd1 A.bd1 A.Wd2 A.bd2 (ix2 b j) = pre2 A (cRow A b) j := by
  rw [val_main_v38_apply, val_main_v35_apply, val_main_v37_apply, val_main_v36_apply]
  simp only [l35, rr35, bi37, r34 A b]
  rfl

/-- Its positive part. -/
theorem r39 (b : Fin 128) (j : Fin 1024) :
    val_main_v39 (F := Ideal) A.xc A.We1 A.be1 A.We2 A.be2 A.We3 A.be3 A.Wd1 A.bd1 A.Wd2 A.bd2 (ix2 b j) = relu (pre2 A (cRow A b)) j := by
  rw [val_main_v39_apply, val_main_call5_v0_apply, val_main_call5_cst_apply, r38 A b]
  show max _ (Ideal.ofBits .f32 0x00000000#32) = max _ 0
  rw [Ideal.ofBits_zero_f32]

theorem l40 (a : Fin 128) (j : Fin 3072) (k : Fin 1024) : lidx_main_v40 (ix2 a j) k = ix2 a k := by
  funext c; match c with | ⟨0, _⟩ => rfl | ⟨1, _⟩ => rfl
theorem rr40 (a : Fin 128) (j : Fin 3072) (k : Fin 1024) : ridx_main_v40 (ix2 a j) k = ix2 k j := by
  funext c; match c with | ⟨0, _⟩ => rfl | ⟨1, _⟩ => rfl
theorem bi42 (a : Fin 128) (j : Fin 3072) : idx_main_v41 (idx_main_v42 (ix2 a j)) = ix1 j := by
  funext c; match c with | ⟨0, _⟩ => rfl
/-- The decoder's output at the code of centre b: the reconstruction of centre b. -/
theorem r43 (b : Fin 128) (d : Fin 3072) :
    val_main_v43 (F := Ideal) A.xc A.We1 A.be1 A.We2 A.be2 A.We3 A.be3 A.Wd1 A.bd1 A.Wd2 A.bd2 A.Wd3 A.bd3 (ix2 b d) = recon A (cRow A b) d := by
  rw [val_main_v43_apply, val_main_v40_apply, val_main_v42_apply, val_main_v41_apply]
  simp only [l40, rr40, bi42, r39 A b]
  rfl

/-! ## The code differences, and the centre codes repeated on the neighbour rows -/

/-- Entry (b, n, k) of the three-axis arrangement is entry (r, k) of the rows, r = 32·b + n. -/
theorem i29 (r : Fin 4096) (b : Fin 128) (n : Fin 32) (hr : r.val = b.val * 32 + n.val) (k : Fin 32) :
    idx_main_v29 (ix3 b n k) = ix2 r k := by
  have hk := k.isLt
  funext c
  match c with
  | ⟨0, _⟩ => exact Fin.ext (by show ((b.val * 32 + n.val) * 32 + k.val) / 32 = r.val; omega)
  | ⟨1, _⟩ => exact Fin.ext (by show ((b.val * 32 + n.val) * 32 + k.val) % 32 = k.val; omega)

/-- Entry (r, k) of the rows, r = 32·b + n, is entry (b, n, k) of the three-axis arrangement. -/
theorem i47 (r : Fin 4096) (b : Fin 128) (n : Fin 32) (hr : r.val = b.val * 32 + n.val) (k : Fin 32) :
    idx_main_v47 (ix2 r k) = ix3 b n k := by
  have hk := k.isLt
  have hn := n.isLt
  funext c
  match c with
  | ⟨0, _⟩ => exact Fin.ext (by show (r.val * 32 + k.val) / 1024 = b.val; omega)
  | ⟨1, _⟩ => exact Fin.ext (by show (r.val * 32 + k.val) / 32 % 32 = n.val; omega)
  | ⟨2, _⟩ => exact Fin.ext (by show (r.val * 32 + k.val) % 32 = k.val; omega)
theorem i50 (r : Fin 4096) (b : Fin 128) (n : Fin 32) (hr : r.val = b.val * 32 + n.val) (k : Fin 32) :
    idx_main_v50 (ix2 r k) = ix3 b n k := by
  have hk := k.isLt
  have hn := n.isLt
  funext c
  match c with
  | ⟨0, _⟩ => exact Fin.ext (by show (r.val * 32 + k.val) / 1024 = b.val; omega)
  | ⟨1, _⟩ => exact Fin.ext (by show (r.val * 32 + k.val) / 32 % 32 = n.val; omega)
  | ⟨2, _⟩ => exact Fin.ext (by show (r.val * 32 + k.val) % 32 = k.val; omega)

/-- The centre codes broadcast along the neighbour axis: entry (b, n, k) reads entry (b, k). -/
theorem i45 (b : Fin 128) (n : Fin 32) (k : Fin 32) : idx_main_v44 (idx_main_v45 (ix3 b n k)) = ix2 b k := by
  funext c; match c with | ⟨0, _⟩ => rfl | ⟨1, _⟩ => rfl
theorem i49 (b : Fin 128) (n : Fin 32) (k : Fin 32) : idx_main_v48 (idx_main_v49 (ix3 b n k)) = ix2 b k := by
  funext c; match c with | ⟨0, _⟩ => rfl | ⟨1, _⟩ => rfl

/-- The code difference of neighbour n of centre b from its centre, on row r = 32·b + n. -/
theorem r47 (r : Fin 4096) (b : Fin 128) (n : Fin 32) (hr : r.val = b.val * 32 + n.val) (k : Fin 32) :
    val_main_v47 (F := Ideal) A.xc A.xnn A.We1 A.be1 A.We2 A.be2 A.We3 A.be3 (ix2 r k) = dz A (cRow A b) (nRow A b n) k := by
  rw [val_main_v47_apply, i47 r b n hr k, val_main_v46_apply, val_main_v29_apply, i29 r b n hr k, r28 A r b n hr k,
    val_main_v45_apply, val_main_v44_apply, i45 b n k, r13 A b k]
  rfl

/-- The code of centre b repeated on each of its neighbour rows r = 32·b + n. -/
theorem r50 (r : Fin 4096) (b : Fin 128) (n : Fin 32) (hr : r.val = b.val * 32 + n.val) (k : Fin 32) :
    val_main_v50 (F := Ideal) A.xc A.We1 A.be1 A.We2 A.be2 A.We3 A.be3 (ix2 r k) = enc A (cRow A b) k := by
  rw [val_main_v50_apply, i50 r b n hr k, val_main_v49_apply, val_main_v48_apply, i49 b n k, r13 A b k]

end Cert.RefEnc

end
-- ==== Proof.RefJac.lean ====
/-
  The reference's later stages, read as the formulas of the specification.

  On the 4096 repeated rows (row r is neighbour n of centre b when r = 32 b + n) the reference recomputes the
  decoder's pre-activations at the centre's code, pushes the code difference through the decoder's three weight
  matrices keeping a hidden coordinate where its pre-activation is positive (a selection against zero), adds the
  decoder's output at the centre, subtracts the whole from the neighbour, squares and sums over the 3072 coordinates,
  multiplies by the distance weight, sums over all pairs and divides by their number.  Each lemma below reads one
  stage at explicit coordinates as the corresponding function of `Cert.Spec`; the last one reads the final scalar
  as `lossR`.  The three earlier stages these depend on (the decoder's output at the centres, the code difference
  and the centre's code on the repeated rows) enter as hypotheses.
-/
import proofs.«157039_j16423954940420_2_alg».proof.Proof.Gen.ReferenceIdeal.Read
import proofs.«157039_j16423954940420_2_alg».proof.Proof.Spec
import Idealize.ShloMosaic.Lib.IdealHost

noncomputable section

namespace Cert.RefJac

open Cert.ReferenceIdeal Cert.ReferenceIdeal.Gen Cert.ReferenceIdeal.Read Cert.Spec
open Idealize.ShloMosaic Idealize.ShloMosaic.ValueIdx

/-- The comparison of the exact instance is the comparison on the extended reals. -/
theorem cmpf_def (p : CmpFPredicate) (x y : EReal) : FloatOps.cmpf (F := Ideal) (φ := .f32) p x y = Ideal.cmp p x y := rfl

/-! ## Index equations -/

theorem lidx_v51 (r : Fin 4096) (j : Fin 1024) (k : Fin 32) : lidx_main_v51 (ix2 r j) k = ix2 r k :=
  funext fun a => by match a with | ⟨0, _⟩ => rfl | ⟨1, _⟩ => rfl
theorem ridx_v51 (r : Fin 4096) (j : Fin 1024) (k : Fin 32) : ridx_main_v51 (ix2 r j) k = ix2 k j :=
  funext fun a => by match a with | ⟨0, _⟩ => rfl | ⟨1, _⟩ => rfl

theorem lidx_v53 (r : Fin 4096) (j : Fin 1024) (k : Fin 32) : lidx_main_v53 (ix2 r j) k = ix2 r k :=
  funext fun a => by match a with | ⟨0, _⟩ => rfl | ⟨1, _⟩ => rfl
theorem ridx_v53 (r : Fin 4096) (j : Fin 1024) (k : Fin 32) : ridx_main_v53 (ix2 r j) k = ix2 k j :=
  funext fun a => by match a with | ⟨0, _⟩ => rfl | ⟨1, _⟩ => rfl

theorem idx_v55 (r : Fin 4096) (j : Fin 1024) : idx_main_v54 (idx_main_v55 (ix2 r j)) = ix1 j :=
  funext fun a => by match a with | ⟨0, _⟩ => rfl

/-! ## The first decoder layer on the repeated rows -/

/-- The first pre-activation on row r is the one at the centre's code. -/
theorem r56 (A : Args) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (r : Fin 4096) (b : Fin 128) (n : Fin 32) (hr : r.val = b.val * 32 + n.val) (j : Fin 1024) :
    val_main_v56 (F := Ideal) A.xc A.We1 A.be1 A.We2 A.be2 A.We3 A.be3 A.Wd1 A.bd1 (ix2 r j) = pre1 A (cRow A b) j := by
  rw [val_main_v56_apply, val_main_v51_apply, val_main_v55_apply, val_main_v54_apply, idx_v55, Ideal.addf_def]
  simp only [lidx_v51, ridx_v51, h50 r b n hr]
  rfl

/-- The code difference through the first weight matrix. -/
theorem r53 (A : Args) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (r : Fin 4096) (b : Fin 128) (n : Fin 32) (hr : r.val = b.val * 32 + n.val) (j : Fin 1024) :
    val_main_v53 (F := Ideal) A.xc A.xnn A.We1 A.be1 A.We2 A.be2 A.We3 A.be3 A.Wd1 (ix2 r j) = lin A.Wd1 (dz A (cRow A b) (nRow A b n)) j := by
  rw [val_main_v53_apply]
  simp only [lidx_v53, ridx_v53, h47 r b n hr]
  rfl

/-! ## The selections against zero and the second layer -/

theorem idx_v70 (r : Fin 4096) (j : Fin 1024) : idx_main_v69 (idx_main_v70 (ix2 r j)) = ix1 j :=
  funext fun a => by match a with | ⟨0, _⟩ => rfl

theorem lidx_v66 (r : Fin 4096) (j : Fin 1024) (k : Fin 1024) : lidx_main_v66 (ix2 r j) k = ix2 r k :=
  funext fun a => by match a with | ⟨0, _⟩ => rfl | ⟨1, _⟩ => rfl
theorem ridx_v66 (r : Fin 4096) (j : Fin 1024) (k : Fin 1024) : ridx_main_v66 (ix2 r j) k = ix2 k j :=
  funext fun a => by match a with | ⟨0, _⟩ => rfl | ⟨1, _⟩ => rfl

theorem lidx_v68 (r : Fin 4096) (j : Fin 1024) (k : Fin 1024) : lidx_main_v68 (ix2 r j) k = ix2 r k :=
  funext fun a => by match a with | ⟨0, _⟩ => rfl | ⟨1, _⟩ => rfl
theorem ridx_v68 (r : Fin 4096) (j : Fin 1024) (k : Fin 1024) : ridx_main_v68 (ix2 r j) k = ix2 k j :=
  funext fun a => by match a with | ⟨0, _⟩ => rfl | ⟨1, _⟩ => rfl

theorem lidx_v83 (r : Fin 4096) (j : Fin 3072) (k : Fin 1024) : lidx_main_v83 (ix2 r j) k = ix2 r k :=
  funext fun a => by match a with | ⟨0, _⟩ => rfl | ⟨1, _⟩ => rfl
theorem ridx_v83 (r : Fin 4096) (j : Fin 3072) (k : Fin 1024) : ridx_main_v83 (ix2 r j) k = ix2 k j :=
  funext fun a => by match a with | ⟨0, _⟩ => rfl | ⟨1, _⟩ => rfl

/-- The first hidden layer on row r: the positive part of the first pre-activation. -/
theorem r57 (A : Args) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (r : Fin 4096) (b : Fin 128) (n : Fin 32) (hr : r.val = b.val * 32 + n.val) (j : Fin 1024) :
    val_main_v57 (F := Ideal) A.xc A.We1 A.be1 A.We2 A.be2 A.We3 A.be3 A.Wd1 A.bd1 (ix2 r j) = relu (pre1 A (cRow A b)) j := by
  rw [val_main_v57_apply, r56 A h50 r b n hr, val_main_call6_v0_apply, val_main_call6_cst_apply, Ideal.ofBits_def,
    Ideal.ofBits_zero_f32, Ideal.maximumf_def]
  rfl

/-- The first selection: the code difference through the first matrix, kept where the first pre-activation is positive. -/
theorem r65 (A : Args) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (r : Fin 4096) (b : Fin 128) (n : Fin 32) (hr : r.val = b.val * 32 + n.val) (j : Fin 1024) :
    val_main_v65 (F := Ideal) A.xc A.xnn A.We1 A.be1 A.We2 A.be2 A.We3 A.be3 A.Wd1 A.bd1 (ix2 r j) = j1R A (cRow A b) (nRow A b n) j := by
  rw [val_main_v65_apply, val_main_v63_apply, r56 A h50 r b n hr, r53 A h47 r b n hr, val_main_v62_apply,
    val_main_cst_1_apply, val_main_v64_apply, val_main_cst_2_apply, Ideal.ofBits_def, Ideal.ofBits_zero_f32, cmpf_def]
  rfl

/-- The second pre-activation on row r is the one at the centre's code. -/
theorem r71 (A : Args) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (r : Fin 4096) (b : Fin 128) (n : Fin 32) (hr : r.val = b.val * 32 + n.val) (j : Fin 1024) :
    val_main_v71 (F := Ideal) A.xc A.We1 A.be1 A.We2 A.be2 A.We3 A.be3 A.Wd1 A.bd1 A.Wd2 A.bd2 (ix2 r j) = pre2 A (cRow A b) j := by
  rw [val_main_v71_apply, val_main_v66_apply, val_main_v70_apply, val_main_v69_apply, idx_v70, Ideal.addf_def]
  simp only [lidx_v66, ridx_v66, r57 A h50 r b n hr]
  rfl

/-- The first selection through the second weight matrix. -/
theorem r68 (A : Args) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (r : Fin 4096) (b : Fin 128) (n : Fin 32) (hr : r.val = b.val * 32 + n.val) (j : Fin 1024) :
    val_main_v68 (F := Ideal) A.xc A.xnn A.We1 A.be1 A.We2 A.be2 A.We3 A.be3 A.Wd1 A.bd1 A.Wd2 (ix2 r j) = lin A.Wd2 (j1R A (cRow A b) (nRow A b n)) j := by
  rw [val_main_v68_apply]
  simp only [lidx_v68, ridx_v68, r65 A h47 h50 r b n hr]
  rfl

/-- The second selection: kept where the second pre-activation is positive. -/
theorem r80 (A : Args) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (r : Fin 4096) (b : Fin 128) (n : Fin 32) (hr : r.val = b.val * 32 + n.val) (j : Fin 1024) :
    val_main_v80 (F := Ideal) A.xc A.xnn A.We1 A.be1 A.We2 A.be2 A.We3 A.be3 A.Wd1 A.bd1 A.Wd2 A.bd2 (ix2 r j) = j2R A (cRow A b) (nRow A b n) j := by
  rw [val_main_v80_apply, val_main_v78_apply, r71 A h50 r b n hr, r68 A h47 h50 r b n hr, val_main_v77_apply,
    val_main_cst_5_apply, val_main_v79_apply, val_main_cst_6_apply, Ideal.ofBits_def, Ideal.ofBits_zero_f32, cmpf_def]
  rfl

/-- The first-order term: the second selection through the third weight matrix. -/
theorem r83 (A : Args) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (r : Fin 4096) (b : Fin 128) (n : Fin 32) (hr : r.val = b.val * 32 + n.val) (d : Fin 3072) :
    val_main_v83 (F := Ideal) A.xc A.xnn A.We1 A.be1 A.We2 A.be2 A.We3 A.be3 A.Wd1 A.bd1 A.Wd2 A.bd2 A.Wd3 (ix2 r d) = jacR A (cRow A b) (nRow A b n) d := by
  rw [val_main_v83_apply]
  simp only [lidx_v83, ridx_v83, r80 A h47 h50 r b n hr]
  rfl

/-! ## The squared error of one pair -/

theorem idx_v97 (b : Fin 128) (n : Fin 32) (k : Fin 3072) : idx_main_v97 (ix2 b n) k = ix3 b n k :=
  funext fun a => by match a with | ⟨0, _⟩ => rfl | ⟨1, _⟩ => rfl | ⟨2, _⟩ => rfl
theorem idx_v93 (b : Fin 128) (n : Fin 32) (d : Fin 3072) : idx_main_v88 (idx_main_v93 (ix3 b n d)) = ix2 b d :=
  funext fun a => by match a with | ⟨0, _⟩ => rfl | ⟨1, _⟩ => rfl
/-- Row 32 b + n of the flattened array is neighbour n of centre b. -/
theorem idx_v92 (r : Fin 4096) (b : Fin 128) (n : Fin 32) (hr : r.val = b.val * 32 + n.val) (d : Fin 3072) : idx_main_v92 (ix3 b n d) = ix2 r d :=
  funext fun a => Fin.ext (by
    have hd := d.isLt
    match a with
    | ⟨0, _⟩ => show ((b.val * 32 + n.val) * 3072 + d.val) / 3072 = r.val; omega
    | ⟨1, _⟩ => show ((b.val * 32 + n.val) * 3072 + d.val) % 3072 = d.val; omega)

/-- One coordinate's squared residual: the neighbour minus the whole first-order prediction. -/
theorem r96 (A : Args) (h43 : ∀ (b : Fin 128) (d : Fin 3072), val_main_v43 (F := Ideal) A.xc A.We1 A.be1 A.We2 A.be2 A.We3 A.be3 A.Wd1 A.bd1 A.Wd2 A.bd2 A.Wd3 A.bd3 (ix2 b d) = recon A (cRow A b) d) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (b : Fin 128) (n : Fin 32) (d : Fin 3072) :
    val_main_v96 (F := Ideal) A.xc A.xnn A.We1 A.be1 A.We2 A.be2 A.We3 A.be3 A.Wd1 A.bd1 A.Wd2 A.bd2 A.Wd3 A.bd3 (ix3 b n d) = (nRow A b n d - (recon A (cRow A b) d + (jacR A (cRow A b) (nRow A b n) d + half * 0))) * (nRow A b n d - (recon A (cRow A b) d + (jacR A (cRow A b) (nRow A b n) d + half * 0))) := by
  have hb := b.isLt
  have hn := n.isLt
  have hr : (⟨b.val * 32 + n.val, by omega⟩ : Fin 4096).val = b.val * 32 + n.val := rfl
  rw [val_main_v96_apply, val_main_v95_apply, val_main_v94_apply, val_main_v93_apply, val_main_v88_apply, idx_v93, h43,
    val_main_v92_apply, idx_v92 _ b n hr d, val_main_v91_apply, r83 A h47 h50 _ b n hr, val_main_v90_apply,
    val_main_v89_apply, val_main_cst_8_apply, val_main_v87_apply, val_main_cst_7_apply]
  simp only [Ideal.ofBits_def, Ideal.ofBits_zero_f32, Ideal.mulf_def, Ideal.addf_def, Ideal.subf_def]
  rfl

/-- The squared error of the pair (b, n), summed over the 3072 coordinates. -/
theorem r97 (A : Args) (h43 : ∀ (b : Fin 128) (d : Fin 3072), val_main_v43 (F := Ideal) A.xc A.We1 A.be1 A.We2 A.be2 A.We3 A.be3 A.Wd1 A.bd1 A.Wd2 A.bd2 A.Wd3 A.bd3 (ix2 b d) = recon A (cRow A b) d) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (b : Fin 128) (n : Fin 32) :
    val_main_v97 (F := Ideal) A.xc A.xnn A.We1 A.be1 A.We2 A.be2 A.We3 A.be3 A.Wd1 A.bd1 A.Wd2 A.bd2 A.Wd3 A.bd3 (ix2 b n) = nlR A (cRow A b) (nRow A b n) := by
  rw [val_main_v97_apply, val_main_cst_9_apply, Ideal.ofBits_def, Ideal.ofBits_zero_f32]
  simp only [idx_v97, r96 A h43 h47 h50]
  rfl

/-! ## The distance weight -/

theorem idx_v99 (b : Fin 128) (n : Fin 32) (d : Fin 3072) : idx_main_v98 (idx_main_v99 (ix3 b n d)) = ix2 b d :=
  funext fun a => by match a with | ⟨0, _⟩ => rfl | ⟨1, _⟩ => rfl
theorem idx_c8 (b : Fin 128) (n : Fin 32) (k : Fin 3072) : idx_main_call8_v1 (ix2 b n) k = ix3 b n k :=
  funext fun a => by match a with | ⟨0, _⟩ => rfl | ⟨1, _⟩ => rfl | ⟨2, _⟩ => rfl

/-- The weight of the pair (b, n): one where the neighbour is farther than ε from its centre, one half otherwise. -/
theorem r105 (A : Args) (b : Fin 128) (n : Fin 32) :
    val_main_v105 (F := Ideal) A.xc A.xnn (ix2 b n) = wgtR (cRow A b) (nRow A b n) := by
  rw [val_main_v105_apply, val_main_v104_apply, val_main_v103_apply, val_main_v101_apply, val_main_call8_v1_apply,
    val_main_call8_cst_apply, val_main_v102_apply, val_main_cst_10_apply, val_main_call9_v0_apply, val_main_cst_11_apply,
    val_main_call9_v1_apply, val_main_cst_12_apply]
  simp only [idx_c8, val_main_call8_v0_apply, val_main_v100_apply, val_main_v99_apply, val_main_v98_apply, idx_v99,
    Ideal.ofBits_def, Ideal.ofBits_zero_f32, Ideal.mulf_def, Ideal.subf_def, Ideal.hostUnary_sqrt_def, cmpf_def]
  rfl

/-! ## The weighted term, the sum over all pairs and the mean -/

/-- One pair's weighted squared error. -/
theorem r106 (A : Args) (h43 : ∀ (b : Fin 128) (d : Fin 3072), val_main_v43 (F := Ideal) A.xc A.We1 A.be1 A.We2 A.be2 A.We3 A.be3 A.Wd1 A.bd1 A.Wd2 A.bd2 A.Wd3 A.bd3 (ix2 b d) = recon A (cRow A b) d) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (b : Fin 128) (n : Fin 32) :
    val_main_v106 (F := Ideal) A.xc A.xnn A.We1 A.be1 A.We2 A.be2 A.We3 A.be3 A.Wd1 A.bd1 A.Wd2 A.bd2 A.Wd3 A.bd3 (ix2 b n) = termR A (cRow A b) (nRow A b n) := by
  rw [val_main_v106_apply, r105, r97 A h43 h47 h50, Ideal.mulf_def]
  rfl

/-- The reference's result is the loss in its selecting arrangement. -/
theorem ref_loss (A : Args) (h43 : ∀ (b : Fin 128) (d : Fin 3072), val_main_v43 (F := Ideal) A.xc A.We1 A.be1 A.We2 A.be2 A.We3 A.be3 A.Wd1 A.bd1 A.Wd2 A.bd2 A.Wd3 A.bd3 (ix2 b d) = recon A (cRow A b) d) (h47 : ∀ (r : Fin 4096) (b : Fin 128) (n : Fin 32), r.val = b.val * 32 + n.val → ∀ k : Fin 32, val_main_v47 (F := Ideal) A.xc A.xnn A.We1 A.be1 A.We2 A.be2 A.We3 A.be3 (ix2 r k) = dz A (cRow A b) (nRow A b n) k) (h50 : ∀ (r : Fin 4096) (b : Fin 128) (n : Fin 32), r.val = b.val * 32 + n.val → ∀ k : Fin 32, val_main_v50 (F := Ideal) A.xc A.We1 A.be1 A.We2 A.be2 A.We3 A.be3 (ix2 r k) = enc A (cRow A b) k) (i : S_.Idx) :
    val_main_v108 (F := Ideal) A.xc A.xnn A.We1 A.be1 A.We2 A.be2 A.We3 A.be3 A.Wd1 A.bd1 A.Wd2 A.bd2 A.Wd3 A.bd3 i = lossR A := by
  have hs : (∑ j : S128x32.Idx, val_main_v106 (F := Ideal) A.xc A.xnn A.We1 A.be1 A.We2 A.be2 A.We3 A.be3 A.Wd1 A.bd1 A.Wd2 A.bd2 A.Wd3 A.bd3 j)
      = ∑ j : (⟨2, ![128, 32]⟩ : Shape).Idx, termR A (cRow A (j 0)) (nRow A (j 0) (j 1)) :=
    Finset.sum_congr rfl fun j _ =>
      (congrArg (val_main_v106 (F := Ideal) A.xc A.xnn A.We1 A.be1 A.We2 A.be2 A.We3 A.be3 A.Wd1 A.bd1 A.Wd2 A.bd2 A.Wd3 A.bd3) (eq_ix2 j)).trans (r106 A h43 h47 h50 (j 0) (j 1))
  rw [val_main_v108_apply, val_main_v107_apply, val_main_cst_13_apply, val_main_cst_14_apply, hs]
  simp only [Ideal.ofBits_def, Ideal.ofBits_zero_f32, Ideal.hostDivf_def]
  rfl

end Cert.RefJac

end
-- ==== Proof.SpecLaws.lean ====
/-
  The two arrangements of the loss are one number when the arguments are finite.

  Three laws carry it.  (1) x · 1 = x and x · 0 = 0 on every extended real, so multiplying by the 0/1 indicator of
  v > 0 is selecting x where v > 0 and 0 elsewhere.  (2) Finite arguments make every layer's output finite — a finite sum
  of products of reals, a sum of reals, a maximum with 0 —, in particular the decoder's output r at the centre's code;
  and for a REAL r, x − (r + j) = (x − r) − j whatever j is (with r infinite the two sides can differ, which is where
  finiteness is used).  (3) A sum over the pairs (b, n) is the sum over b of the sums over n, and a sum over a 128 × 1
  index set is the sum over its first coordinate.
-/
import proofs.«157039_j16423954940420_2_alg».proof.Proof.Spec

noncomputable section

namespace Cert.Spec

open Idealize.ShloMosaic Idealize.ShloMosaic.ValueIdx

/-! ## The indicator as a factor is a selection -/

theorem mul_ind (x v : EReal) : x * ind v = Scalar.select (Ideal.cmp .ogt v 0) x 0 := by
  unfold ind Ideal.cmp Scalar.select
  by_cases h : (0 : EReal) < v
  · have e : BitVec.ofBool (decide ((0 : EReal) < v)) = 1#1 := by simp [h]
    simp only [e]
    have : ((1#1 : BitVec 1).setWidth 32).toInt = 1 := by decide
    rw [this]; simp
  · have e : BitVec.ofBool (decide ((0 : EReal) < v)) = 0#1 := by simp [h]
    simp only [e]
    have : ((0#1 : BitVec 1).setWidth 32).toInt = 0 := by decide
    rw [this]; simp

/-! ## Finiteness through the layers -/

/-- An extended real that is a real number. -/
def IsR (v : EReal) : Prop := ∃ r : ℝ, v = (r : EReal)

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max0 {a : EReal} (ha : IsR a) : IsR (max a 0) := by
  obtain ⟨r, rfl⟩ := ha
  rcases le_total (r : EReal) 0 with h | h
  · rw [max_eq_right h]; exact ⟨0, rfl⟩
  · rw [max_eq_left h]; exact ⟨r, rfl⟩

theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isR_lin {K N : Nat} (W : (⟨2, ![K, N]⟩ : Shape).Idx → EReal) (x : Fin K → EReal)
    (hW : ∀ i, IsR (W i)) (hx : ∀ k, IsR (x k)) (j : Fin N) : IsR (lin W x j) :=
  IsR.sum _ _ fun k _ => (hx k).mul (hW _)

theorem isR_aff {K N : Nat} (W : (⟨2, ![K, N]⟩ : Shape).Idx → EReal) (b : (⟨1, ![N]⟩ : Shape).Idx → EReal)
    (x : Fin K → EReal) (hW : ∀ i, IsR (W i)) (hb : ∀ i, IsR (b i)) (hx : ∀ k, IsR (x k)) (j : Fin N) :
    IsR (aff W b x j) :=
  (isR_lin W x hW hx j).add (hb _)

theorem isR_relu {N : Nat} (x : Fin N → EReal) (hx : ∀ k, IsR (x k)) (j : Fin N) : IsR (relu x j) := (hx j).max0

variable (A : Args)

theorem isR_enc (hA : A.Finite) (x : Fin 3072 → EReal) (hx : ∀ k, IsR (x k)) (k : Fin 32) : IsR (enc A x k) :=
  isR_aff _ _ _ hA.We3 hA.be3 (isR_relu _ (isR_aff _ _ _ hA.We2 hA.be2 (isR_relu _ (isR_aff _ _ _ hA.We1 hA.be1 hx)))) k

theorem isR_recon (hA : A.Finite) (x : Fin 3072 → EReal) (hx : ∀ k, IsR (x k)) (d : Fin 3072) : IsR (recon A x d) :=
  isR_aff _ _ _ hA.Wd3 hA.bd3 (isR_relu _ (isR_aff _ _ _ hA.Wd2 hA.bd2 (isR_relu _ (isR_aff _ _ _ hA.Wd1 hA.bd1
    (isR_enc A hA x hx))))) d

/-! ## Subtracting a sum one term after the other -/

theorem sub_add_real (x j : EReal) (r : ℝ) : x - ((r : EReal) + j) = (x - (r : EReal)) - j := by
  rw [sub_eq_add_neg, sub_eq_add_neg, sub_eq_add_neg,
    EReal.neg_add (Or.inl (EReal.coe_ne_bot r)) (Or.inl (EReal.coe_ne_top r)), sub_eq_add_neg, add_assoc]

/-! ## The sums -/

theorem sum_rows (f : Fin 128 → EReal) :
    ∑ i : (⟨2, ![128, 1]⟩ : Shape).Idx, f (i 0) = ∑ b : Fin 128, f b := by
  rw [sum_idx2]
  refine Finset.sum_congr rfl fun a _ => ?_
  rw [Fintype.sum_unique]

theorem sum_pairs (g : Fin 128 → Fin 32 → EReal) :
    ∑ j : (⟨2, ![128, 32]⟩ : Shape).Idx, g (j 0) (j 1) = ∑ b : Fin 128, ∑ n : Fin 32, g b n := by
  rw [sum_idx2]

/-! ## The two arrangements agree -/

theorem j1_eq (x y : Fin 3072 → EReal) : j1K A x y = j1R A x y := by
  funext j; unfold j1K j1R; exact mul_ind _ _

theorem j2_eq (x y : Fin 3072 → EReal) : j2K A x y = j2R A x y := by
  funext j; unfold j2K j2R; rw [j1_eq]; exact mul_ind _ _

theorem jac_eq (x y : Fin 3072 → EReal) : jacK A x y = jacR A x y := by
  funext d; unfold jacK jacR; rw [j2_eq]

theorem nl_eq (hA : A.Finite) (x y : Fin 3072 → EReal) (hx : ∀ k, IsR (x k)) : nlK A x y = nlR A x y := by
  unfold nlK nlR
  rw [zero_add]
  refine Finset.sum_congr rfl fun d _ => ?_
  obtain ⟨r, hr⟩ := isR_recon A hA x hx d
  have e : y d - (recon A x d + (jacR A x y d + half * 0)) = (y d - recon A x d) - jacK A x y d := by
    rw [mul_zero, add_zero, jac_eq, hr, sub_add_real]
  rw [e]

theorem wgt_eq (x y : Fin 3072 → EReal) : wgtK x y = wgtR x y := by
  unfold wgtK wgtR; rw [zero_add]

theorem term_eq (hA : A.Finite) (x y : Fin 3072 → EReal) (hx : ∀ k, IsR (x k)) : termK A x y = termR A x y := by
  unfold termK termR; rw [wgt_eq, nl_eq A hA x y hx]

theorem loss_eq (hA : A.Finite) : lossK A = lossR A := by
  unfold lossK lossR
  rw [sum_rows (rowK A), sum_pairs fun b n => termR A (cRow A b) (nRow A b n)]
  congr 2
  refine Finset.sum_congr rfl fun b _ => ?_
  unfold rowK
  refine Finset.sum_congr rfl fun n _ => ?_
  exact term_eq A hA _ _ fun k => hA.xc _

end Cert.Spec

end
-- ==== Proof.Bridge.lean ====
/-
  From the two programs' runs to the one specification.

  The kernel's output array holds, at row 8t + p, what grid point t leaves at entry p of its block: centre (8t + p)'s
  weighted sum over its neighbours (the body's arithmetic depends on the block's rows alone, and block t's rows are
  rows 8t … 8t + 7 of the centres and of the neighbours); the host then adds the 128 rows and divides by 4096: the
  arrangement `lossK` of the specification.  The reference's result is the arrangement `lossR`.  The precondition
  makes every argument entry a real number, under which the two arrangements are one number.
-/
import proofs.«157039_j16423954940420_2_alg».proof.Proof.KLoss
import proofs.«157039_j16423954940420_2_alg».proof.Proof.KernelRun
import proofs.«157039_j16423954940420_2_alg».proof.Proof.PreFinite
import proofs.«157039_j16423954940420_2_alg».proof.Proof.RefEnc
import proofs.«157039_j16423954940420_2_alg».proof.Proof.RefJac
import proofs.«157039_j16423954940420_2_alg».proof.Proof.SpecLaws
import proofs.«157039_j16423954940420_2_alg».proof.Proof.Gen.Pre_finite_inputs
import Idealize.ShloMosaic.Lib.IdealHost

noncomputable section

namespace Cert.Proof.Bridge

open Idealize.ShloMosaic Idealize.ShloMosaic.TcCoe Idealize.SL.Sem Idealize.ShloMosaic.ValueIdx Cert.Spec

/-- The kernel program's argument arrays on core c, as the specification's arguments. -/
def argsK (m : (ℓ : Loc Cert.KernelIdeal.nD Cert.KernelIdeal.τ Cert.KernelIdeal.sig) → Buf (Elt Ideal) ℓ)
    (c : Dev Cert.KernelIdeal.nD) : Args where
    xc := m ((c.tc : Thread Cert.KernelIdeal.nD Cert.KernelIdeal.τ).loc Cert.KernelIdeal.main_arg0)
    xnn := m ((c.tc : Thread Cert.KernelIdeal.nD Cert.KernelIdeal.τ).loc Cert.KernelIdeal.main_arg1)
    We1 := m ((c.tc : Thread Cert.KernelIdeal.nD Cert.KernelIdeal.τ).loc Cert.KernelIdeal.main_arg2)
    be1 := m ((c.tc : Thread Cert.KernelIdeal.nD Cert.KernelIdeal.τ).loc Cert.KernelIdeal.main_arg3)
    We2 := m ((c.tc : Thread Cert.KernelIdeal.nD Cert.KernelIdeal.τ).loc Cert.KernelIdeal.main_arg4)
    be2 := m ((c.tc : Thread Cert.KernelIdeal.nD Cert.KernelIdeal.τ).loc Cert.KernelIdeal.main_arg5)
    We3 := m ((c.tc : Thread Cert.KernelIdeal.nD Cert.KernelIdeal.τ).loc Cert.KernelIdeal.main_arg6)
    be3 := m ((c.tc : Thread Cert.KernelIdeal.nD Cert.KernelIdeal.τ).loc Cert.KernelIdeal.main_arg7)
    Wd1 := m ((c.tc : Thread Cert.KernelIdeal.nD Cert.KernelIdeal.τ).loc Cert.KernelIdeal.main_arg8)
    bd1 := m ((c.tc : Thread Cert.KernelIdeal.nD Cert.KernelIdeal.τ).loc Cert.KernelIdeal.main_arg9)
    Wd2 := m ((c.tc : Thread Cert.KernelIdeal.nD Cert.KernelIdeal.τ).loc Cert.KernelIdeal.main_arg10)
    bd2 := m ((c.tc : Thread Cert.KernelIdeal.nD Cert.KernelIdeal.τ).loc Cert.KernelIdeal.main_arg11)
    Wd3 := m ((c.tc : Thread Cert.KernelIdeal.nD Cert.KernelIdeal.τ).loc Cert.KernelIdeal.main_arg12)
    bd3 := m ((c.tc : Thread Cert.KernelIdeal.nD Cert.KernelIdeal.τ).loc Cert.KernelIdeal.main_arg13)

/-- The reference program's argument arrays on core c. -/
def argsR (m : (ℓ : Loc Cert.ReferenceIdeal.nD Cert.ReferenceIdeal.τ Cert.ReferenceIdeal.sig) → Buf (Elt Ideal) ℓ)
    (c : Dev Cert.ReferenceIdeal.nD) : Args where
    xc := m ((c.tc : Thread Cert.ReferenceIdeal.nD Cert.ReferenceIdeal.τ).loc Cert.ReferenceIdeal.main_arg0)
    xnn := m ((c.tc : Thread Cert.ReferenceIdeal.nD Cert.ReferenceIdeal.τ).loc Cert.ReferenceIdeal.main_arg1)
    We1 := m ((c.tc : Thread Cert.ReferenceIdeal.nD Cert.ReferenceIdeal.τ).loc Cert.ReferenceIdeal.main_arg2)
    be1 := m ((c.tc : Thread Cert.ReferenceIdeal.nD Cert.ReferenceIdeal.τ).loc Cert.ReferenceIdeal.main_arg3)
    We2 := m ((c.tc : Thread Cert.ReferenceIdeal.nD Cert.ReferenceIdeal.τ).loc Cert.ReferenceIdeal.main_arg4)
    be2 := m ((c.tc : Thread Cert.ReferenceIdeal.nD Cert.ReferenceIdeal.τ).loc Cert.ReferenceIdeal.main_arg5)
    We3 := m ((c.tc : Thread Cert.ReferenceIdeal.nD Cert.ReferenceIdeal.τ).loc Cert.ReferenceIdeal.main_arg6)
    be3 := m ((c.tc : Thread Cert.ReferenceIdeal.nD Cert.ReferenceIdeal.τ).loc Cert.ReferenceIdeal.main_arg7)
    Wd1 := m ((c.tc : Thread Cert.ReferenceIdeal.nD Cert.ReferenceIdeal.τ).loc Cert.ReferenceIdeal.main_arg8)
    bd1 := m ((c.tc : Thread Cert.ReferenceIdeal.nD Cert.ReferenceIdeal.τ).loc Cert.ReferenceIdeal.main_arg9)
    Wd2 := m ((c.tc : Thread Cert.ReferenceIdeal.nD Cert.ReferenceIdeal.τ).loc Cert.ReferenceIdeal.main_arg10)
    bd2 := m ((c.tc : Thread Cert.ReferenceIdeal.nD Cert.ReferenceIdeal.τ).loc Cert.ReferenceIdeal.main_arg11)
    Wd3 := m ((c.tc : Thread Cert.ReferenceIdeal.nD Cert.ReferenceIdeal.τ).loc Cert.ReferenceIdeal.main_arg12)
    bd3 := m ((c.tc : Thread Cert.ReferenceIdeal.nD Cert.ReferenceIdeal.τ).loc Cert.ReferenceIdeal.main_arg13)

/-- Under the precondition every argument entry is a real number. -/
theorem finiteK (m : (ℓ : Loc Cert.KernelIdeal.nD Cert.KernelIdeal.τ Cert.KernelIdeal.sig) → Buf (Elt Ideal) ℓ)
    (h : Cert.Pre_KernelIdeal m) (c : Dev Cert.KernelIdeal.nD) : (argsK m c).Finite := by
  obtain ⟨h0, h1, h2, h3, h4, h5, h6, h7, h8, h9, h10, h11, h12, h13⟩ := Cert.Proof.PreFinite.finite_of_pre m h c
  exact ⟨h0, h1, h2, h3, h4, h5, h6, h7, h8, h9, h10, h11, h12, h13⟩

section kernel
open Cert.KernelIdeal Cert.KernelIdeal.Gen Cert.KernelIdeal.RunValue Cert.KernelIdeal.KLoss

variable (m : (ℓ : Loc Cert.KernelIdeal.nD Cert.KernelIdeal.τ Cert.KernelIdeal.sig) → Buf (Elt Ideal) ℓ)

/-- Row 8t + p of the output array: what point t leaves at entry p is centre (8t + p)'s sum over its neighbours. -/
theorem rows (c : Dev nD) (t : Fin cfg0.N) (p : Fin 8) :
    out0_14 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix2 p (0 : Fin 1))
      = rowK (argsK m c) ⟨8 * t.val + p.val, row_lt t p⟩ := by
  have e2 : (iblk m c 2 t : Vec Ideal S3072x1024 .bf16) = (argsK m c).We1 := funext fun i => iblk2 m c t i
  have e3 : (iblk m c 3 t : Vec Ideal S1024 .f32) = (argsK m c).be1 := funext fun i => iblk3 m c t i
  have e4 : (iblk m c 4 t : Vec Ideal S1024x1024 .bf16) = (argsK m c).We2 := funext fun i => iblk4 m c t i
  have e5 : (iblk m c 5 t : Vec Ideal S1024 .f32) = (argsK m c).be2 := funext fun i => iblk5 m c t i
  have e6 : (iblk m c 6 t : Vec Ideal S1024x32 .bf16) = (argsK m c).We3 := funext fun i => iblk6 m c t i
  have e7 : (iblk m c 7 t : Vec Ideal S32 .f32) = (argsK m c).be3 := funext fun i => iblk7 m c t i
  have e8 : (iblk m c 8 t : Vec Ideal S32x1024 .bf16) = (argsK m c).Wd1 := funext fun i => iblk8 m c t i
  have e9 : (iblk m c 9 t : Vec Ideal S1024 .f32) = (argsK m c).bd1 := funext fun i => iblk9 m c t i
  have e10 : (iblk m c 10 t : Vec Ideal S1024x1024 .bf16) = (argsK m c).Wd2 := funext fun i => iblk10 m c t i
  have e11 : (iblk m c 11 t : Vec Ideal S1024 .f32) = (argsK m c).bd2 := funext fun i => iblk11 m c t i
  have e12 : (iblk m c 12 t : Vec Ideal S1024x3072 .bf16) = (argsK m c).Wd3 := funext fun i => iblk12 m c t i
  have e13 : (iblk m c 13 t : Vec Ideal S3072 .f32) = (argsK m c).bd3 := funext fun i => iblk13 m c t i
  rw [e2, e3, e4, e5, e6, e7, e8, e9, e10, e11, e12, e13, out_row (argsK m c) (iblk m c 0 t) (iblk m c 1 t) p 0]
  unfold rowK
  refine Finset.sum_congr rfl fun n _ => ?_
  have ex : (fun d => (iblk m c 0 t : Vec Ideal S8x3072 .f32) (ix2 p d)) = cRow (argsK m c) ⟨8 * t.val + p.val, row_lt t p⟩ :=
    funext fun d => iblk0 m c t p d
  have ey : (fun d => (iblk m c 1 t : Vec Ideal S8x32x3072 .f32) (ix3 p n d)) = nRow (argsK m c) ⟨8 * t.val + p.val, row_lt t p⟩ n :=
    funext fun d => iblk1 m c t p n d
  rw [ex, ey]

/-- The host's sum of the 128 rows divided by 4096, read at its one index. -/
theorem tail_eq (f : Fin 128 → EReal) (i : S_.Idx) :
    Host.divf (F := Ideal) (Host.reduceAdd (F := Ideal) (fun j : S128x1.Idx => f (j 0)) (constant (F := Ideal) S_ .f32 0x00000000#32) reducesTo_S128x1_S_d0_1 h_S_)
      (constant (F := Ideal) S_ .f32 0x45800000#32) i
      = Ideal.div (0 + ∑ j : S128x1.Idx, f (j 0)) cnt := by
  show Ideal.div (Host.reduceAdd (F := Ideal) (fun j : S128x1.Idx => f (j 0)) (constant (F := Ideal) S_ .f32 0x00000000#32) reducesTo_S128x1_S_d0_1 h_S_ i)
    (Ideal.ofBits .f32 0x45800000#32) = _
  have e : Host.reduceAdd (F := Ideal) (fun j : S128x1.Idx => f (j 0)) (constant (F := Ideal) S_ .f32 0x00000000#32) reducesTo_S128x1_S_d0_1 h_S_ i
      = 0 + ∑ j : S128x1.Idx, f (j 0) := by
    simp only [Host.reduceAdd, Ideal.hostReduceAdd_def]
    refine (Ideal.hostReduceAdd_total reducesTo_S128x1_S_d0_1 (fun b => b.elim0) _ _ i).trans ?_
    show Ideal.ofBits .f32 0x00000000#32 + _ = _
    rw [Ideal.ofBits_zero_f32]
  rw [e]
  rfl

/-- The kernel program's run: it ends with the arrangement `lossK` of its argument arrays in the result, the
    arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v8) = (fun _ => lossK (argsK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono
    (fun r h c => ⟨(h c).1.trans (funext fun i => tail_eq (rowK (argsK m c)) i), (h c).2⟩)
    (run_of_rows m ρ (fun c j => rowK (argsK m c) (j 0)) (fun c t p => rows m c t p))

end kernel

section reference
open Cert.ReferenceIdeal Cert.ReferenceIdeal.Read

/-- The reference program's result term is the arrangement `lossR` of its argument arrays. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v108 (F := Ideal) m' c = fun _ => lossR (argsR m' c) := by
  rw [val_main_v108_eq]
  funext i
  exact Cert.RefJac.ref_loss (argsR m' c) (Cert.RefEnc.r43 _) (Cert.RefEnc.r47 _) (Cert.RefEnc.r50 _) i

end reference

/-- Memories that agree on the arguments give the same specification arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    argsR m' c = argsK m c := by
  obtain ⟨h0, h1, h2, h3, h4, h5, h6, h7, h8, h9, h10, h11, h12, h13⟩ := h
  unfold argsR argsK
  rw [h0, h1, h2, h3, h4, h5, h6, h7, h8, h9, h10, h11, h12, h13]

end Cert.Proof.Bridge

end
-- ==== Proof.lean ====
/-
  The certificate of a neighbourhood-reconstruction autoencoder loss: a fused kernel over blocks of 8 centres (each with
  its 32 neighbours, 3072 coordinates; encoder and decoder of three dense layers, hidden width 1024, code width 32)
  against the plain reference.

  Frames: each program runs to the end without a fault and leaves its arguments as they were — the kernel's two
  printings by their generated frame runs, the reference by its generated run with the result dropped.  The
  idealization rewrote nothing, so the kernel read at the exact values is its own idealization.  Values, at the exact
  values over the extended reals: the kernel ends with the arrangement `lossK` of the specification (Proof/Spec.lean)
  in its result — block t's body gives rows 8t … 8t + 7 of the per-centre sums, the host adds the rows and divides
  by 4096 —, the reference with the arrangement `lossR`; the two are one number once every argument entry is a real
  number (Proof/SpecLaws.lean: an indicator factor is a selection; a finite decoded row lets the prediction be
  subtracted in two steps; a sum over pairs is an iterated sum), which is what the precondition says.
-/
import proofs.«157039_j16423954940420_2_alg».proof.Defs
import proofs.«157039_j16423954940420_2_alg».proof.Proof.Gen.Kernel
import proofs.«157039_j16423954940420_2_alg».proof.Proof.Gen.Kernel.Skeleton
import proofs.«157039_j16423954940420_2_alg».proof.Proof.Gen.Kernel.Launch
import proofs.«157039_j16423954940420_2_alg».proof.Proof.Gen.Kernel.Points
import proofs.«157039_j16423954940420_2_alg».proof.Proof.Gen.Kernel.Frame
import proofs.«157039_j16423954940420_2_alg».proof.Proof.Gen.KernelIdeal
import proofs.«157039_j16423954940420_2_alg».proof.Proof.Gen.KernelIdeal.Skeleton
import proofs.«157039_j16423954940420_2_alg».proof.Proof.Gen.KernelIdeal.Launch
import proofs.«157039_j16423954940420_2_alg».proof.Proof.Gen.KernelIdeal.Points
import proofs.«157039_j16423954940420_2_alg».proof.Proof.Gen.KernelIdeal.Frame
import proofs.«157039_j16423954940420_2_alg».proof.Proof.Gen.ReferenceIdeal
import proofs.«157039_j16423954940420_2_alg».proof.Proof.Gen.ReferenceIdeal.Run
import proofs.«157039_j16423954940420_2_alg».proof.Proof.Gen.Pre_finite_inputs
import proofs.«157039_j16423954940420_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's loss of the shared arguments: the kernel with the arrangement `lossK`,
    the reference with `lossR`, equal because the precondition makes the arguments finite. -/
theorem algebraic : Cert.algebraic_KernelIdeal_ReferenceIdeal := by
  intro m ρ m' ρ' hpre hagree
  refine ⟨fun c => fun _ => Cert.Spec.lossK (Bridge.argsK m c), Bridge.kernel_run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v108 (F := Ideal) m' c = fun _ => Cert.Spec.lossK (Bridge.argsK m c)
  rw [Bridge.ref_value, Bridge.args_agree m m' c (hagree c), ← Cert.Spec.loss_eq _ (Bridge.finiteK m hpre c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
